-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S600000 : Shape := ⟨1, ![600000]⟩
abbrev S1x128 : Shape := ⟨2, ![1, 128]⟩
abbrev S128 : Shape := ⟨1, ![128]⟩
abbrev S3x384x128 : Shape := ⟨3, ![3, 384, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S3x384x128 : S_.BroadcastsInDim S3x384x128 (![] : Fin 0 → Fin S3x384x128.rank)
  reducesTo_S3x384x128_S_d0_1_2 : S3x384x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S3x128 .f32) (main_arg7 : FVec F S128x1 .f32) (main_arg8 : FVec F S1 .f32) (main_v13 : IVec S_ 1) (main_v16 : IVec S3x384x128 1) : IVec S_ 1 :=
  let main_c_5 : IVec S_ 1 := constantI S_ 1 1#1
  let main_v17 : IVec S_ 1 := (fun x v => Host.reduce IntOp.andi x v reducesTo_S3x384x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000 .f32) (main_arg1 : IVec S600000 32) (main_arg2 : IVec S600000 32) (main_arg3 : FVec F S1x128 .f32) (main_arg4 : FVec F S128 .f32) (main_arg5 : FVec F S3x384x128 .f32) (main_arg6 : FVec F S3x128 .f32) (main_arg7 : FVec F S128x1 .f32) (main_arg8 : FVec F S1 .f32) : IVec S_ 1 :=
  let main_v0 : FVec F S50000 .f32 := Host.absf main_arg0
  let main_cst : FVec F S_ .f32 := constant S_ .f32 0x7F800000#32
  let main_v1 : FVec F S50000 .f32 := broadcastInDim S50000 ![] bcast_S_S50000 main_cst
  let main_v2 : IVec S50000 1 := cmpf .olt main_v0 main_v1
  let main_c : IVec S_ 1 := constantI S_ 1 1#1
  let main_v3 : IVec S_ 1 := (fun x v => Host.reduce IntOp.andi x v reducesTo_S50000_S_d0 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x384x128 .f32 := Host.absf main_arg5
  let main_cst_4 : FVec F S_ .f32 := constant S_ .f32 0x7F800000#32
  let main_v15 : FVec F S3x384x128 .f32 := broadcastInDim S3x384x128 ![] bcast_S_S3x384x128 main_cst_4
  let main_v16 : IVec S3x384x128 1 := cmpf .olt main_v14 main_v15
  fn_part1 (F := F) main_arg6 main_arg7 main_arg8 main_v13 main_v16
-- ==== Kernel.lean ====
abbrev S50000 : Shape := ⟨1, ![50000]⟩
abbrev S600000 : Shape := ⟨1, ![600000]⟩
abbrev S1x128 : Shape := ⟨2, ![1, 128]⟩
abbrev S128 : Shape := ⟨1, ![128]⟩
abbrev S3x384x128 : Shape := ⟨3, ![3, 384, 128]⟩
abbrev S3x128 : Shape := ⟨2, ![3, 128]⟩
abbrev S128x1 : Shape := ⟨2, ![128, 1]⟩
abbrev S1 : Shape := ⟨1, ![1]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S50000x128 : Shape := ⟨2, ![50000, 128]⟩
abbrev S1x384x128 : Shape := ⟨3, ![1, 384, 128]⟩
abbrev S384x128 : Shape := ⟨2, ![384, 128]⟩
abbrev S650000x128 : Shape := ⟨2, ![650000, 128]⟩
abbrev S128x128 : Shape := ⟨2, ![128, 128]⟩
abbrev S5000x128 : Shape := ⟨2, ![5000, 128]⟩
abbrev S1x1 : Shape := ⟨2, ![1, 1]⟩

abbrev nBuf : Space → Nat
  | .hbm => 225
  | .vmem => 36
  | .smem => 0
  | _ => 0

abbrev hbmTy0_0 (i : Nat) : BufTy := match i % 128 with
  | 0 => ⟨S50000, .f32⟩
  | 1 => ⟨S600000, .i32⟩
  | 2 => ⟨S600000, .i32⟩
  | 3 => ⟨S1x128, .f32⟩
  | 4 => ⟨S128, .f32⟩
  | 5 => ⟨S3x384x128, .f32⟩
  | 6 => ⟨S3x128, .f32⟩
  | 7 => ⟨S128x1, .f32⟩
  | 8 => ⟨S1, .f32⟩
  | 9 => ⟨S50000, .i32⟩
  | 10 => ⟨S650000, .i32⟩
  | 11 => ⟨S650000, .i32⟩
  | 12 => ⟨S_, .f32⟩
  | 13 => ⟨S650000, .f32⟩
  | 14 => ⟨S_, .f32⟩
  | 15 => ⟨S50000, .f32⟩
  | 16 => ⟨S650000x1, .i32⟩
  | 17 => ⟨S50000, .f32⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x1, .f32⟩
  | 27 => ⟨S50000x128, .f32⟩
  | 28 => ⟨S1x128, .f32⟩
  | 29 => ⟨S50000x128, .f32⟩
  | 30 => ⟨S50000x128, .f32⟩
  | 31 => ⟨S1x384x128, .f32⟩
  | 32 => ⟨S384x128, .f32⟩
  | 33 => ⟨S1x128, .f32⟩
  | 34 => ⟨S128, .f32⟩
  | 35 => ⟨S50000x128, .f32⟩
  | 36 => ⟨S50000x128, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000x128, .f32⟩
  | 46 => ⟨S_, .f32⟩
  | 47 => ⟨S50000x128, .f32⟩
  | 48 => ⟨S650000x1, .i32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | 61 => ⟨S_, .i32⟩
  | 62 => ⟨S650000, .i32⟩
  | 63 => ⟨S650000, .i1⟩
  | 64 => ⟨S_, .i32⟩
  | 65 => ⟨S650000, .i32⟩
  | 66 => ⟨S650000, .i32⟩
  | 67 => ⟨S650000, .i32⟩
  | 68 => ⟨S650000x1, .i32⟩
  | 69 => ⟨S650000x128, .f32⟩
  | 70 => ⟨S_, .f32⟩
  | 71 => ⟨S50000x128, .f32⟩
  | 72 => ⟨S650000x1, .i32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x128, .f32⟩
  | 84 => ⟨S128x128, .f32⟩
  | 85 => ⟨S128x128, .f32⟩
  | 86 => ⟨S128x128, .f32⟩
  | 87 => ⟨S1x128, .f32⟩
  | 88 => ⟨S50000x128, .f32⟩
  | 89 => ⟨S_, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .f32⟩
  | 96 => ⟨S50000x128, .f32⟩
  | 97 => ⟨S1x384x128, .f32⟩
  | 98 => ⟨S384x128, .f32⟩
  | 99 => ⟨S1x128, .f32⟩
  | 100 => ⟨S128, .f32⟩
  | 101 => ⟨S50000x128, .f32⟩
  | 102 => ⟨S50000x128, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x128, .f32⟩
  | 112 => ⟨S_, .f32⟩
  | 113 => ⟨S50000x128, .f32⟩
  | 114 => ⟨S650000x1, .i32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S_, .i32⟩
  | _ => ⟨S50000, .f32⟩

abbrev hbmTy0_1 (i : Nat) : BufTy := match i % 128 with
  | 0 => ⟨S650000, .i32⟩
  | 1 => ⟨S650000, .i1⟩
  | 2 => ⟨S_, .i32⟩
  | 3 => ⟨S650000, .i32⟩
  | 4 => ⟨S650000, .i32⟩
  | 5 => ⟨S650000, .i32⟩
  | 6 => ⟨S650000x1, .i32⟩
  | 7 => ⟨S650000x128, .f32⟩
  | 8 => ⟨S_, .f32⟩
  | 9 => ⟨S50000x128, .f32⟩
  | 10 => ⟨S650000x1, .i32⟩
  | 11 => ⟨S50000x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S50000x128, .f32⟩
  | 22 => ⟨S128x128, .f32⟩
  | 23 => ⟨S128x128, .f32⟩
  | 24 => ⟨S128x128, .f32⟩
  | 25 => ⟨S1x128, .f32⟩
  | 26 => ⟨S50000x128, .f32⟩
  | 27 => ⟨S_, .f32⟩
  | 28 => ⟨S_, .f32⟩
  | 29 => ⟨S50000x128, .f32⟩
  | 30 => ⟨S50000x128, .i1⟩
  | 31 => ⟨S_, .f32⟩
  | 32 => ⟨S50000x128, .f32⟩
  | 33 => ⟨S50000x128, .f32⟩
  | 34 => ⟨S50000x128, .f32⟩
  | 35 => ⟨S1x384x128, .f32⟩
  | 36 => ⟨S384x128, .f32⟩
  | 37 => ⟨S1x128, .f32⟩
  | 38 => ⟨S128, .f32⟩
  | 39 => ⟨S50000x128, .f32⟩
  | 40 => ⟨S50000x128, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000x128, .f32⟩
  | 50 => ⟨S_, .f32⟩
  | 51 => ⟨S50000x128, .f32⟩
  | 52 => ⟨S650000x1, .i32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S_, .i32⟩
  | 66 => ⟨S650000, .i32⟩
  | 67 => ⟨S650000, .i1⟩
  | 68 => ⟨S_, .i32⟩
  | 69 => ⟨S650000, .i32⟩
  | 70 => ⟨S650000, .i32⟩
  | 71 => ⟨S650000, .i32⟩
  | 72 => ⟨S650000x1, .i32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S50000x128, .f32⟩
  | 88 => ⟨S128x128, .f32⟩
  | 89 => ⟨S128x128, .f32⟩
  | 90 => ⟨S128x128, .f32⟩
  | 91 => ⟨S1x128, .f32⟩
  | 92 => ⟨S50000x128, .f32⟩
  | 93 => ⟨S50000x1, .f32⟩
  | 94 => ⟨S1x1, .f32⟩
  | 95 => ⟨S50000x1, .f32⟩
  | 96 => ⟨S50000x1, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_cst_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_23 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_24 : Ref sig .tc := ⟨.hbm, 169, rfl⟩
abbrev main_v120 : Ref sig .tc := ⟨.hbm, 170, rfl⟩
abbrev main_v121 : Ref sig .tc := ⟨.hbm, 171, rfl⟩
abbrev main_c_25 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_26 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_27 : Ref sig .tc := ⟨.hbm, 184, rfl⟩
abbrev main_v132 : Ref sig .tc := ⟨.hbm, 185, rfl⟩
abbrev main_v133 : Ref sig .tc := ⟨.hbm, 186, rfl⟩
abbrev main_cst_28 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_c_29 : Ref sig .tc := ⟨.hbm, 193, rfl⟩
abbrev main_v139 : Ref sig .tc := ⟨.hbm, 194, rfl⟩
abbrev main_v140 : Ref sig .tc := ⟨.hbm, 195, rfl⟩
abbrev main_c_30 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_31 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_32 : Ref sig .tc := ⟨.hbm, 208, rfl⟩
abbrev main_v151 : Ref sig .tc := ⟨.hbm, 209, rfl⟩
abbrev main_v152 : Ref sig .tc := ⟨.hbm, 210, rfl⟩
abbrev main_cst_33 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x384x128_S1x384x128_1_0_0 : S3x384x128.Slices ![1, 0, 0] S1x384x128
  slices_S3x128_S1x128_1_0 : S3x128.Slices ![1, 0] S1x128
  slices_S3x384x128_S1x384x128_2_0_0 : S3x384x128.Slices ![2, 0, 0] S1x384x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S650000x1_S650000_n_0_0_1_wf : ScatterDims.WF S50000 S650000x1 S650000 [] [0] [0] 1
  dot_S50000x1_S1x128_S50000x128_1_0_0_1_n_n_wf : DotDims.WF S50000x1 S1x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v62) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v63) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v64) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v87) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v107) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v108) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v109) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v110) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v111) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v112) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v113) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v136) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v156) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v157) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v158) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v159) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v160) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v161) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000 : Shape := ⟨1, ![50000]⟩
abbrev S600000 : Shape := ⟨1, ![600000]⟩
abbrev S1x128 : Shape := ⟨2, ![1, 128]⟩
abbrev S128 : Shape := ⟨1, ![128]⟩
abbrev S3x384x128 : Shape := ⟨3, ![3, 384, 128]⟩
abbrev S3x128 : Shape := ⟨2, ![3, 128]⟩
abbrev S128x1 : Shape := ⟨2, ![128, 1]⟩
abbrev S1 : Shape := ⟨1, ![1]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S50000x128 : Shape := ⟨2, ![50000, 128]⟩
abbrev S1x384x128 : Shape := ⟨3, ![1, 384, 128]⟩
abbrev S384x128 : Shape := ⟨2, ![384, 128]⟩
abbrev S650000x128 : Shape := ⟨2, ![650000, 128]⟩
abbrev S50000x384 : Shape := ⟨2, ![50000, 384]⟩
abbrev S1x1 : Shape := ⟨2, ![1, 1]⟩

abbrev nBuf : Space → Nat
  | .hbm => 234
  | .vmem => 0
  | .smem => 0
  | _ => 0

abbrev hbmTy0_0 (i : Nat) : BufTy := match i % 128 with
  | 0 => ⟨S50000, .f32⟩
  | 1 => ⟨S600000, .i32⟩
  | 2 => ⟨S600000, .i32⟩
  | 3 => ⟨S1x128, .f32⟩
  | 4 => ⟨S128, .f32⟩
  | 5 => ⟨S3x384x128, .f32⟩
  | 6 => ⟨S3x128, .f32⟩
  | 7 => ⟨S128x1, .f32⟩
  | 8 => ⟨S1, .f32⟩
  | 9 => ⟨S50000, .i32⟩
  | 10 => ⟨S650000, .i32⟩
  | 11 => ⟨S650000, .i32⟩
  | 12 => ⟨S_, .f32⟩
  | 13 => ⟨S650000, .f32⟩
  | 14 => ⟨S_, .f32⟩
  | 15 => ⟨S50000, .f32⟩
  | 16 => ⟨S650000x1, .i32⟩
  | 17 => ⟨S50000, .f32⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x1, .f32⟩
  | 27 => ⟨S50000x128, .f32⟩
  | 28 => ⟨S1x128, .f32⟩
  | 29 => ⟨S50000x128, .f32⟩
  | 30 => ⟨S50000x128, .f32⟩
  | 31 => ⟨S1x384x128, .f32⟩
  | 32 => ⟨S384x128, .f32⟩
  | 33 => ⟨S1x128, .f32⟩
  | 34 => ⟨S128, .f32⟩
  | 35 => ⟨S50000x128, .f32⟩
  | 36 => ⟨S50000x128, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000x128, .f32⟩
  | 46 => ⟨S_, .f32⟩
  | 47 => ⟨S50000x128, .f32⟩
  | 48 => ⟨S650000x1, .i32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | 61 => ⟨S_, .i32⟩
  | 62 => ⟨S650000, .i32⟩
  | 63 => ⟨S650000, .i1⟩
  | 64 => ⟨S_, .i32⟩
  | 65 => ⟨S650000, .i32⟩
  | 66 => ⟨S650000, .i32⟩
  | 67 => ⟨S650000, .i32⟩
  | 68 => ⟨S650000x1, .i32⟩
  | 69 => ⟨S650000x128, .f32⟩
  | 70 => ⟨S_, .f32⟩
  | 71 => ⟨S50000x128, .f32⟩
  | 72 => ⟨S650000x1, .i32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x128, .f32⟩
  | 84 => ⟨S50000x384, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .f32⟩
  | 93 => ⟨S_, .f32⟩
  | 94 => ⟨S50000x128, .f32⟩
  | 95 => ⟨S50000x128, .i1⟩
  | 96 => ⟨S_, .f32⟩
  | 97 => ⟨S50000x128, .f32⟩
  | 98 => ⟨S50000x128, .f32⟩
  | 99 => ⟨S50000x128, .f32⟩
  | 100 => ⟨S1x384x128, .f32⟩
  | 101 => ⟨S384x128, .f32⟩
  | 102 => ⟨S1x128, .f32⟩
  | 103 => ⟨S128, .f32⟩
  | 104 => ⟨S50000x128, .f32⟩
  | 105 => ⟨S50000x128, .f32⟩
  | 106 => ⟨S_, .i32⟩
  | 107 => ⟨S650000, .i32⟩
  | 108 => ⟨S650000, .i1⟩
  | 109 => ⟨S_, .i32⟩
  | 110 => ⟨S650000, .i32⟩
  | 111 => ⟨S650000, .i32⟩
  | 112 => ⟨S650000, .i32⟩
  | 113 => ⟨S650000x1, .i32⟩
  | 114 => ⟨S650000x128, .f32⟩
  | 115 => ⟨S_, .f32⟩
  | 116 => ⟨S50000x128, .f32⟩
  | 117 => ⟨S650000x1, .i32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000, .f32⟩

abbrev hbmTy0_1 (i : Nat) : BufTy := match i % 128 with
  | 0 => ⟨S50000x128, .f32⟩
  | 1 => ⟨S50000x128, .f32⟩
  | 2 => ⟨S_, .i32⟩
  | 3 => ⟨S650000, .i32⟩
  | 4 => ⟨S650000, .i1⟩
  | 5 => ⟨S_, .i32⟩
  | 6 => ⟨S650000, .i32⟩
  | 7 => ⟨S650000, .i32⟩
  | 8 => ⟨S650000, .i32⟩
  | 9 => ⟨S650000x1, .i32⟩
  | 10 => ⟨S650000x128, .f32⟩
  | 11 => ⟨S_, .f32⟩
  | 12 => ⟨S50000x128, .f32⟩
  | 13 => ⟨S650000x1, .i32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S50000x128, .f32⟩
  | 25 => ⟨S50000x384, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S_, .f32⟩
  | 35 => ⟨S50000x128, .f32⟩
  | 36 => ⟨S50000x128, .i1⟩
  | 37 => ⟨S_, .f32⟩
  | 38 => ⟨S50000x128, .f32⟩
  | 39 => ⟨S50000x128, .f32⟩
  | 40 => ⟨S50000x128, .f32⟩
  | 41 => ⟨S1x384x128, .f32⟩
  | 42 => ⟨S384x128, .f32⟩
  | 43 => ⟨S1x128, .f32⟩
  | 44 => ⟨S128, .f32⟩
  | 45 => ⟨S50000x128, .f32⟩
  | 46 => ⟨S50000x128, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000x128, .f32⟩
  | 56 => ⟨S_, .f32⟩
  | 57 => ⟨S50000x128, .f32⟩
  | 58 => ⟨S650000x1, .i32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S50000x128, .f32⟩
  | 70 => ⟨S50000x128, .f32⟩
  | 71 => ⟨S_, .i32⟩
  | 72 => ⟨S650000, .i32⟩
  | 73 => ⟨S650000, .i1⟩
  | 74 => ⟨S_, .i32⟩
  | 75 => ⟨S650000, .i32⟩
  | 76 => ⟨S650000, .i32⟩
  | 77 => ⟨S650000, .i32⟩
  | 78 => ⟨S650000x1, .i32⟩
  | 79 => ⟨S650000x128, .f32⟩
  | 80 => ⟨S_, .f32⟩
  | 81 => ⟨S50000x128, .f32⟩
  | 82 => ⟨S650000x1, .i32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S50000x384, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x1, .f32⟩
  | 103 => ⟨S1x1, .f32⟩
  | 104 => ⟨S50000x1, .f32⟩
  | 105 => ⟨S50000x1, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | _, _ => ⟨S50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_cst_12 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_13 : Ref sig .tc := ⟨.hbm, 106, rfl⟩
abbrev main_v72 : Ref sig .tc := ⟨.hbm, 107, rfl⟩
abbrev main_v73 : Ref sig .tc := ⟨.hbm, 108, rfl⟩
abbrev main_c_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_18 : Ref sig .tc := ⟨.hbm, 130, rfl⟩
abbrev main_v91 : Ref sig .tc := ⟨.hbm, 131, rfl⟩
abbrev main_v92 : Ref sig .tc := ⟨.hbm, 132, rfl⟩
abbrev main_c_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_21 : Ref sig .tc := ⟨.hbm, 145, rfl⟩
abbrev main_v103 : Ref sig .tc := ⟨.hbm, 146, rfl⟩
abbrev main_v104 : Ref sig .tc := ⟨.hbm, 147, rfl⟩
abbrev main_cst_22 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_call3_cst : Ref sig .tc := ⟨.hbm, 158, rfl⟩
abbrev main_call3_v0 : Ref sig .tc := ⟨.hbm, 159, rfl⟩
abbrev main_v114 : Ref sig .tc := ⟨.hbm, 160, rfl⟩
abbrev main_cst_23 : Ref sig .tc := ⟨.hbm, 161, rfl⟩
abbrev main_call4_cst : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_24 : Ref sig .tc := ⟨.hbm, 175, rfl⟩
abbrev main_v122 : Ref sig .tc := ⟨.hbm, 176, rfl⟩
abbrev main_v123 : Ref sig .tc := ⟨.hbm, 177, rfl⟩
abbrev main_c_25 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_26 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_27 : Ref sig .tc := ⟨.hbm, 190, rfl⟩
abbrev main_v134 : Ref sig .tc := ⟨.hbm, 191, rfl⟩
abbrev main_v135 : Ref sig .tc := ⟨.hbm, 192, rfl⟩
abbrev main_cst_28 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_c_29 : Ref sig .tc := ⟨.hbm, 199, rfl⟩
abbrev main_v141 : Ref sig .tc := ⟨.hbm, 200, rfl⟩
abbrev main_v142 : Ref sig .tc := ⟨.hbm, 201, rfl⟩
abbrev main_c_30 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_31 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_32 : Ref sig .tc := ⟨.hbm, 214, rfl⟩
abbrev main_v153 : Ref sig .tc := ⟨.hbm, 215, rfl⟩
abbrev main_v154 : Ref sig .tc := ⟨.hbm, 216, rfl⟩
abbrev main_cst_33 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_call5_cst : Ref sig .tc := ⟨.hbm, 227, rfl⟩
abbrev main_call5_v0 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  slices_S3x384x128_S1x384x128_1_0_0 : S3x384x128.Slices ![1, 0, 0] S1x384x128
  slices_S3x128_S1x128_1_0 : S3x128.Slices ![1, 0] S1x128
  slices_S3x384x128_S1x384x128_2_0_0 : S3x384x128.Slices ![2, 0, 0] S1x384x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S650000x1_S650000_n_0_0_1_wf : ScatterDims.WF S50000 S650000x1 S650000 [] [0] [0] 1
  dot_S50000x1_S1x128_S50000x128_1_0_0_1_n_n_wf : DotDims.WF S50000x1 S1x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x384_S384x128_S50000x128_1_0_0_1_n_n_wf : DotDims.WF S50000x384 S384x128 S50000x128 [1] [0] [0] [1] [] []
  dot_S50000x128_S128x1_S50000x1_1_0_0_1_n_n_wf : DotDims.WF S50000x128 S128x1 S50000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The kernel program's run with every buffer named.

  @main is thirteen segments: host stretches and the three pallas_calls in turn.  From any launch memory every weakly
  fair execution terminates, and at the end every unscoped TensorCore buffer holds what the fold of the segments over
  the launch contents leaves there: a host stretch rewrites the buffers its operations write, a region rewrites its
  windows' arrays with what the write-backs leave, nothing else moves.  The result buffer is one of those buffers, so
  its final contents are the fold's contents at it.
-/
import proofs.«118433_j81398220194150_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement below, which
-- unfolds plain definitions inside a metavariable's type
set_option backward.isDefEq.respectTransparency.types false in
/-- Every weakly fair execution of @main terminates, and every unscoped TensorCore buffer `b` of every device ends at
    the segments' fold `W13` of the launch contents at `b`.

    The segments, their proof data and the thread states between them are the frame certificate's; what is read off
    the last thread state is kept for every buffer instead of the argument arrays only. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W13 m ρ c (Proc.devRef .tc b)) :=
  Pipeline.θ_run_regions_kit (pcfgs (F := F)) adm (pdats m ρ) () cellOf_inj emb₁ defs₀ 𝒱₀ L lv m ρ main (segs m ρ)
    -- @main is the run of its segments
    (hmain := fun c Q => by rw [main_run m ρ c])
    -- the three pipelines are entered once each
    (hnd := by simp only [segs, Pipeline.Seg.pipes_host, Pipeline.Seg.pipes_region, Pipeline.Seg.pipes_nil]; decide)
    -- no core owes anything at launch, and no level is assigned
    (O₀ := 0) (hL := fun _ _ => rfl)
    -- the launch's ghost element is the pipelines' initial cells and tokens; no core gets a further resource
    (G := fun _ => iprop(emp))
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    -- a core's state between segments: its unscoped buffers whole at the boundary's contents, beside its generator
    -- register and an empty debt
    (T₀ := fun c => iprop(StableHlo.held (c : Thread nD τ) (Pipeline.ucRefs τ sig) (W0 m ρ c) ∗ R c)) (Tₙ := Tₙ m ρ)
    -- each segment starts where the previous one ended; the last one's state is regrouped into `Tₙ` and the debt
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        iintro ⟨Hbufs, Hreg, Hdebt⟩
        isplitr [Hdebt]
        · isplitl [Hbufs]
          · iexact Hbufs
          · iexact Hreg
        · iexact Hdebt⟩)
    -- what the launch deals to a core is its first state: the unscoped buffers at the launch contents, the register,
    -- the empty debt
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]
      · iexact Hbufs
      isplitl [Hreg]
      · iexists _; iexact Hreg
      · iexists ∅; iexact Hdebt)
    -- the last state read against a final memory: every unscoped buffer holds the fold's contents
    (QY := fun c s => ∀ b ∈ Pipeline.ucRefs τ sig, s.mem (((c : Thread nD τ)).1, b) = W13 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W13 m ρ c) s')
      isplitl [Hbufs] <;> iassumption)
    -- a TensorCore reference that is not scoped is one of those buffers
    (hQ := fun s h c b hb => h c _ (mem_uc b hb))

end Cert.KernelIdeal.KRun

end
-- ==== Proof.Stages.lean ====
/-
  The host-side stages of a three-layer Chebyshev graph convolution network, as pure functions of arrays.

  A graph on 50000 nodes is given by 600000 directed edges (source and destination node numbers); every node also gets
  a self loop, so the edge lists have 650000 entries.  With `deg` the number of edges arriving at a node and
  `d = max(deg, 1) ^ (-1/2)`, one aggregation step sends node features `x : [50000, 128]` to
      spmm x = d · scatter-add over destinations of ( (x · d) gathered at the sources ),
  the scaled adjacency `D^(-1/2) A D^(-1/2)` applied to `x`.  A layer forms the first three Chebyshev terms
      x0 = x,   x1 = (-1) · spmm x0 + x0 · 0,   x2 = (-2) · spmm x1 + x1 · 0 - x0,
  feeds them to a dense stage, and (between layers) applies a leaky rectifier with slope 0.01.  The input features
  are `weights[:, None] @ lin_in_w + lin_in_b`, the output is `h @ pred_w + pred_b`.

  Every function here is the composition of the host operations that compute it, in program order; both programs of
  this certificate run exactly these operations, so the functions are never opened: each program's run is read as a
  composition of them, and only the dense stage, where the programs differ, is compared entry by entry.
-/
import proofs.«118433_j81398220194150_1_alg».proof.KernelIdeal

noncomputable section

namespace Cert.Stages

open Idealize.ShloMosaic Cert.KernelIdeal Cert.KernelIdeal.Facts₀ Cert.KernelIdeal.Facts

variable {F : FTy → Type} [FloatOps F] [Cert.KernelIdeal.Facts]

/-- The contents of a buffer of shape `S` and element type `e`. -/
abbrev T (F : FTy → Type) [FloatOps F] (S : Shape) (e : EltTy) : Type := (⟨S, e⟩ : BufTy).Contents (Elt F)

/-- A scalar word broadcast over `[50000, 128]`. -/
def splat (w : BitVec 32) : T F S50000x128 .f32 :=
  broadcastInDim S50000x128 ![] bcast_S_S50000x128 (constant (F := F) S_ .f32 w)

/-- An edge list followed by the self loops `0, 1, …, 49999`. -/
def withLoops (a : T F S600000 .i32) : T F S650000 .i32 :=
  concatenate S650000 0 [⟨S600000, a⟩, ⟨S50000, iotaInDim S50000 32 0⟩] concatenates_S600000_S50000_S650000_d0

/-- The number of edges arriving at each node: ones scatter-added at the destinations. -/
def degree (i2 : T F S650000 .i32) : T F S50000 .f32 :=
  Host.scatterAdd scatter_S50000_S650000x1_S650000_n_0_0_1
    (broadcastInDim S50000 ![] bcast_S_S50000 (constant (F := F) S_ .f32 0x00000000#32))
    (broadcastInDim S650000x1 ![0] bcast_S650000_S650000x1_0 i2)
    (broadcastInDim S650000 ![] bcast_S_S650000 (constant (F := F) S_ .f32 0x3F800000#32))

/-- `max(deg, 1) ^ (-1/2)` as a column `[50000, 1]`. -/
def invSqrtDeg (deg : T F S50000 .f32) : T F S50000x1 .f32 :=
  broadcastInDim S50000x1 ![0] bcast_S50000_S50000x1_0
    (Host.powf (maximumf (broadcastInDim S50000 ![] bcast_S_S50000 (constant (F := F) S_ .f32 0x3F800000#32)) deg)
      (broadcastInDim S50000 ![] bcast_S_S50000 (constant (F := F) S_ .f32 0xBF000000#32)))

/-- The input features `weights[:, None] @ lin_in_w + lin_in_b`. -/
def feat (a0 : T F S50000 .f32) (a3 : T F S1x128 .f32) (a4 : T F S128 .f32) : T F S50000x128 .f32 :=
  addf (Host.dotGeneral dot_S50000x1_S1x128_S50000x128_1_0_0_1_n_n none (broadcastInDim S50000x1 ![0] bcast_S50000_S50000x1_0 a0) a3)
    (broadcastInDim S50000x128 ![0, 1] bcast_S1x128_S50000x128_0_1 (broadcastInDim S1x128 ![1] bcast_S128_S1x128_1 a4))

/-- Source node numbers as gather indices: a negative number wraps around by 50000; then a column. -/
def gatherIdx (i1 : T F S650000 .i32) : T F S650000x1 .i32 :=
  broadcastInDim S650000x1 ![0] bcast_S650000_S650000x1_0
    (select (cmpi .slt i1 (broadcastInDim S650000 ![] bcast_S_S650000 (constantI S_ 32 0#32)))
      (addi i1 (broadcastInDim S650000 ![] bcast_S_S650000 (constantI S_ 32 50000#32))) i1)

/-- One aggregation step `D^(-1/2) A D^(-1/2) x`. -/
def spmm (x : T F S50000x128 .f32) (i1 i2 : T F S650000 .i32) (d : T F S50000x1 .f32) : T F S50000x128 .f32 :=
  mulf
    (Host.scatterAdd scatter_S50000x128_S650000x1_S650000x128_1_0_0_1 (splat 0x00000000#32)
      (broadcastInDim S650000x1 ![0] bcast_S650000_S650000x1_0 i2)
      (Host.gather gather_S50000x128_S650000x1_S650000x128_1_0_n_n_0_1_1128
        (mulf x (broadcastInDim S50000x128 ![0, 1] bcast_S50000x1_S50000x128_0_1 d)) (gatherIdx i1)))
    (broadcastInDim S50000x128 ![0, 1] bcast_S50000x1_S50000x128_0_1 d)

/-- The second Chebyshev term `(-1) · spmm x + x · 0`. -/
def cheb1 (x : T F S50000x128 .f32) (i1 i2 : T F S650000 .i32) (d : T F S50000x1 .f32) : T F S50000x128 .f32 :=
  addf (mulf (splat 0xBF800000#32) (spmm x i1 i2 d)) (mulf x (splat 0x00000000#32))

/-- The third Chebyshev term `(-2) · spmm x1 + x1 · 0 - x`. -/
def cheb2 (x x1 : T F S50000x128 .f32) (i1 i2 : T F S650000 .i32) (d : T F S50000x1 .f32) : T F S50000x128 .f32 :=
  subf (addf (mulf (splat 0xC0000000#32) (spmm x1 i1 i2 d)) (mulf x1 (splat 0x00000000#32))) x

/-- The leaky rectifier: `x` where `x ≥ 0`, `0.01 · x` elsewhere. -/
def leaky (x : T F S50000x128 .f32) : T F S50000x128 .f32 :=
  select (cmpf .oge x (splat 0x00000000#32)) x (mulf (splat 0x3C23D70A#32) x)

/-- The output layer `h @ pred_w + pred_b`. -/
def outLayer (h : T F S50000x128 .f32) (a7 : T F S128x1 .f32) (a8 : T F S1 .f32) : T F S50000x1 .f32 :=
  addf (Host.dotGeneral dot_S50000x128_S128x1_S50000x1_1_0_0_1_n_n none h a7)
    (broadcastInDim S50000x1 ![0, 1] bcast_S1x1_S50000x1_0_1 (broadcastInDim S1x1 ![1] bcast_S1_S1x1_1 a8))

/-- Layer 0's weight `cheb_ws[0] : [384, 128]`. -/
def wSel0 (a5 : T F S3x384x128 .f32) : T F S384x128 .f32 :=
  shapeCast S384x128 (extractStridedSlice S1x384x128 ![0, 0, 0] a5 slices_S3x384x128_S1x384x128_0_0_0) shapeCasts_S1x384x128_S384x128
/-- Layer 1's weight. -/
def wSel1 (a5 : T F S3x384x128 .f32) : T F S384x128 .f32 :=
  shapeCast S384x128 (extractStridedSlice S1x384x128 ![1, 0, 0] a5 slices_S3x384x128_S1x384x128_1_0_0) shapeCasts_S1x384x128_S384x128
/-- Layer 2's weight. -/
def wSel2 (a5 : T F S3x384x128 .f32) : T F S384x128 .f32 :=
  shapeCast S384x128 (extractStridedSlice S1x384x128 ![2, 0, 0] a5 slices_S3x384x128_S1x384x128_2_0_0) shapeCasts_S1x384x128_S384x128

/-- Layer 0's bias `cheb_bs[0] : [128]`. -/
def bSel0 (a6 : T F S3x128 .f32) : T F S128 .f32 :=
  shapeCast S128 (extractStridedSlice S1x128 ![0, 0] a6 slices_S3x128_S1x128_0_0) shapeCasts_S1x128_S128
/-- Layer 1's bias. -/
def bSel1 (a6 : T F S3x128 .f32) : T F S128 .f32 :=
  shapeCast S128 (extractStridedSlice S1x128 ![1, 0] a6 slices_S3x128_S1x128_1_0) shapeCasts_S1x128_S128
/-- Layer 2's bias. -/
def bSel2 (a6 : T F S3x128 .f32) : T F S128 .f32 :=
  shapeCast S128 (extractStridedSlice S1x128 ![2, 0] a6 slices_S3x128_S1x128_2_0) shapeCasts_S1x128_S128

/-- Rows `0 … 127` of a `[384, 128]` weight. -/
def wBlk0 (w : T F S384x128 .f32) : T F S128x128 .f32 := extractStridedSlice S128x128 ![0, 0] w slices_S384x128_S128x128_0_0
/-- Rows `128 … 255`. -/
def wBlk1 (w : T F S384x128 .f32) : T F S128x128 .f32 := extractStridedSlice S128x128 ![128, 0] w slices_S384x128_S128x128_128_0
/-- Rows `256 … 383`. -/
def wBlk2 (w : T F S384x128 .f32) : T F S128x128 .f32 := extractStridedSlice S128x128 ![256, 0] w slices_S384x128_S128x128_256_0
/-- A bias vector as a one-row array. -/
def bRow (b : T F S128 .f32) : T F S1x128 .f32 := shapeCast S1x128 b shapeCasts_S128_S1x128

end Cert.Stages

end
-- ==== Proof.KRead0.lean ====
/-
  The kernel program's host lines before its first pallas_call, read at the buffers that call stages.

  From launch contents `V` the lines compute: both edge lists with the self loops appended; the degree column
  `max(deg, 1)^(-1/2)`; the input features; the three Chebyshev terms of layer 0; the three 128-row blocks of layer 0's
  weight and its bias as a row.  Each buffer's contents after the lines is the composition of the operations that lead
  to it, which is the stage function of that name; the arguments are not written.
-/
import proofs.«118433_j81398220194150_1_alg».proof.Proof.Gen.KernelIdeal.Launch
import proofs.«118433_j81398220194150_1_alg».proof.Proof.Stages

set_option maxRecDepth 16384

noncomputable section

namespace Cert.KernelIdeal.KRead

open Idealize.ShloMosaic Idealize.ShloMosaic.TcCoe Idealize.ShloMosaic.StableHlo Cert.KernelIdeal Cert.KernelIdeal.Gen Cert.Stages

variable {F : FTy → Type} [FloatOps F]

/-- The contents at the first pallas_call's entry, from contents `V` at launch. -/
abbrev entry0 (V : Valuation τ sig (Elt F)) : Valuation τ sig (Elt F) :=
  after hostOps0_2 (after hostOps0_1 (after hostOps0 V))

/-- The inverse square-root degree column, from the destination list as launched. -/
abbrev dcol (V : Valuation τ sig (Elt F)) : T F S50000x1 .f32 := invSqrtDeg (degree (withLoops (V (Proc.devRef .tc main_arg2))))

theorem entry0_v1 (V : Valuation τ sig (Elt F)) : entry0 V (Proc.devRef .tc main_v1) = withLoops (V (Proc.devRef .tc main_arg1)) := by
  dsimp only [entry0, hostOps0, hostOps0_1, hostOps0_2]; after_results_simp; rfl

theorem entry0_v2 (V : Valuation τ sig (Elt F)) : entry0 V (Proc.devRef .tc main_v2) = withLoops (V (Proc.devRef .tc main_arg2)) := by
  dsimp only [entry0, hostOps0, hostOps0_1, hostOps0_2]; after_results_simp; rfl

theorem entry0_v10 (V : Valuation τ sig (Elt F)) : entry0 V (Proc.devRef .tc main_v10) = dcol V := by
  dsimp only [entry0, hostOps0, hostOps0_1, hostOps0_2]; after_results_simp; rfl

theorem entry0_v15 (V : Valuation τ sig (Elt F)) :
    entry0 V (Proc.devRef .tc main_v15) = feat (V (Proc.devRef .tc main_arg0)) (V (Proc.devRef .tc main_arg3)) (V (Proc.devRef .tc main_arg4)) := by
  dsimp only [entry0, hostOps0, hostOps0_1, hostOps0_2]; after_results_simp; rfl

theorem entry0_v38 (V : Valuation τ sig (Elt F)) :
    entry0 V (Proc.devRef .tc main_v38) = cheb1 (feat (V (Proc.devRef .tc main_arg0)) (V (Proc.devRef .tc main_arg3)) (V (Proc.devRef .tc main_arg4)))
      (withLoops (V (Proc.devRef .tc main_arg1))) (withLoops (V (Proc.devRef .tc main_arg2))) (dcol V) := by
  dsimp only [entry0, hostOps0, hostOps0_1, hostOps0_2]; after_results_simp; rfl

theorem entry0_v58 (V : Valuation τ sig (Elt F)) :
    entry0 V (Proc.devRef .tc main_v58) = cheb2 (feat (V (Proc.devRef .tc main_arg0)) (V (Proc.devRef .tc main_arg3)) (V (Proc.devRef .tc main_arg4)))
      (cheb1 (feat (V (Proc.devRef .tc main_arg0)) (V (Proc.devRef .tc main_arg3)) (V (Proc.devRef .tc main_arg4)))
        (withLoops (V (Proc.devRef .tc main_arg1))) (withLoops (V (Proc.devRef .tc main_arg2))) (dcol V))
      (withLoops (V (Proc.devRef .tc main_arg1))) (withLoops (V (Proc.devRef .tc main_arg2))) (dcol V) := by
  dsimp only [entry0, hostOps0, hostOps0_1, hostOps0_2]; after_results_simp; rfl

theorem entry0_w0 (V : Valuation τ sig (Elt F)) : entry0 V (Proc.devRef .tc main_v59) = wBlk0 (wSel0 (V (Proc.devRef .tc main_arg5))) := by
  dsimp only [entry0, hostOps0, hostOps0_1, hostOps0_2]; after_results_simp; rfl

theorem entry0_w1 (V : Valuation τ sig (Elt F)) : entry0 V (Proc.devRef .tc main_v60) = wBlk1 (wSel0 (V (Proc.devRef .tc main_arg5))) := by
  dsimp only [entry0, hostOps0, hostOps0_1, hostOps0_2]; after_results_simp; rfl

theorem entry0_w2 (V : Valuation τ sig (Elt F)) : entry0 V (Proc.devRef .tc main_v61) = wBlk2 (wSel0 (V (Proc.devRef .tc main_arg5))) := by
  dsimp only [entry0, hostOps0, hostOps0_1, hostOps0_2]; after_results_simp; rfl

theorem entry0_b (V : Valuation τ sig (Elt F)) : entry0 V (Proc.devRef .tc main_v62) = bRow (bSel0 (V (Proc.devRef .tc main_arg6))) := by
  dsimp only [entry0, hostOps0, hostOps0_1, hostOps0_2]; after_results_simp; rfl

theorem entry0_keep_arg5 (V : Valuation τ sig (Elt F)) : entry0 V (Proc.devRef .tc main_arg5) = V (Proc.devRef .tc main_arg5) := by
  dsimp only [entry0, hostOps0, hostOps0_1, hostOps0_2]; after_results_simp

theorem entry0_keep_arg6 (V : Valuation τ sig (Elt F)) : entry0 V (Proc.devRef .tc main_arg6) = V (Proc.devRef .tc main_arg6) := by
  dsimp only [entry0, hostOps0, hostOps0_1, hostOps0_2]; after_results_simp

theorem entry0_keep_arg7 (V : Valuation τ sig (Elt F)) : entry0 V (Proc.devRef .tc main_arg7) = V (Proc.devRef .tc main_arg7) := by
  dsimp only [entry0, hostOps0, hostOps0_1, hostOps0_2]; after_results_simp

theorem entry0_keep_arg8 (V : Valuation τ sig (Elt F)) : entry0 V (Proc.devRef .tc main_arg8) = V (Proc.devRef .tc main_arg8) := by
  dsimp only [entry0, hostOps0, hostOps0_1, hostOps0_2]; after_results_simp

/-- The output layer's lines after the last pallas_call, read at the result. -/
theorem tail_v165 (V : Valuation τ sig (Elt F)) :
    after hostOps3 V (Proc.devRef .tc main_v165) = outLayer (V (Proc.devRef .tc main_v161)) (V (Proc.devRef .tc main_arg7)) (V (Proc.devRef .tc main_arg8)) := by
  dsimp only [hostOps3]; after_results_simp; rfl

end Cert.KernelIdeal.KRead

end
-- ==== Proof.KRead1.lean ====
/-
  The kernel program's host lines between its pallas_calls 0 and 1, read at the buffers the next call stages.

  From contents `V` at the previous call's exit the lines apply the leaky rectifier to that call's output, form the
  three Chebyshev terms of layer 1 from it with the edge lists and the degree column computed at the start, and cut
  layer 1's weight into its three 128-row blocks and its bias into a row.  The edge lists, the degree column and the
  arguments are not written.
-/
import proofs.«118433_j81398220194150_1_alg».proof.Proof.Gen.KernelIdeal.Launch
import proofs.«118433_j81398220194150_1_alg».proof.Proof.Stages

set_option maxRecDepth 16384

noncomputable section

namespace Cert.KernelIdeal.KRead

open Idealize.ShloMosaic Idealize.ShloMosaic.TcCoe Idealize.ShloMosaic.StableHlo Cert.KernelIdeal Cert.KernelIdeal.Gen Cert.Stages

variable {F : FTy → Type} [FloatOps F]

/-- The contents at pallas_call 1's entry, from contents `V` at the previous call's exit. -/
abbrev entry1 (V : Valuation τ sig (Elt F)) : Valuation τ sig (Elt F) :=
  after hostOps1_2 (after hostOps1_1 (after hostOps1 V))

theorem entry1_x (V : Valuation τ sig (Elt F)) : entry1 V (Proc.devRef .tc main_v64) = leaky (V (Proc.devRef .tc main_v63)) := by
  dsimp only [entry1, hostOps1, hostOps1_1, hostOps1_2]; after_results_simp; rfl

theorem entry1_x1 (V : Valuation τ sig (Elt F)) :
    entry1 V (Proc.devRef .tc main_v87) = cheb1 (leaky (V (Proc.devRef .tc main_v63))) (V (Proc.devRef .tc main_v1)) (V (Proc.devRef .tc main_v2)) (V (Proc.devRef .tc main_v10)) := by
  dsimp only [entry1, hostOps1, hostOps1_1, hostOps1_2]; after_results_simp; rfl

theorem entry1_x2 (V : Valuation τ sig (Elt F)) :
    entry1 V (Proc.devRef .tc main_v107) = cheb2 (leaky (V (Proc.devRef .tc main_v63)))
      (cheb1 (leaky (V (Proc.devRef .tc main_v63))) (V (Proc.devRef .tc main_v1)) (V (Proc.devRef .tc main_v2)) (V (Proc.devRef .tc main_v10)))
      (V (Proc.devRef .tc main_v1)) (V (Proc.devRef .tc main_v2)) (V (Proc.devRef .tc main_v10)) := by
  dsimp only [entry1, hostOps1, hostOps1_1, hostOps1_2]; after_results_simp; rfl

theorem entry1_w0 (V : Valuation τ sig (Elt F)) : entry1 V (Proc.devRef .tc main_v108) = wBlk0 (wSel1 (V (Proc.devRef .tc main_arg5))) := by
  dsimp only [entry1, hostOps1, hostOps1_1, hostOps1_2]; after_results_simp; rfl

theorem entry1_w1 (V : Valuation τ sig (Elt F)) : entry1 V (Proc.devRef .tc main_v109) = wBlk1 (wSel1 (V (Proc.devRef .tc main_arg5))) := by
  dsimp only [entry1, hostOps1, hostOps1_1, hostOps1_2]; after_results_simp; rfl

theorem entry1_w2 (V : Valuation τ sig (Elt F)) : entry1 V (Proc.devRef .tc main_v110) = wBlk2 (wSel1 (V (Proc.devRef .tc main_arg5))) := by
  dsimp only [entry1, hostOps1, hostOps1_1, hostOps1_2]; after_results_simp; rfl

theorem entry1_b (V : Valuation τ sig (Elt F)) : entry1 V (Proc.devRef .tc main_v111) = bRow (bSel1 (V (Proc.devRef .tc main_arg6))) := by
  dsimp only [entry1, hostOps1, hostOps1_1, hostOps1_2]; after_results_simp; rfl

theorem entry1_keep_v1 (V : Valuation τ sig (Elt F)) : entry1 V (Proc.devRef .tc main_v1) = V (Proc.devRef .tc main_v1) := by
  dsimp only [entry1, hostOps1, hostOps1_1, hostOps1_2]; after_results_simp

theorem entry1_keep_v2 (V : Valuation τ sig (Elt F)) : entry1 V (Proc.devRef .tc main_v2) = V (Proc.devRef .tc main_v2) := by
  dsimp only [entry1, hostOps1, hostOps1_1, hostOps1_2]; after_results_simp

theorem entry1_keep_v10 (V : Valuation τ sig (Elt F)) : entry1 V (Proc.devRef .tc main_v10) = V (Proc.devRef .tc main_v10) := by
  dsimp only [entry1, hostOps1, hostOps1_1, hostOps1_2]; after_results_simp

theorem entry1_keep_arg5 (V : Valuation τ sig (Elt F)) : entry1 V (Proc.devRef .tc main_arg5) = V (Proc.devRef .tc main_arg5) := by
  dsimp only [entry1, hostOps1, hostOps1_1, hostOps1_2]; after_results_simp

theorem entry1_keep_arg6 (V : Valuation τ sig (Elt F)) : entry1 V (Proc.devRef .tc main_arg6) = V (Proc.devRef .tc main_arg6) := by
  dsimp only [entry1, hostOps1, hostOps1_1, hostOps1_2]; after_results_simp

theorem entry1_keep_arg7 (V : Valuation τ sig (Elt F)) : entry1 V (Proc.devRef .tc main_arg7) = V (Proc.devRef .tc main_arg7) := by
  dsimp only [entry1, hostOps1, hostOps1_1, hostOps1_2]; after_results_simp

theorem entry1_keep_arg8 (V : Valuation τ sig (Elt F)) : entry1 V (Proc.devRef .tc main_arg8) = V (Proc.devRef .tc main_arg8) := by
  dsimp only [entry1, hostOps1, hostOps1_1, hostOps1_2]; after_results_simp

end Cert.KernelIdeal.KRead

end
-- ==== Proof.KRead2.lean ====
/-
  The kernel program's host lines between its pallas_calls 1 and 2, read at the buffers the next call stages.

  From contents `V` at the previous call's exit the lines apply the leaky rectifier to that call's output, form the
  three Chebyshev terms of layer 2 from it with the edge lists and the degree column computed at the start, and cut
  layer 2's weight into its three 128-row blocks and its bias into a row.  The edge lists, the degree column and the
  arguments are not written.
-/
import proofs.«118433_j81398220194150_1_alg».proof.Proof.Gen.KernelIdeal.Launch
import proofs.«118433_j81398220194150_1_alg».proof.Proof.Stages

set_option maxRecDepth 16384

noncomputable section

namespace Cert.KernelIdeal.KRead

open Idealize.ShloMosaic Idealize.ShloMosaic.TcCoe Idealize.ShloMosaic.StableHlo Cert.KernelIdeal Cert.KernelIdeal.Gen Cert.Stages

variable {F : FTy → Type} [FloatOps F]

/-- The contents at pallas_call 2's entry, from contents `V` at the previous call's exit. -/
abbrev entry2 (V : Valuation τ sig (Elt F)) : Valuation τ sig (Elt F) :=
  after hostOps2_2 (after hostOps2_1 (after hostOps2 V))

theorem entry2_x (V : Valuation τ sig (Elt F)) : entry2 V (Proc.devRef .tc main_v113) = leaky (V (Proc.devRef .tc main_v112)) := by
  dsimp only [entry2, hostOps2, hostOps2_1, hostOps2_2]; after_results_simp; rfl

theorem entry2_x1 (V : Valuation τ sig (Elt F)) :
    entry2 V (Proc.devRef .tc main_v136) = cheb1 (leaky (V (Proc.devRef .tc main_v112))) (V (Proc.devRef .tc main_v1)) (V (Proc.devRef .tc main_v2)) (V (Proc.devRef .tc main_v10)) := by
  dsimp only [entry2, hostOps2, hostOps2_1, hostOps2_2]; after_results_simp; rfl

theorem entry2_x2 (V : Valuation τ sig (Elt F)) :
    entry2 V (Proc.devRef .tc main_v156) = cheb2 (leaky (V (Proc.devRef .tc main_v112)))
      (cheb1 (leaky (V (Proc.devRef .tc main_v112))) (V (Proc.devRef .tc main_v1)) (V (Proc.devRef .tc main_v2)) (V (Proc.devRef .tc main_v10)))
      (V (Proc.devRef .tc main_v1)) (V (Proc.devRef .tc main_v2)) (V (Proc.devRef .tc main_v10)) := by
  dsimp only [entry2, hostOps2, hostOps2_1, hostOps2_2]; after_results_simp; rfl

theorem entry2_w0 (V : Valuation τ sig (Elt F)) : entry2 V (Proc.devRef .tc main_v157) = wBlk0 (wSel2 (V (Proc.devRef .tc main_arg5))) := by
  dsimp only [entry2, hostOps2, hostOps2_1, hostOps2_2]; after_results_simp; rfl

theorem entry2_w1 (V : Valuation τ sig (Elt F)) : entry2 V (Proc.devRef .tc main_v158) = wBlk1 (wSel2 (V (Proc.devRef .tc main_arg5))) := by
  dsimp only [entry2, hostOps2, hostOps2_1, hostOps2_2]; after_results_simp; rfl

theorem entry2_w2 (V : Valuation τ sig (Elt F)) : entry2 V (Proc.devRef .tc main_v159) = wBlk2 (wSel2 (V (Proc.devRef .tc main_arg5))) := by
  dsimp only [entry2, hostOps2, hostOps2_1, hostOps2_2]; after_results_simp; rfl

theorem entry2_b (V : Valuation τ sig (Elt F)) : entry2 V (Proc.devRef .tc main_v160) = bRow (bSel2 (V (Proc.devRef .tc main_arg6))) := by
  dsimp only [entry2, hostOps2, hostOps2_1, hostOps2_2]; after_results_simp; rfl

theorem entry2_keep_v1 (V : Valuation τ sig (Elt F)) : entry2 V (Proc.devRef .tc main_v1) = V (Proc.devRef .tc main_v1) := by
  dsimp only [entry2, hostOps2, hostOps2_1, hostOps2_2]; after_results_simp

theorem entry2_keep_v2 (V : Valuation τ sig (Elt F)) : entry2 V (Proc.devRef .tc main_v2) = V (Proc.devRef .tc main_v2) := by
  dsimp only [entry2, hostOps2, hostOps2_1, hostOps2_2]; after_results_simp

theorem entry2_keep_v10 (V : Valuation τ sig (Elt F)) : entry2 V (Proc.devRef .tc main_v10) = V (Proc.devRef .tc main_v10) := by
  dsimp only [entry2, hostOps2, hostOps2_1, hostOps2_2]; after_results_simp

theorem entry2_keep_arg5 (V : Valuation τ sig (Elt F)) : entry2 V (Proc.devRef .tc main_arg5) = V (Proc.devRef .tc main_arg5) := by
  dsimp only [entry2, hostOps2, hostOps2_1, hostOps2_2]; after_results_simp

theorem entry2_keep_arg6 (V : Valuation τ sig (Elt F)) : entry2 V (Proc.devRef .tc main_arg6) = V (Proc.devRef .tc main_arg6) := by
  dsimp only [entry2, hostOps2, hostOps2_1, hostOps2_2]; after_results_simp

theorem entry2_keep_arg7 (V : Valuation τ sig (Elt F)) : entry2 V (Proc.devRef .tc main_arg7) = V (Proc.devRef .tc main_arg7) := by
  dsimp only [entry2, hostOps2, hostOps2_1, hostOps2_2]; after_results_simp

theorem entry2_keep_arg8 (V : Valuation τ sig (Elt F)) : entry2 V (Proc.devRef .tc main_arg8) = V (Proc.devRef .tc main_arg8) := by
  dsimp only [entry2, hostOps2, hostOps2_1, hostOps2_2]; after_results_simp

end Cert.KernelIdeal.KRead

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibDenseStages.lean ====
/-
  The dense stages of a graph convolution network on the extended reals, read entry by entry.

  A matrix product `[a, k] × [k, b]` at `(p, q)` is the sum over the inner coordinate of the products of row `p` and
  column `q`; a bias row `[1, b]` added to every row and clamped below at zero is `max (x(p,q) + r(0,q)) 0`.  Both read
  row `p` of their first operand only, so a tile of rows of the result is the result of the tile: that is all a
  row-blocked computation needs, and no entry has to be finite (nothing here distributes a product over a sum).
-/
import Idealize.ShloMosaic.Lib.ValueIdx
import Idealize.ShloMosaic.Lib.Pipeline.Value
import Idealize.ShloMosaic.Lib.ValueLayout
import Idealize.ShloMosaic.PureOps.Ideal.Laws
import proofs.«118433_j81398220194150_1_alg».proof.Proof.LibLayerLaws

noncomputable section

open scoped BigOperators

namespace Cert.Gcn

open Idealize.ShloMosaic Idealize.ShloMosaic.ValueIdx Cert.LayerLaws

variable {a k b n N : ℕ} {φ₁ φ₂ : FTy}

/-! ## The two stages -/

/-- The matrix product, as an array. -/
def mm (x : Mat a k) (w : Mat k b) : Mat a b :=
  fun i => ∑ j : Fin k, x (ix2 (⟨(i 0).val, idx2_lt0 i⟩ : Fin a) j) * w (ix2 j (⟨(i 1).val, idx2_lt1 i⟩ : Fin b))

theorem mm_apply (x : Mat a k) (w : Mat k b) (p : Fin a) (q : Fin b) :
    mm x w (ix2 p q) = ∑ j : Fin k, x (ix2 p j) * w (ix2 j q) := rfl

/-- A bias row added to every row, then the positive part. -/
def biasRelu (x : Mat a b) (r : Mat 1 b) : Mat a b :=
  fun i => max (x i + r (ix2 (0 : Fin 1) (⟨(i 1).val, idx2_lt1 i⟩ : Fin b))) 0

theorem biasRelu_apply (x : Mat a b) (r : Mat 1 b) (p : Fin a) (q : Fin b) :
    biasRelu x r (ix2 p q) = max (x (ix2 p q) + r (ix2 (0 : Fin 1) q)) 0 := rfl

/-- A bias row added to every row. -/
def addRow (x : Mat a b) (r : Mat 1 b) : Mat a b :=
  fun i => x i + r (ix2 (0 : Fin 1) (⟨(i 1).val, idx2_lt1 i⟩ : Fin b))

theorem addRow_apply (x : Mat a b) (r : Mat 1 b) (p : Fin a) (q : Fin b) :
    addRow x r (ix2 p q) = x (ix2 p q) + r (ix2 (0 : Fin 1) q) := rfl

/-- A vector as a one-row array. -/
def rowVec (v : (⟨1, ![b]⟩ : Shape).Idx → EReal) : Mat 1 b :=
  fun i => v (ix1 (⟨(i 1).val, idx2_lt1 i⟩ : Fin b))

theorem rowVec_apply (v : (⟨1, ![b]⟩ : Shape).Idx → EReal) (u : Fin 1) (q : Fin b) : rowVec v (ix2 u q) = v (ix1 q) := rfl

/-- A vector recast as `[1, b]` is that row. -/
theorem shapeCast_rowVec (v : (⟨1, ![b]⟩ : Shape).Idx → EReal) (h : (⟨1, ![b]⟩ : Shape).ShapeCasts ⟨2, ![1, b]⟩) :
    shapeCast ⟨2, ![1, b]⟩ v h = rowVec v := by
  funext i
  obtain ⟨u, q, rfl⟩ : ∃ (u : Fin 1) (q : Fin b), i = ix2 u q := ⟨i 0, i 1, eq_ix2 i⟩
  exact shapeCast_a_1a_apply v h u q

/-- A vector broadcast along a new leading unit axis is that row too. -/
theorem bcast_rowVec (v : (⟨1, ![b]⟩ : Shape).Idx → EReal) (h : (⟨1, ![b]⟩ : Shape).BroadcastsInDim ⟨2, ![1, b]⟩ ![1]) :
    broadcastInDim ⟨2, ![1, b]⟩ ![1] h v = rowVec v := by
  funext i
  obtain ⟨u, q, rfl⟩ : ∃ (u : Fin 1) (q : Fin b), i = ix2 u q := ⟨i 0, i 1, eq_ix2 i⟩
  refine broadcastInDim_apply ![1] h v (ix2 u q) (ix1 q) fun ax => ?_
  match ax with
  | ⟨0, _⟩ =>
    show q.val = if b = 1 then 0 else q.val
    split
    · have := q.isLt; omega
    · rfl

/-- A one-row array broadcast over `a` rows, read at `(p, q)`. -/
theorem bcast_rows_apply (r : Mat 1 b) (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape, read anywhere. -/
theorem bcast_scalar_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun ax => ax.elim0

/-! ## A tile of rows of a stage is the stage of the tile -/

theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

theorem biasRelu_rows (e : Fin n → Fin N) (x : Mat n b) (X : Mat N b) (r0 : Mat 1 b)
    (hx : ∀ r q, x (ix2 r q) = X (ix2 (e r) q)) (r : Fin n) (q : Fin b) :
    biasRelu x r0 (ix2 r q) = biasRelu X r0 (ix2 (e r) q) := by
  rw [biasRelu_apply, biasRelu_apply, hx r q]

/-! ## The two spellings of a product: the accelerator's, into a zero accumulator, and the host's -/

/-- A `[a, k] × [k, b]` product into a zero accumulator at `(p, q)`, from the four facts about the record's operand indices. -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.matmul D none x w (constant ⟨2, ![a, b]⟩ .f32 0x00000000#32) (ix2 p q) = ∑ j : Fin k, x (ix2 p j) * w (ix2 j q) :=
  (Ideal.matmul_constant_zero_apply D none x w (ix2 p q)).trans (sum_inner D hr hs hl0 hl1 hr0 hr1 x w p q)

/-- The host's product at `(p, q)`, the same way. -/
theorem dotGeneral_apply (D : DotDims ⟨2, ![a, k]⟩ ⟨2, ![k, b]⟩ ⟨2, ![a, b]⟩) (sched : HostSchedule)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.dotGeneral D none sched x w (ix2 p q) = ∑ j : Fin k, x (ix2 p j) * w (ix2 j q) :=
  (Ideal.dotGeneral_apply D none sched x w (ix2 p q)).trans (sum_inner D hr hs hl0 hl1 hr0 hr1 x w p q)

end Cert.Gcn

end
-- ==== Proof.LibDense3.lean ====
/-
  The dense stage of a Chebyshev graph convolution on the extended reals, as one array.

  Three node-feature arrays `x0, x1, x2 : [n, 128]` (the first three Chebyshev terms) meet three weight blocks
  `w0, w1, w2 : [128, 128]` and a bias row `b : [1, 128]`:
      out(p, q) = max ( ((∑ₖ x0(p,k)·w0(k,q) + ∑ₖ x1(p,k)·w1(k,q)) + ∑ₖ x2(p,k)·w2(k,q)) + b(0,q) ) 0 .
  Entry (p, q) reads row p of each feature array only, so a tile of rows of the result is the result of the tiles.
  Nothing here distributes a product over a sum: no entry has to be finite.
-/
import proofs.«118433_j81398220194150_1_alg».proof.Proof.LibDenseStages

noncomputable section

open scoped BigOperators

namespace Cert.Dense

open Idealize.ShloMosaic Idealize.ShloMosaic.ValueIdx Cert.LayerLaws Cert.Gcn

variable {n N : ℕ}

/-- The sum of the three products, entry by entry. -/
def sum3 (x0 x1 x2 : Mat n 128) (w0 w1 w2 : Mat 128 128) : Mat n 128 :=
  fun i => (mm x0 w0 i + mm x1 w1 i) + mm x2 w2 i

/-- Three products added left to right, the bias row added to every row, the positive part. -/
def dense3 (x0 x1 x2 : Mat n 128) (w0 w1 w2 : Mat 128 128) (b : Mat 1 128) : Mat n 128 :=
  biasRelu (sum3 x0 x1 x2 w0 w1 w2) b

theorem dense3_apply (x0 x1 x2 : Mat n 128) (w0 w1 w2 : Mat 128 128) (b : Mat 1 128) (p : Fin n) (q : Fin 128) :
    dense3 x0 x1 x2 w0 w1 w2 b (ix2 p q)
      = max ((((∑ j : Fin 128, x0 (ix2 p j) * w0 (ix2 j q)) + ∑ j : Fin 128, x1 (ix2 p j) * w1 (ix2 j q))
              + ∑ j : Fin 128, x2 (ix2 p j) * w2 (ix2 j q)) + b (ix2 (0 : Fin 1) q)) 0 := rfl

/-- A tile of rows of the dense stage is the dense stage of the tiles: row `r` of the tile is row `e r` of the array. -/
theorem dense3_rows (e : Fin n → Fin N) (x0 x1 x2 : Mat n 128) (X0 X1 X2 : Mat N 128) (w0 w1 w2 : Mat 128 128) (b : Mat 1 128)
    (h0 : ∀ r j, x0 (ix2 r j) = X0 (ix2 (e r) j)) (h1 : ∀ r j, x1 (ix2 r j) = X1 (ix2 (e r) j))
    (h2 : ∀ r j, x2 (ix2 r j) = X2 (ix2 (e r) j)) (r : Fin n) (q : Fin 128) :
    dense3 x0 x1 x2 w0 w1 w2 b (ix2 r q) = dense3 X0 X1 X2 w0 w1 w2 b (ix2 (e r) q) := by
  rw [dense3_apply, dense3_apply]
  simp only [h0, h1, h2]

end Cert.Dense

end
-- ==== Proof.LibVectorStages.lean ====
/-
  The vector spellings of the dense stages of a graph convolution network, on the extended reals, as whole arrays.

  A kernel body writes a matrix product as a product into an accumulator of zeros, a bias as a one-row array
  broadcast over the rows, a clamp as a maximum with a splat of the zero word, and a per-row scale as a one-column
  array broadcast over the columns.  Each is the corresponding stage of `Cert.Gcn` (the product `mm`, `biasRelu`,
  `addRow`) or the row-scaled quotient below, entry by entry; nothing here needs an entry to be finite.
-/
import Idealize.ShloMosaic.Lib.ValueIdx
import Idealize.ShloMosaic.Lib.Pipeline.Value
import Idealize.ShloMosaic.Lib.ValueLayout
import Idealize.ShloMosaic.PureOps.Ideal.Laws
import proofs.«118433_j81398220194150_1_alg».proof.Proof.LibDenseStages

noncomputable section

open scoped BigOperators

namespace Cert.Gcn

open Idealize.ShloMosaic Idealize.ShloMosaic.ValueIdx Cert.LayerLaws

variable {a k b : ℕ} {φ₁ φ₂ : FTy}

/-! ## A record that contracts the inner axis -/

/-- The facts about a dimension record that make its product the sum over the inner coordinate. -/
structure Inner (D : DotDims ⟨2, ![a, k]⟩ ⟨2, ![k, b]⟩ ⟨2, ![a, b]⟩) : Prop where
  rank : D.contr.rank = 1
  size : D.contr.size ⟨0, by rw [rank]; exact Nat.zero_lt_one⟩ = k
  l0 : ∀ i q, (D.lhsIdx i q 0).val = (i 0).val
  l1 : ∀ i q, (D.lhsIdx i q 1).val = (q ⟨0, by rw [rank]; exact Nat.zero_lt_one⟩).val
  r0 : ∀ i q, (D.rhsIdx i q 0).val = (q ⟨0, by rw [rank]; exact Nat.zero_lt_one⟩).val
  r1 : ∀ i q, (D.rhsIdx i q 1).val = (i 1).val

/-- A product into a zero accumulator is the matrix product. -/
theorem matmul_zero_eq_mm {D : DotDims ⟨2, ![a, k]⟩ ⟨2, ![k, b]⟩ ⟨2, ![a, b]⟩} (hD : Inner D)
    (x : FVec Ideal ⟨2, ![a, k]⟩ φ₁) (w : FVec Ideal ⟨2, ![k, b]⟩ φ₂) :
    FloatOps.matmul D none x w (constant ⟨2, ![a, b]⟩ .f32 0x00000000#32) = mm x w := by
  funext i
  obtain ⟨p, q, rfl⟩ : ∃ (p : Fin a) (q : Fin b), i = ix2 p q := ⟨i 0, i 1, eq_ix2 i⟩
  exact matmul_zero_apply D hD.rank hD.size hD.l0 hD.l1 hD.r0 hD.r1 x w p q

/-- The host's product is the matrix product too. -/
theorem dotGeneral_eq_mm {D : DotDims ⟨2, ![a, k]⟩ ⟨2, ![k, b]⟩ ⟨2, ![a, b]⟩} (hD : Inner D) (sched : HostSchedule)
    (x : FVec Ideal ⟨2, ![a, k]⟩ φ₁) (w : FVec Ideal ⟨2, ![k, b]⟩ φ₂) :
    FloatOps.dotGeneral D none sched x w = mm x w := by
  funext i
  obtain ⟨p, q, rfl⟩ : ∃ (p : Fin a) (q : Fin b), i = ix2 p q := ⟨i 0, i 1, eq_ix2 i⟩
  exact dotGeneral_apply D sched hD.rank hD.size hD.l0 hD.l1 hD.r0 hD.r1 x w p q

/-! ## Rows and columns broadcast by `vector.broadcast` -/

/-- A one-row array broadcast over `a` rows, read at `(p, q)`. -/
theorem broadcastTo_rows_apply (r : Mat 1 b) (h : (⟨2, ![1, b]⟩ : Shape).Broadcasts ⟨2, ![a, b]⟩) (p : Fin a) (q : Fin b) :
    broadcastTo ⟨2, ![a, b]⟩ r h (ix2 p q) = r (ix2 (0 : Fin 1) q) := by
  refine broadcastTo_apply r h (ix2 p q) (ix2 (0 : Fin 1) q) fun ax => ?_
  match ax with
  | ⟨0, _⟩ => rfl
  | ⟨1, _⟩ =>
    show q.val = if b = 1 then 0 else q.val
    split
    · have := q.isLt; omega
    · rfl

/-- A one-column array broadcast over `b` columns, read at `(p, q)`. -/
theorem broadcastTo_cols_apply (c : Mat a 1) (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stages in their vector spelling -/

/-- "add the broadcast row, then the maximum with a splat of the zero word" is `biasRelu`. -/
theorem vector_biasRelu (x : Mat a b) (r : Mat 1 b) (h : (⟨2, ![1, b]⟩ : Shape).Broadcasts ⟨2, ![a, b]⟩) :
    maximumf (F := Ideal) (φ := .f32) (addf x (broadcastTo ⟨2, ![a, b]⟩ r h))
      (broadcast ⟨2, ![a, b]⟩ (Ideal.ofBits .f32 0x00000000#32)) = biasRelu x r := by
  funext i
  obtain ⟨p, q, rfl⟩ : ∃ (p : Fin a) (q : Fin b), i = ix2 p q := ⟨i 0, i 1, eq_ix2 i⟩
  rw [maximumf_apply, addf_apply, broadcast_apply, broadcastTo_rows_apply, biasRelu_apply, Ideal.ofBits_zero_f32]

/-- "add the broadcast row" is `addRow`. -/
theorem vector_addRow (x : Mat a b) (r : Mat 1 b) (h : (⟨2, ![1, b]⟩ : Shape).Broadcasts ⟨2, ![a, b]⟩) :
    addf (F := Ideal) (φ := .f32) x (broadcastTo ⟨2, ![a, b]⟩ r h) = addRow x r := by
  funext i
  obtain ⟨p, q, rfl⟩ : ∃ (p : Fin a) (q : Fin b), i = ix2 p q := ⟨i 0, i 1, eq_ix2 i⟩
  rw [addf_apply, broadcastTo_rows_apply, addRow_apply]

/-- Every row of `s` divided by that row's entry of a column clamped below at the word `lo`. -/
def rowQuot (lo : EReal) (s : Mat a b) (c : Mat a 1) : Mat a b :=
  fun i => Ideal.div (s i) (max (c (ix2 (⟨(i 0).val, idx2_lt0 i⟩ : Fin a) (0 : Fin 1))) lo)

theorem rowQuot_apply (lo : EReal) (s : Mat a b) (c : Mat a 1) (p : Fin a) (q : Fin b) :
    rowQuot lo s c (ix2 p q) = Ideal.div (s (ix2 p q)) (max (c (ix2 p (0 : Fin 1))) lo) := rfl

/-- "divide by the broadcast of the column's maximum with a splat" is `rowQuot`. -/
theorem vector_rowQuot (lo : EReal) (s : Mat a b) (c : Mat a 1) (h : (⟨2, ![a, 1]⟩ : Shape).Broadcasts ⟨2, ![a, b]⟩) :
    divf (F := Ideal) (φ := .f32) s (broadcastTo ⟨2, ![a, b]⟩ (maximumf (F := Ideal) (φ := .f32) c (broadcast ⟨2, ![a, 1]⟩ lo)) h)
      = rowQuot lo s c := by
  funext i
  obtain ⟨p, q, rfl⟩ : ∃ (p : Fin a) (q : Fin b), i = ix2 p q := ⟨i 0, i 1, eq_ix2 i⟩
  rw [divf_apply, broadcastTo_cols_apply, maximumf_apply, broadcast_apply, rowQuot_apply]

/-- The pooled head: every row of the sums divided by that graph's count clamped below at `lo`, a dense layer clamped at
    zero, a dense layer. -/
def pooledHead {g h j : ℕ} (lo : EReal) (s : Mat g h) (c : Mat g 1) (wl : Mat h j) (bl : Mat 1 j) (wo : Mat j 1) (bo : Mat 1 1) :
    Mat g 1 :=
  addRow (mm (biasRelu (mm (rowQuot lo s c) wl) bl) wo) bo

end Cert.Gcn

end
-- ==== Proof.Region0.lean ====
/-
  The first row-tiled dense stage of the network, as one array.

  The stage runs over ten tiles of 5000 rows.  At tile `t` it reads rows `5000 t … 5000 t + 4999` of three feature
  arrays `[50000, 128]`, three whole weight blocks `[128, 128]` and a bias row `[1, 128]`, and writes
      max ( ((x0·w0 + x1·w1) + x2·w2) + b ) 0
  to the same rows of the output.  Entry `(p, q)` of that value reads row `p` of the features only, so what tile `t`
  writes is rows `5000 t …` of the dense stage of the WHOLE arrays; the ten tiles cover every row (row `p` lies in
  tile `p / 5000`), so the output array ends holding the dense stage of the arrays the stage found.
-/
import proofs.«118433_j81398220194150_1_alg».proof.Proof.Gen.KernelIdeal.Frame
import proofs.«118433_j81398220194150_1_alg».proof.Proof.LibDense3
import proofs.«118433_j81398220194150_1_alg».proof.Proof.LibVectorStages
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LayerLaws Cert.Gcn Cert.Dense

/-! ## The value one tile computes -/

/-- The record of the tile's three products contracts the inner axis. -/
theorem inner_dot0 : Inner dot_S5000x128_S128x128_S5000x128_1_0_0_1_n_n where
  rank := rfl
  size := rfl
  l0 := fun i q => by simp [DotDims.lhsIdx, dot_S5000x128_S128x128_S5000x128_1_0_0_1_n_n]; rfl
  l1 := fun i q => by simp [DotDims.lhsIdx, dot_S5000x128_S128x128_S5000x128_1_0_0_1_n_n]; rfl
  r0 := fun i q => by simp [DotDims.rhsIdx, dot_S5000x128_S128x128_S5000x128_1_0_0_1_n_n]; rfl
  r1 := fun i q => by simp [DotDims.rhsIdx, dot_S5000x128_S128x128_S5000x128_1_0_0_1_n_n]; rfl

/-- The value a tile stores is the dense stage of the blocks it loads: on the extended reals a change of format
    and a cast to the same shape are the identity, each product into zeros is the matrix product, and the bias row
    and the clamp are `biasRelu`. -/
theorem pay0_eq (x0 x1 x2 : Vec Ideal S5000x128 .f32) (x3 x4 x5 : Vec Ideal S128x128 .f32) (x6 : Vec Ideal S1x128 .f32) :
    (k0_pay1 x0 x1 x2 x3 x4 x5 x6 : S5000x128.Idx → EReal) = dense3 x0 x1 x2 x3 x4 x5 x6 := by
  unfold k0_pay1
  simp only [shapeCast_self]
  have m0 := matmul_zero_eq_mm inner_dot0 (φ₁ := .bf16) (φ₂ := .bf16) (truncf FTy.bf16 x0 bitsLt_bf16_f32) (truncf FTy.bf16 x3 bitsLt_bf16_f32)
  have m1 := matmul_zero_eq_mm inner_dot0 (φ₁ := .bf16) (φ₂ := .bf16) (truncf FTy.bf16 x1 bitsLt_bf16_f32) (truncf FTy.bf16 x4 bitsLt_bf16_f32)
  have m2 := matmul_zero_eq_mm inner_dot0 (φ₁ := .bf16) (φ₂ := .bf16) (truncf FTy.bf16 x2 bitsLt_bf16_f32) (truncf FTy.bf16 x5 bitsLt_bf16_f32)
  refine Eq.trans (congrArg (fun z => maximumf (F := Ideal) (φ := .f32) (addf z (broadcastTo S5000x128 x6 broadcasts_S1x128_S5000x128))
      (broadcast S5000x128 (Ideal.ofBits .f32 0x00000000#32)))
    (congrArg₂ (fun u v => addf (F := Ideal) (φ := .f32) u v) (congrArg₂ (fun u v => addf (F := Ideal) (φ := .f32) u v) m0 m1) m2)) ?_
  exact vector_biasRelu (sum3 x0 x1 x2 x3 x4 x5) x6 broadcasts_S1x128_S5000x128

theorem hz0 : (![0, 0] : Fin 2 → Nat) = fun _ => 0 := funext fun a => by fin_cases a <;> rfl

/-- What a tile leaves in the output's staging buffer: one store through the whole buffer of the value computed
    from whole loads, so the dense stage of the staged blocks. -/
theorem out0_eq (x0 x1 x2 : Vec Ideal S5000x128 .f32) (x3 x4 x5 : Vec Ideal S128x128 .f32) (x6 : Vec Ideal S1x128 .f32) :
    (out0_7 x0 x1 x2 x3 x4 x5 x6 : S5000x128.Idx → EReal) = dense3 x0 x1 x2 x3 x4 x5 x6 := by
  unfold out0_7
  rw [View.canon_unit_zero hz0]
  simp only [View.ld_unit_zero (S := S5000x128) hz0, View.ld_unit_zero (S := S128x128) hz0, View.ld_unit_zero (S := S1x128) hz0]
  exact pay0_eq x0 x1 x2 x3 x4 x5 x6

/-! ## Where the blocks sit -/

/-- The index maps over the ten tiles: the row-blocked windows sit at block `t` of the rows, the others at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Row `r` of the first feature window's block at tile `t` is row `5000 t + r` of its array. -/
theorem blk0_0 (t : Fin cfg0.N) (r : Fin 5000) (j : Fin 128) (h : 5000 * t.val + r.val < 50000) :
    (iblk0 V c 0 t : S5000x128.Idx → EReal) (ix2 r j)
      = (V c main_v15 : S50000x128.Idx → EReal) (ix2 (⟨5000 * t.val + r.val, h⟩ : Fin 50000) j) := by
  obtain ⟨e0, e1, -⟩ := idx_facts0 t
  show (V c main_v15 : S50000x128.Idx → EReal) (((cfg0.win 0).blk t).view.emb (ix2 r j)) = _
  refine congrArg (V c main_v15 : S50000x128.Idx → EReal) ?_
  funext a; apply Fin.ext
  match a with
  | ⟨0, _⟩ => show win0_0.index t (0 : Fin 2) * 5000 + 1 * r.val = 5000 * t.val + r.val; omega
  | ⟨1, _⟩ => show win0_0.index t (1 : Fin 2) * 128 + 1 * j.val = j.val; omega

/-- The same for the second feature window. -/
theorem blk0_1 (t : Fin cfg0.N) (r : Fin 5000) (j : Fin 128) (h : 5000 * t.val + r.val < 50000) :
    (iblk0 V c 1 t : S5000x128.Idx → EReal) (ix2 r j)
      = (V c main_v38 : S50000x128.Idx → EReal) (ix2 (⟨5000 * t.val + r.val, h⟩ : Fin 50000) j) := by
  obtain ⟨-, -, e0, e1, -⟩ := idx_facts0 t
  show (V c main_v38 : S50000x128.Idx → EReal) (((cfg0.win 1).blk t).view.emb (ix2 r j)) = _
  refine congrArg (V c main_v38 : S50000x128.Idx → EReal) ?_
  funext a; apply Fin.ext
  match a with
  | ⟨0, _⟩ => show win0_1.index t (0 : Fin 2) * 5000 + 1 * r.val = 5000 * t.val + r.val; omega
  | ⟨1, _⟩ => show win0_1.index t (1 : Fin 2) * 128 + 1 * j.val = j.val; omega

/-- The same for the third feature window. -/
theorem blk0_2 (t : Fin cfg0.N) (r : Fin 5000) (j : Fin 128) (h : 5000 * t.val + r.val < 50000) :
    (iblk0 V c 2 t : S5000x128.Idx → EReal) (ix2 r j)
      = (V c main_v58 : S50000x128.Idx → EReal) (ix2 (⟨5000 * t.val + r.val, h⟩ : Fin 50000) j) := by
  obtain ⟨-, -, -, -, e0, e1, -⟩ := idx_facts0 t
  show (V c main_v58 : S50000x128.Idx → EReal) (((cfg0.win 2).blk t).view.emb (ix2 r j)) = _
  refine congrArg (V c main_v58 : S50000x128.Idx → EReal) ?_
  funext a; apply Fin.ext
  match a with
  | ⟨0, _⟩ => show win0_2.index t (0 : Fin 2) * 5000 + 1 * r.val = 5000 * t.val + r.val; omega
  | ⟨1, _⟩ => show win0_2.index t (1 : Fin 2) * 128 + 1 * j.val = j.val; omega

/-- The first weight window's block is its whole array. -/
theorem blk0_3 (t : Fin cfg0.N) : (iblk0 V c 3 t : S128x128.Idx → EReal) = (V c main_v59 : S128x128.Idx → EReal) := by
  obtain ⟨-, -, -, -, -, -, e0, e1, -⟩ := idx_facts0 t
  funext i
  show (V c main_v59 : S128x128.Idx → EReal) (((cfg0.win 3).blk t).view.emb i) = _
  refine congrArg (V c main_v59 : S128x128.Idx → EReal) ?_
  funext a; apply Fin.ext
  match a with
  | ⟨0, _⟩ => show win0_3.index t (0 : Fin 2) * 128 + 1 * (i 0).val = (i 0).val; omega
  | ⟨1, _⟩ => show win0_3.index t (1 : Fin 2) * 128 + 1 * (i 1).val = (i 1).val; omega

/-- The second weight window's block is its whole array. -/
theorem blk0_4 (t : Fin cfg0.N) : (iblk0 V c 4 t : S128x128.Idx → EReal) = (V c main_v60 : S128x128.Idx → EReal) := by
  obtain ⟨-, -, -, -, -, -, -, -, e0, e1, -⟩ := idx_facts0 t
  funext i
  show (V c main_v60 : S128x128.Idx → EReal) (((cfg0.win 4).blk t).view.emb i) = _
  refine congrArg (V c main_v60 : S128x128.Idx → EReal) ?_
  funext a; apply Fin.ext
  match a with
  | ⟨0, _⟩ => show win0_4.index t (0 : Fin 2) * 128 + 1 * (i 0).val = (i 0).val; omega
  | ⟨1, _⟩ => show win0_4.index t (1 : Fin 2) * 128 + 1 * (i 1).val = (i 1).val; omega

/-- The third weight window's block is its whole array. -/
theorem blk0_5 (t : Fin cfg0.N) : (iblk0 V c 5 t : S128x128.Idx → EReal) = (V c main_v61 : S128x128.Idx → EReal) := by
  obtain ⟨-, -, -, -, -, -, -, -, -, -, e0, e1, -⟩ := idx_facts0 t
  funext i
  show (V c main_v61 : S128x128.Idx → EReal) (((cfg0.win 5).blk t).view.emb i) = _
  refine congrArg (V c main_v61 : S128x128.Idx → EReal) ?_
  funext a; apply Fin.ext
  match a with
  | ⟨0, _⟩ => show win0_5.index t (0 : Fin 2) * 128 + 1 * (i 0).val = (i 0).val; omega
  | ⟨1, _⟩ => show win0_5.index t (1 : Fin 2) * 128 + 1 * (i 1).val = (i 1).val; omega

/-- The bias window's block is its whole row. -/
theorem blk0_6 (t : Fin cfg0.N) : (iblk0 V c 6 t : S1x128.Idx → EReal) = (V c main_v62 : S1x128.Idx → EReal) := by
  obtain ⟨-, -, -, -, -, -, -, -, -, -, -, -, e0, e1, -⟩ := idx_facts0 t
  funext i
  show (V c main_v62 : S1x128.Idx → EReal) (((cfg0.win 6).blk t).view.emb i) = _
  refine congrArg (V c main_v62 : S1x128.Idx → EReal) ?_
  funext a; apply Fin.ext
  match a with
  | ⟨0, _⟩ => show win0_6.index t (0 : Fin 2) * 1 + 1 * (i 0).val = (i 0).val; omega
  | ⟨1, _⟩ => show win0_6.index t (1 : Fin 2) * 128 + 1 * (i 1).val = (i 1).val; omega

/-! ## From the tiles to the array -/

/-- The dense stage of the arrays the stage finds: what the output array ends holding. -/
abbrev G0 : S50000x128.Idx → EReal :=
  dense3 (V c main_v15 : S50000x128.Idx → EReal) (V c main_v38 : S50000x128.Idx → EReal) (V c main_v58 : S50000x128.Idx → EReal)
    (V c main_v59 : S128x128.Idx → EReal) (V c main_v60 : S128x128.Idx → EReal) (V c main_v61 : S128x128.Idx → EReal)
    (V c main_v62 : S1x128.Idx → EReal)

/-- What tile `t` writes back is block `t` of the dense stage of the whole arrays: the stage reads row `p` of the
    features only, and row `r` of each staged block is row `5000 t + r` of its array. -/
theorem flushed0_eq (t : Fin cfg0.N) :
    (dat0 V c).flushed 7 t = ((cfg0.win 7).blk t).view.read (Elt Ideal) (G0 V c) := by
  show (cfg0.win 7).cut (grid0.coords t) ((dat0 V c).after 7 t) = _
  rw [after0_7, out0_eq, blk0_3, blk0_4, blk0_5, blk0_6]
  have hN : grid0.N = 10 := N_0
  have ht : t.val < 10 := hN ▸ t.isLt
  obtain ⟨-, -, -, -, -, -, -, -, -, -, -, -, -, -, e0, e1⟩ := idx_facts0 t
  funext y
  obtain ⟨r, q, rfl⟩ : ∃ (r : Fin 5000) (q : Fin 128), y = ix2 r q := ⟨y 0, y 1, eq_ix2 y⟩
  have hr : 5000 * t.val + r.val < 50000 := by have := r.isLt; omega
  have hemb : ((cfg0.win 7).blk t).view.emb (ix2 r q) = ix2 (⟨5000 * t.val + r.val, hr⟩ : Fin 50000) q := by
    funext a; apply Fin.ext
    match a with
    | ⟨0, _⟩ => show win0_7.index t (0 : Fin 2) * 5000 + 1 * r.val = 5000 * t.val + r.val; omega
    | ⟨1, _⟩ => show win0_7.index t (1 : Fin 2) * 128 + 1 * q.val = q.val; omega
  show dense3 (iblk0 V c 0 t : S5000x128.Idx → EReal) (iblk0 V c 1 t : S5000x128.Idx → EReal) (iblk0 V c 2 t : S5000x128.Idx → EReal)
      (V c main_v59 : S128x128.Idx → EReal) (V c main_v60 : S128x128.Idx → EReal) (V c main_v61 : S128x128.Idx → EReal)
      (V c main_v62 : S1x128.Idx → EReal) (ix2 r q)
    = G0 V c (((cfg0.win 7).blk t).view.emb (ix2 r q))
  rw [hemb]
  exact dense3_rows (fun r : Fin 5000 => (⟨5000 * t.val + r.val, by have := r.isLt; omega⟩ : Fin 50000)) _ _ _ _ _ _ _ _ _ _
    (fun r j => blk0_0 V c t r j _) (fun r j => blk0_1 V c t r j _) (fun r j => blk0_2 V c t r j _) r q

/-- An index of the output array is in tile `t`'s block iff each coordinate is in the block's range on its axis. -/
theorem mem_blk0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v63).slice (win0_7.rect t)).set ↔ _
  rw [View.set_slice_whole, Rect.mem_set_unit]
  exact Iff.rfl

/-- Every row of the output array is in some tile's block: row `p` in that of tile `p / 5000`. -/
theorem cover0 (i : S50000x128.Idx) :
    ∃ t : Fin cfg0.N, (cfg0.win 7).flush t = true ∧ i ∈ ((cfg0.win 7).blk t).view.set := by
  have hN : grid0.N = 10 := N_0
  have hi0 : (i 0).val < 50000 := (i 0).isLt
  have hi1 : (i 1).val < 128 := (i 1).isLt
  have hlt : (i 0).val / 5000 < grid0.N := by rw [hN]; omega
  obtain ⟨-, -, -, -, -, -, -, -, -, -, -, -, -, -, e0, e1⟩ := idx_facts0 ⟨(i 0).val / 5000, hlt⟩
  refine ⟨⟨(i 0).val / 5000, hlt⟩, flush0_7 _, ?_⟩
  rw [mem_blk0]
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, hlt⟩ (1 : Fin 2) * 128 ≤ (i 1).val
      ∧ (i 1).val < win0_7.index ⟨(i 0).val / 5000, hlt⟩ (1 : Fin 2) * 128 + 128
    rw [e1]
    omega

/-- The output array after the stage's last write-back is the dense stage of the arrays the stage found. -/
theorem arr0 : (Gen.dat0 (F := Ideal) V c).arrAt 7 cfg0.N
    = Cert.Dense.dense3 (V c main_v15 : S50000x128.Idx → EReal) (V c main_v38 : S50000x128.Idx → EReal)
        (V c main_v58 : S50000x128.Idx → EReal) (V c main_v59 : S128x128.Idx → EReal) (V c main_v60 : S128x128.Idx → EReal)
        (V c main_v61 : S128x128.Idx → EReal) (V c main_v62 : S1x128.Idx → EReal) :=
  (dat0 V c).arrAt_eq_of_cover 7 (G0 V c) (fun t _ => flushed0_eq V c t) (cover0)

end Blocks

end Cert.KernelIdeal.RegionValue

end
-- ==== Proof.Region1.lean ====
/-
  The second row-tiled dense stage of the network, as one array.

  The stage runs over ten tiles of 5000 rows.  At tile `t` it reads rows `5000 t … 5000 t + 4999` of three feature
  arrays `[50000, 128]`, three whole weight blocks `[128, 128]` and a bias row `[1, 128]`, and writes
      max ( ((x0·w0 + x1·w1) + x2·w2) + b ) 0
  to the same rows of the output.  Entry `(p, q)` of that value reads row `p` of the features only, so what tile `t`
  writes is rows `5000 t …` of the dense stage of the WHOLE arrays; the ten tiles cover every row (row `p` lies in
  tile `p / 5000`), so the output array ends holding the dense stage of the arrays the stage found.
-/
import proofs.«118433_j81398220194150_1_alg».proof.Proof.Gen.KernelIdeal.Frame
import proofs.«118433_j81398220194150_1_alg».proof.Proof.LibDense3
import proofs.«118433_j81398220194150_1_alg».proof.Proof.LibVectorStages
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LayerLaws Cert.Gcn Cert.Dense

/-! ## The value one tile computes -/

/-- The record of the tile's three products contracts the inner axis. -/
theorem inner_dot1 : Inner dot_S5000x128_S128x128_S5000x128_1_0_0_1_n_n where
  rank := rfl
  size := rfl
  l0 := fun i q => by simp [DotDims.lhsIdx, dot_S5000x128_S128x128_S5000x128_1_0_0_1_n_n]; rfl
  l1 := fun i q => by simp [DotDims.lhsIdx, dot_S5000x128_S128x128_S5000x128_1_0_0_1_n_n]; rfl
  r0 := fun i q => by simp [DotDims.rhsIdx, dot_S5000x128_S128x128_S5000x128_1_0_0_1_n_n]; rfl
  r1 := fun i q => by simp [DotDims.rhsIdx, dot_S5000x128_S128x128_S5000x128_1_0_0_1_n_n]; rfl

/-- The value a tile stores is the dense stage of the blocks it loads: on the extended reals a change of format
    and a cast to the same shape are the identity, each product into zeros is the matrix product, and the bias row
    and the clamp are `biasRelu`. -/
theorem pay1_eq (x0 x1 x2 : Vec Ideal S5000x128 .f32) (x3 x4 x5 : Vec Ideal S128x128 .f32) (x6 : Vec Ideal S1x128 .f32) :
    (k1_pay1 x0 x1 x2 x3 x4 x5 x6 : S5000x128.Idx → EReal) = dense3 x0 x1 x2 x3 x4 x5 x6 := by
  unfold k1_pay1
  simp only [shapeCast_self]
  have m0 := matmul_zero_eq_mm inner_dot1 (φ₁ := .bf16) (φ₂ := .bf16) (truncf FTy.bf16 x0 bitsLt_bf16_f32) (truncf FTy.bf16 x3 bitsLt_bf16_f32)
  have m1 := matmul_zero_eq_mm inner_dot1 (φ₁ := .bf16) (φ₂ := .bf16) (truncf FTy.bf16 x1 bitsLt_bf16_f32) (truncf FTy.bf16 x4 bitsLt_bf16_f32)
  have m2 := matmul_zero_eq_mm inner_dot1 (φ₁ := .bf16) (φ₂ := .bf16) (truncf FTy.bf16 x2 bitsLt_bf16_f32) (truncf FTy.bf16 x5 bitsLt_bf16_f32)
  refine Eq.trans (congrArg (fun z => maximumf (F := Ideal) (φ := .f32) (addf z (broadcastTo S5000x128 x6 broadcasts_S1x128_S5000x128))
      (broadcast S5000x128 (Ideal.ofBits .f32 0x00000000#32)))
    (congrArg₂ (fun u v => addf (F := Ideal) (φ := .f32) u v) (congrArg₂ (fun u v => addf (F := Ideal) (φ := .f32) u v) m0 m1) m2)) ?_
  exact vector_biasRelu (sum3 x0 x1 x2 x3 x4 x5) x6 broadcasts_S1x128_S5000x128

theorem hz1 : (![0, 0] : Fin 2 → Nat) = fun _ => 0 := funext fun a => by fin_cases a <;> rfl

/-- What a tile leaves in the output's staging buffer: one store through the whole buffer of the value computed
    from whole loads, so the dense stage of the staged blocks. -/
theorem out1_eq (x0 x1 x2 : Vec Ideal S5000x128 .f32) (x3 x4 x5 : Vec Ideal S128x128 .f32) (x6 : Vec Ideal S1x128 .f32) :
    (out1_7 x0 x1 x2 x3 x4 x5 x6 : S5000x128.Idx → EReal) = dense3 x0 x1 x2 x3 x4 x5 x6 := by
  unfold out1_7
  rw [View.canon_unit_zero hz1]
  simp only [View.ld_unit_zero (S := S5000x128) hz1, View.ld_unit_zero (S := S128x128) hz1, View.ld_unit_zero (S := S1x128) hz1]
  exact pay1_eq x0 x1 x2 x3 x4 x5 x6

/-! ## Where the blocks sit -/

/-- The index maps over the ten tiles: the row-blocked windows sit at block `t` of the rows, the others at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Row `r` of the first feature window's block at tile `t` is row `5000 t + r` of its array. -/
theorem blk1_0 (t : Fin cfg1.N) (r : Fin 5000) (j : Fin 128) (h : 5000 * t.val + r.val < 50000) :
    (iblk1 V c 0 t : S5000x128.Idx → EReal) (ix2 r j)
      = (V c main_v64 : S50000x128.Idx → EReal) (ix2 (⟨5000 * t.val + r.val, h⟩ : Fin 50000) j) := by
  obtain ⟨e0, e1, -⟩ := idx_facts1 t
  show (V c main_v64 : S50000x128.Idx → EReal) (((cfg1.win 0).blk t).view.emb (ix2 r j)) = _
  refine congrArg (V c main_v64 : S50000x128.Idx → EReal) ?_
  funext a; apply Fin.ext
  match a with
  | ⟨0, _⟩ => show win1_0.index t (0 : Fin 2) * 5000 + 1 * r.val = 5000 * t.val + r.val; omega
  | ⟨1, _⟩ => show win1_0.index t (1 : Fin 2) * 128 + 1 * j.val = j.val; omega

/-- The same for the second feature window. -/
theorem blk1_1 (t : Fin cfg1.N) (r : Fin 5000) (j : Fin 128) (h : 5000 * t.val + r.val < 50000) :
    (iblk1 V c 1 t : S5000x128.Idx → EReal) (ix2 r j)
      = (V c main_v87 : S50000x128.Idx → EReal) (ix2 (⟨5000 * t.val + r.val, h⟩ : Fin 50000) j) := by
  obtain ⟨-, -, e0, e1, -⟩ := idx_facts1 t
  show (V c main_v87 : S50000x128.Idx → EReal) (((cfg1.win 1).blk t).view.emb (ix2 r j)) = _
  refine congrArg (V c main_v87 : S50000x128.Idx → EReal) ?_
  funext a; apply Fin.ext
  match a with
  | ⟨0, _⟩ => show win1_1.index t (0 : Fin 2) * 5000 + 1 * r.val = 5000 * t.val + r.val; omega
  | ⟨1, _⟩ => show win1_1.index t (1 : Fin 2) * 128 + 1 * j.val = j.val; omega

/-- The same for the third feature window. -/
theorem blk1_2 (t : Fin cfg1.N) (r : Fin 5000) (j : Fin 128) (h : 5000 * t.val + r.val < 50000) :
    (iblk1 V c 2 t : S5000x128.Idx → EReal) (ix2 r j)
      = (V c main_v107 : S50000x128.Idx → EReal) (ix2 (⟨5000 * t.val + r.val, h⟩ : Fin 50000) j) := by
  obtain ⟨-, -, -, -, e0, e1, -⟩ := idx_facts1 t
  show (V c main_v107 : S50000x128.Idx → EReal) (((cfg1.win 2).blk t).view.emb (ix2 r j)) = _
  refine congrArg (V c main_v107 : S50000x128.Idx → EReal) ?_
  funext a; apply Fin.ext
  match a with
  | ⟨0, _⟩ => show win1_2.index t (0 : Fin 2) * 5000 + 1 * r.val = 5000 * t.val + r.val; omega
  | ⟨1, _⟩ => show win1_2.index t (1 : Fin 2) * 128 + 1 * j.val = j.val; omega

/-- The first weight window's block is its whole array. -/
theorem blk1_3 (t : Fin cfg1.N) : (iblk1 V c 3 t : S128x128.Idx → EReal) = (V c main_v108 : S128x128.Idx → EReal) := by
  obtain ⟨-, -, -, -, -, -, e0, e1, -⟩ := idx_facts1 t
  funext i
  show (V c main_v108 : S128x128.Idx → EReal) (((cfg1.win 3).blk t).view.emb i) = _
  refine congrArg (V c main_v108 : S128x128.Idx → EReal) ?_
  funext a; apply Fin.ext
  match a with
  | ⟨0, _⟩ => show win1_3.index t (0 : Fin 2) * 128 + 1 * (i 0).val = (i 0).val; omega
  | ⟨1, _⟩ => show win1_3.index t (1 : Fin 2) * 128 + 1 * (i 1).val = (i 1).val; omega

/-- The second weight window's block is its whole array. -/
theorem blk1_4 (t : Fin cfg1.N) : (iblk1 V c 4 t : S128x128.Idx → EReal) = (V c main_v109 : S128x128.Idx → EReal) := by
  obtain ⟨-, -, -, -, -, -, -, -, e0, e1, -⟩ := idx_facts1 t
  funext i
  show (V c main_v109 : S128x128.Idx → EReal) (((cfg1.win 4).blk t).view.emb i) = _
  refine congrArg (V c main_v109 : S128x128.Idx → EReal) ?_
  funext a; apply Fin.ext
  match a with
  | ⟨0, _⟩ => show win1_4.index t (0 : Fin 2) * 128 + 1 * (i 0).val = (i 0).val; omega
  | ⟨1, _⟩ => show win1_4.index t (1 : Fin 2) * 128 + 1 * (i 1).val = (i 1).val; omega

/-- The third weight window's block is its whole array. -/
theorem blk1_5 (t : Fin cfg1.N) : (iblk1 V c 5 t : S128x128.Idx → EReal) = (V c main_v110 : S128x128.Idx → EReal) := by
  obtain ⟨-, -, -, -, -, -, -, -, -, -, e0, e1, -⟩ := idx_facts1 t
  funext i
  show (V c main_v110 : S128x128.Idx → EReal) (((cfg1.win 5).blk t).view.emb i) = _
  refine congrArg (V c main_v110 : S128x128.Idx → EReal) ?_
  funext a; apply Fin.ext
  match a with
  | ⟨0, _⟩ => show win1_5.index t (0 : Fin 2) * 128 + 1 * (i 0).val = (i 0).val; omega
  | ⟨1, _⟩ => show win1_5.index t (1 : Fin 2) * 128 + 1 * (i 1).val = (i 1).val; omega

/-- The bias window's block is its whole row. -/
theorem blk1_6 (t : Fin cfg1.N) : (iblk1 V c 6 t : S1x128.Idx → EReal) = (V c main_v111 : S1x128.Idx → EReal) := by
  obtain ⟨-, -, -, -, -, -, -, -, -, -, -, -, e0, e1, -⟩ := idx_facts1 t
  funext i
  show (V c main_v111 : S1x128.Idx → EReal) (((cfg1.win 6).blk t).view.emb i) = _
  refine congrArg (V c main_v111 : S1x128.Idx → EReal) ?_
  funext a; apply Fin.ext
  match a with
  | ⟨0, _⟩ => show win1_6.index t (0 : Fin 2) * 1 + 1 * (i 0).val = (i 0).val; omega
  | ⟨1, _⟩ => show win1_6.index t (1 : Fin 2) * 128 + 1 * (i 1).val = (i 1).val; omega

/-! ## From the tiles to the array -/

/-- The dense stage of the arrays the stage finds: what the output array ends holding. -/
abbrev G1 : S50000x128.Idx → EReal :=
  dense3 (V c main_v64 : S50000x128.Idx → EReal) (V c main_v87 : S50000x128.Idx → EReal) (V c main_v107 : S50000x128.Idx → EReal)
    (V c main_v108 : S128x128.Idx → EReal) (V c main_v109 : S128x128.Idx → EReal) (V c main_v110 : S128x128.Idx → EReal)
    (V c main_v111 : S1x128.Idx → EReal)

/-- What tile `t` writes back is block `t` of the dense stage of the whole arrays: the stage reads row `p` of the
    features only, and row `r` of each staged block is row `5000 t + r` of its array. -/
theorem flushed1_eq (t : Fin cfg1.N) :
    (dat1 V c).flushed 7 t = ((cfg1.win 7).blk t).view.read (Elt Ideal) (G1 V c) := by
  show (cfg1.win 7).cut (grid1.coords t) ((dat1 V c).after 7 t) = _
  rw [after1_7, out1_eq, blk1_3, blk1_4, blk1_5, blk1_6]
  have hN : grid1.N = 10 := N_1
  have ht : t.val < 10 := hN ▸ t.isLt
  obtain ⟨-, -, -, -, -, -, -, -, -, -, -, -, -, -, e0, e1⟩ := idx_facts1 t
  funext y
  obtain ⟨r, q, rfl⟩ : ∃ (r : Fin 5000) (q : Fin 128), y = ix2 r q := ⟨y 0, y 1, eq_ix2 y⟩
  have hr : 5000 * t.val + r.val < 50000 := by have := r.isLt; omega
  have hemb : ((cfg1.win 7).blk t).view.emb (ix2 r q) = ix2 (⟨5000 * t.val + r.val, hr⟩ : Fin 50000) q := by
    funext a; apply Fin.ext
    match a with
    | ⟨0, _⟩ => show win1_7.index t (0 : Fin 2) * 5000 + 1 * r.val = 5000 * t.val + r.val; omega
    | ⟨1, _⟩ => show win1_7.index t (1 : Fin 2) * 128 + 1 * q.val = q.val; omega
  show dense3 (iblk1 V c 0 t : S5000x128.Idx → EReal) (iblk1 V c 1 t : S5000x128.Idx → EReal) (iblk1 V c 2 t : S5000x128.Idx → EReal)
      (V c main_v108 : S128x128.Idx → EReal) (V c main_v109 : S128x128.Idx → EReal) (V c main_v110 : S128x128.Idx → EReal)
      (V c main_v111 : S1x128.Idx → EReal) (ix2 r q)
    = G1 V c (((cfg1.win 7).blk t).view.emb (ix2 r q))
  rw [hemb]
  exact dense3_rows (fun r : Fin 5000 => (⟨5000 * t.val + r.val, by have := r.isLt; omega⟩ : Fin 50000)) _ _ _ _ _ _ _ _ _ _
    (fun r j => blk1_0 V c t r j _) (fun r j => blk1_1 V c t r j _) (fun r j => blk1_2 V c t r j _) r q

/-- An index of the output array is in tile `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v112).slice (win1_7.rect t)).set ↔ _
  rw [View.set_slice_whole, Rect.mem_set_unit]
  exact Iff.rfl

/-- Every row of the output array is in some tile's block: row `p` in that of tile `p / 5000`. -/
theorem cover1 (i : S50000x128.Idx) :
    ∃ t : Fin cfg1.N, (cfg1.win 7).flush t = true ∧ i ∈ ((cfg1.win 7).blk t).view.set := by
  have hN : grid1.N = 10 := N_1
  have hi0 : (i 0).val < 50000 := (i 0).isLt
  have hi1 : (i 1).val < 128 := (i 1).isLt
  have hlt : (i 0).val / 5000 < grid1.N := by rw [hN]; omega
  obtain ⟨-, -, -, -, -, -, -, -, -, -, -, -, -, -, e0, e1⟩ := idx_facts1 ⟨(i 0).val / 5000, hlt⟩
  refine ⟨⟨(i 0).val / 5000, hlt⟩, flush1_7 _, ?_⟩
  rw [mem_blk1]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hlt⟩ (1 : Fin 2) * 128 ≤ (i 1).val
      ∧ (i 1).val < win1_7.index ⟨(i 0).val / 5000, hlt⟩ (1 : Fin 2) * 128 + 128
    rw [e1]
    omega

/-- The output array after the stage's last write-back is the dense stage of the arrays the stage found. -/
theorem arr1 : (Gen.dat1 (F := Ideal) V c).arrAt 7 cfg1.N
    = Cert.Dense.dense3 (V c main_v64 : S50000x128.Idx → EReal) (V c main_v87 : S50000x128.Idx → EReal)
        (V c main_v107 : S50000x128.Idx → EReal) (V c main_v108 : S128x128.Idx → EReal) (V c main_v109 : S128x128.Idx → EReal)
        (V c main_v110 : S128x128.Idx → EReal) (V c main_v111 : S1x128.Idx → EReal) :=
  (dat1 V c).arrAt_eq_of_cover 7 (G1 V c) (fun t _ => flushed1_eq V c t) (cover1)

end Blocks

end Cert.KernelIdeal.RegionValue

end
-- ==== Proof.Region2.lean ====
/-
  The third row-tiled dense stage of the network, as one array.

  The stage runs over ten tiles of 5000 rows.  At tile `t` it reads rows `5000 t … 5000 t + 4999` of three feature
  arrays `[50000, 128]`, three whole weight blocks `[128, 128]` and a bias row `[1, 128]`, and writes
      max ( ((x0·w0 + x1·w1) + x2·w2) + b ) 0
  to the same rows of the output.  Entry `(p, q)` of that value reads row `p` of the features only, so what tile `t`
  writes is rows `5000 t …` of the dense stage of the WHOLE arrays; the ten tiles cover every row (row `p` lies in
  tile `p / 5000`), so the output array ends holding the dense stage of the arrays the stage found.
-/
import proofs.«118433_j81398220194150_1_alg».proof.Proof.Gen.KernelIdeal.Frame
import proofs.«118433_j81398220194150_1_alg».proof.Proof.LibDense3
import proofs.«118433_j81398220194150_1_alg».proof.Proof.LibVectorStages
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LayerLaws Cert.Gcn Cert.Dense

/-! ## The value one tile computes -/

/-- The record of the tile's three products contracts the inner axis. -/
theorem inner_dot2 : Inner dot_S5000x128_S128x128_S5000x128_1_0_0_1_n_n where
  rank := rfl
  size := rfl
  l0 := fun i q => by simp [DotDims.lhsIdx, dot_S5000x128_S128x128_S5000x128_1_0_0_1_n_n]; rfl
  l1 := fun i q => by simp [DotDims.lhsIdx, dot_S5000x128_S128x128_S5000x128_1_0_0_1_n_n]; rfl
  r0 := fun i q => by simp [DotDims.rhsIdx, dot_S5000x128_S128x128_S5000x128_1_0_0_1_n_n]; rfl
  r1 := fun i q => by simp [DotDims.rhsIdx, dot_S5000x128_S128x128_S5000x128_1_0_0_1_n_n]; rfl

/-- The value a tile stores is the dense stage of the blocks it loads: on the extended reals a change of format
    and a cast to the same shape are the identity, each product into zeros is the matrix product, and the bias row
    and the clamp are `biasRelu`. -/
theorem pay2_eq (x0 x1 x2 : Vec Ideal S5000x128 .f32) (x3 x4 x5 : Vec Ideal S128x128 .f32) (x6 : Vec Ideal S1x128 .f32) :
    (k2_pay1 x0 x1 x2 x3 x4 x5 x6 : S5000x128.Idx → EReal) = dense3 x0 x1 x2 x3 x4 x5 x6 := by
  unfold k2_pay1
  simp only [shapeCast_self]
  have m0 := matmul_zero_eq_mm inner_dot2 (φ₁ := .bf16) (φ₂ := .bf16) (truncf FTy.bf16 x0 bitsLt_bf16_f32) (truncf FTy.bf16 x3 bitsLt_bf16_f32)
  have m1 := matmul_zero_eq_mm inner_dot2 (φ₁ := .bf16) (φ₂ := .bf16) (truncf FTy.bf16 x1 bitsLt_bf16_f32) (truncf FTy.bf16 x4 bitsLt_bf16_f32)
  have m2 := matmul_zero_eq_mm inner_dot2 (φ₁ := .bf16) (φ₂ := .bf16) (truncf FTy.bf16 x2 bitsLt_bf16_f32) (truncf FTy.bf16 x5 bitsLt_bf16_f32)
  refine Eq.trans (congrArg (fun z => maximumf (F := Ideal) (φ := .f32) (addf z (broadcastTo S5000x128 x6 broadcasts_S1x128_S5000x128))
      (broadcast S5000x128 (Ideal.ofBits .f32 0x00000000#32)))
    (congrArg₂ (fun u v => addf (F := Ideal) (φ := .f32) u v) (congrArg₂ (fun u v => addf (F := Ideal) (φ := .f32) u v) m0 m1) m2)) ?_
  exact vector_biasRelu (sum3 x0 x1 x2 x3 x4 x5) x6 broadcasts_S1x128_S5000x128

theorem hz2 : (![0, 0] : Fin 2 → Nat) = fun _ => 0 := funext fun a => by fin_cases a <;> rfl

/-- What a tile leaves in the output's staging buffer: one store through the whole buffer of the value computed
    from whole loads, so the dense stage of the staged blocks. -/
theorem out2_eq (x0 x1 x2 : Vec Ideal S5000x128 .f32) (x3 x4 x5 : Vec Ideal S128x128 .f32) (x6 : Vec Ideal S1x128 .f32) :
    (out2_7 x0 x1 x2 x3 x4 x5 x6 : S5000x128.Idx → EReal) = dense3 x0 x1 x2 x3 x4 x5 x6 := by
  unfold out2_7
  rw [View.canon_unit_zero hz2]
  simp only [View.ld_unit_zero (S := S5000x128) hz2, View.ld_unit_zero (S := S128x128) hz2, View.ld_unit_zero (S := S1x128) hz2]
  exact pay2_eq x0 x1 x2 x3 x4 x5 x6

/-! ## Where the blocks sit -/

/-- The index maps over the ten tiles: the row-blocked windows sit at block `t` of the rows, the others at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section Blocks
variable (V : (c : Dev nD) → (b : Ref sig .tc) → Buf (Elt Ideal) ((c : Thread nD τ).loc b)) (c : Dev nD)

/-- Row `r` of the first feature window's block at tile `t` is row `5000 t + r` of its array. -/
theorem blk2_0 (t : Fin cfg2.N) (r : Fin 5000) (j : Fin 128) (h : 5000 * t.val + r.val < 50000) :
    (iblk2 V c 0 t : S5000x128.Idx → EReal) (ix2 r j)
      = (V c main_v113 : S50000x128.Idx → EReal) (ix2 (⟨5000 * t.val + r.val, h⟩ : Fin 50000) j) := by
  obtain ⟨e0, e1, -⟩ := idx_facts2 t
  show (V c main_v113 : S50000x128.Idx → EReal) (((cfg2.win 0).blk t).view.emb (ix2 r j)) = _
  refine congrArg (V c main_v113 : S50000x128.Idx → EReal) ?_
  funext a; apply Fin.ext
  match a with
  | ⟨0, _⟩ => show win2_0.index t (0 : Fin 2) * 5000 + 1 * r.val = 5000 * t.val + r.val; omega
  | ⟨1, _⟩ => show win2_0.index t (1 : Fin 2) * 128 + 1 * j.val = j.val; omega

/-- The same for the second feature window. -/
theorem blk2_1 (t : Fin cfg2.N) (r : Fin 5000) (j : Fin 128) (h : 5000 * t.val + r.val < 50000) :
    (iblk2 V c 1 t : S5000x128.Idx → EReal) (ix2 r j)
      = (V c main_v136 : S50000x128.Idx → EReal) (ix2 (⟨5000 * t.val + r.val, h⟩ : Fin 50000) j) := by
  obtain ⟨-, -, e0, e1, -⟩ := idx_facts2 t
  show (V c main_v136 : S50000x128.Idx → EReal) (((cfg2.win 1).blk t).view.emb (ix2 r j)) = _
  refine congrArg (V c main_v136 : S50000x128.Idx → EReal) ?_
  funext a; apply Fin.ext
  match a with
  | ⟨0, _⟩ => show win2_1.index t (0 : Fin 2) * 5000 + 1 * r.val = 5000 * t.val + r.val; omega
  | ⟨1, _⟩ => show win2_1.index t (1 : Fin 2) * 128 + 1 * j.val = j.val; omega

/-- The same for the third feature window. -/
theorem blk2_2 (t : Fin cfg2.N) (r : Fin 5000) (j : Fin 128) (h : 5000 * t.val + r.val < 50000) :
    (iblk2 V c 2 t : S5000x128.Idx → EReal) (ix2 r j)
      = (V c main_v156 : S50000x128.Idx → EReal) (ix2 (⟨5000 * t.val + r.val, h⟩ : Fin 50000) j) := by
  obtain ⟨-, -, -, -, e0, e1, -⟩ := idx_facts2 t
  show (V c main_v156 : S50000x128.Idx → EReal) (((cfg2.win 2).blk t).view.emb (ix2 r j)) = _
  refine congrArg (V c main_v156 : S50000x128.Idx → EReal) ?_
  funext a; apply Fin.ext
  match a with
  | ⟨0, _⟩ => show win2_2.index t (0 : Fin 2) * 5000 + 1 * r.val = 5000 * t.val + r.val; omega
  | ⟨1, _⟩ => show win2_2.index t (1 : Fin 2) * 128 + 1 * j.val = j.val; omega

/-- The first weight window's block is its whole array. -/
theorem blk2_3 (t : Fin cfg2.N) : (iblk2 V c 3 t : S128x128.Idx → EReal) = (V c main_v157 : S128x128.Idx → EReal) := by
  obtain ⟨-, -, -, -, -, -, e0, e1, -⟩ := idx_facts2 t
  funext i
  show (V c main_v157 : S128x128.Idx → EReal) (((cfg2.win 3).blk t).view.emb i) = _
  refine congrArg (V c main_v157 : S128x128.Idx → EReal) ?_
  funext a; apply Fin.ext
  match a with
  | ⟨0, _⟩ => show win2_3.index t (0 : Fin 2) * 128 + 1 * (i 0).val = (i 0).val; omega
  | ⟨1, _⟩ => show win2_3.index t (1 : Fin 2) * 128 + 1 * (i 1).val = (i 1).val; omega

/-- The second weight window's block is its whole array. -/
theorem blk2_4 (t : Fin cfg2.N) : (iblk2 V c 4 t : S128x128.Idx → EReal) = (V c main_v158 : S128x128.Idx → EReal) := by
  obtain ⟨-, -, -, -, -, -, -, -, e0, e1, -⟩ := idx_facts2 t
  funext i
  show (V c main_v158 : S128x128.Idx → EReal) (((cfg2.win 4).blk t).view.emb i) = _
  refine congrArg (V c main_v158 : S128x128.Idx → EReal) ?_
  funext a; apply Fin.ext
  match a with
  | ⟨0, _⟩ => show win2_4.index t (0 : Fin 2) * 128 + 1 * (i 0).val = (i 0).val; omega
  | ⟨1, _⟩ => show win2_4.index t (1 : Fin 2) * 128 + 1 * (i 1).val = (i 1).val; omega

/-- The third weight window's block is its whole array. -/
theorem blk2_5 (t : Fin cfg2.N) : (iblk2 V c 5 t : S128x128.Idx → EReal) = (V c main_v159 : S128x128.Idx → EReal) := by
  obtain ⟨-, -, -, -, -, -, -, -, -, -, e0, e1, -⟩ := idx_facts2 t
  funext i
  show (V c main_v159 : S128x128.Idx → EReal) (((cfg2.win 5).blk t).view.emb i) = _
  refine congrArg (V c main_v159 : S128x128.Idx → EReal) ?_
  funext a; apply Fin.ext
  match a with
  | ⟨0, _⟩ => show win2_5.index t (0 : Fin 2) * 128 + 1 * (i 0).val = (i 0).val; omega
  | ⟨1, _⟩ => show win2_5.index t (1 : Fin 2) * 128 + 1 * (i 1).val = (i 1).val; omega

/-- The bias window's block is its whole row. -/
theorem blk2_6 (t : Fin cfg2.N) : (iblk2 V c 6 t : S1x128.Idx → EReal) = (V c main_v160 : S1x128.Idx → EReal) := by
  obtain ⟨-, -, -, -, -, -, -, -, -, -, -, -, e0, e1, -⟩ := idx_facts2 t
  funext i
  show (V c main_v160 : S1x128.Idx → EReal) (((cfg2.win 6).blk t).view.emb i) = _
  refine congrArg (V c main_v160 : S1x128.Idx → EReal) ?_
  funext a; apply Fin.ext
  match a with
  | ⟨0, _⟩ => show win2_6.index t (0 : Fin 2) * 1 + 1 * (i 0).val = (i 0).val; omega
  | ⟨1, _⟩ => show win2_6.index t (1 : Fin 2) * 128 + 1 * (i 1).val = (i 1).val; omega

/-! ## From the tiles to the array -/

/-- The dense stage of the arrays the stage finds: what the output array ends holding. -/
abbrev G2 : S50000x128.Idx → EReal :=
  dense3 (V c main_v113 : S50000x128.Idx → EReal) (V c main_v136 : S50000x128.Idx → EReal) (V c main_v156 : S50000x128.Idx → EReal)
    (V c main_v157 : S128x128.Idx → EReal) (V c main_v158 : S128x128.Idx → EReal) (V c main_v159 : S128x128.Idx → EReal)
    (V c main_v160 : S1x128.Idx → EReal)

/-- What tile `t` writes back is block `t` of the dense stage of the whole arrays: the stage reads row `p` of the
    features only, and row `r` of each staged block is row `5000 t + r` of its array. -/
theorem flushed2_eq (t : Fin cfg2.N) :
    (dat2 V c).flushed 7 t = ((cfg2.win 7).blk t).view.read (Elt Ideal) (G2 V c) := by
  show (cfg2.win 7).cut (grid2.coords t) ((dat2 V c).after 7 t) = _
  rw [after2_7, out2_eq, blk2_3, blk2_4, blk2_5, blk2_6]
  have hN : grid2.N = 10 := N_2
  have ht : t.val < 10 := hN ▸ t.isLt
  obtain ⟨-, -, -, -, -, -, -, -, -, -, -, -, -, -, e0, e1⟩ := idx_facts2 t
  funext y
  obtain ⟨r, q, rfl⟩ : ∃ (r : Fin 5000) (q : Fin 128), y = ix2 r q := ⟨y 0, y 1, eq_ix2 y⟩
  have hr : 5000 * t.val + r.val < 50000 := by have := r.isLt; omega
  have hemb : ((cfg2.win 7).blk t).view.emb (ix2 r q) = ix2 (⟨5000 * t.val + r.val, hr⟩ : Fin 50000) q := by
    funext a; apply Fin.ext
    match a with
    | ⟨0, _⟩ => show win2_7.index t (0 : Fin 2) * 5000 + 1 * r.val = 5000 * t.val + r.val; omega
    | ⟨1, _⟩ => show win2_7.index t (1 : Fin 2) * 128 + 1 * q.val = q.val; omega
  show dense3 (iblk2 V c 0 t : S5000x128.Idx → EReal) (iblk2 V c 1 t : S5000x128.Idx → EReal) (iblk2 V c 2 t : S5000x128.Idx → EReal)
      (V c main_v157 : S128x128.Idx → EReal) (V c main_v158 : S128x128.Idx → EReal) (V c main_v159 : S128x128.Idx → EReal)
      (V c main_v160 : S1x128.Idx → EReal) (ix2 r q)
    = G2 V c (((cfg2.win 7).blk t).view.emb (ix2 r q))
  rw [hemb]
  exact dense3_rows (fun r : Fin 5000 => (⟨5000 * t.val + r.val, by have := r.isLt; omega⟩ : Fin 50000)) _ _ _ _ _ _ _ _ _ _
    (fun r j => blk2_0 V c t r j _) (fun r j => blk2_1 V c t r j _) (fun r j => blk2_2 V c t r j _) r q

/-- An index of the output array is in tile `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v161).slice (win2_7.rect t)).set ↔ _
  rw [View.set_slice_whole, Rect.mem_set_unit]
  exact Iff.rfl

/-- Every row of the output array is in some tile's block: row `p` in that of tile `p / 5000`. -/
theorem cover2 (i : S50000x128.Idx) :
    ∃ t : Fin cfg2.N, (cfg2.win 7).flush t = true ∧ i ∈ ((cfg2.win 7).blk t).view.set := by
  have hN : grid2.N = 10 := N_2
  have hi0 : (i 0).val < 50000 := (i 0).isLt
  have hi1 : (i 1).val < 128 := (i 1).isLt
  have hlt : (i 0).val / 5000 < grid2.N := by rw [hN]; omega
  obtain ⟨-, -, -, -, -, -, -, -, -, -, -, -, -, -, e0, e1⟩ := idx_facts2 ⟨(i 0).val / 5000, hlt⟩
  refine ⟨⟨(i 0).val / 5000, hlt⟩, flush2_7 _, ?_⟩
  rw [mem_blk2]
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_7.index ⟨(i 0).val / 5000, hlt⟩ (1 : Fin 2) * 128 ≤ (i 1).val
      ∧ (i 1).val < win2_7.index ⟨(i 0).val / 5000, hlt⟩ (1 : Fin 2) * 128 + 128
    rw [e1]
    omega

/-- The output array after the stage's last write-back is the dense stage of the arrays the stage found. -/
theorem arr2 : (Gen.dat2 (F := Ideal) V c).arrAt 7 cfg2.N
    = Cert.Dense.dense3 (V c main_v113 : S50000x128.Idx → EReal) (V c main_v136 : S50000x128.Idx → EReal)
        (V c main_v156 : S50000x128.Idx → EReal) (V c main_v157 : S128x128.Idx → EReal) (V c main_v158 : S128x128.Idx → EReal)
        (V c main_v159 : S128x128.Idx → EReal) (V c main_v160 : S1x128.Idx → EReal) :=
  (dat2 V c).arrAt_eq_of_cover 7 (G2 V c) (fun t _ => flushed2_eq V c t) (cover2)

end Blocks

end Cert.KernelIdeal.RegionValue

end
-- ==== Proof.Net.lean ====
/-
  The whole network as one function of the nine arguments, at the extended reals.

  With the edge lists completed by self loops and the degree column computed once, a layer sends node features `x` to
  the dense stage of its three Chebyshev terms against the layer's weight (cut into its three 128-row blocks) and bias
  (as a row); the network is the input features, three layers with a leaky rectifier between them, and the output
  layer.  Both programs of this certificate compute this function; the stage functions are those of the host lines and
  are not opened here.
-/
import proofs.«118433_j81398220194150_1_alg».proof.Proof.Stages
import proofs.«118433_j81398220194150_1_alg».proof.Proof.LibDense3

noncomputable section

namespace Cert.Net

open Idealize.ShloMosaic Cert.KernelIdeal Cert.Stages Cert.Dense

variable [Cert.KernelIdeal.Facts]

/-- One layer: the dense stage of the three Chebyshev terms of `x`. -/
def layer (x : T Ideal S50000x128 .f32) (i1 i2 : T Ideal S650000 .i32) (d : T Ideal S50000x1 .f32)
    (w : T Ideal S384x128 .f32) (b : T Ideal S128 .f32) : T Ideal S50000x128 .f32 :=
  dense3 (n := 50000) x (cheb1 x i1 i2 d) (cheb2 x (cheb1 x i1 i2 d) i1 i2 d) (wBlk0 w) (wBlk1 w) (wBlk2 w) (bRow b)

/-- The network. -/
def net (a0 : T Ideal S50000 .f32) (a1 a2 : T Ideal S600000 .i32) (a3 : T Ideal S1x128 .f32) (a4 : T Ideal S128 .f32)
    (a5 : T Ideal S3x384x128 .f32) (a6 : T Ideal S3x128 .f32) (a7 : T Ideal S128x1 .f32) (a8 : T Ideal S1 .f32) :
    T Ideal S50000x1 .f32 :=
  outLayer
    (layer
      (leaky (layer
        (leaky (layer (feat a0 a3 a4) (withLoops a1) (withLoops a2) (invSqrtDeg (degree (withLoops a2))) (wSel0 a5) (bSel0 a6)))
        (withLoops a1) (withLoops a2) (invSqrtDeg (degree (withLoops a2))) (wSel1 a5) (bSel1 a6)))
      (withLoops a1) (withLoops a2) (invSqrtDeg (degree (withLoops a2))) (wSel2 a5) (bSel2 a6))
    a7 a8

end Cert.Net

end
-- ==== Proof.KValue.lean ====
/-
  The kernel program's result as the network function of the arguments.

  The fold of @main's segments over the launch contents is followed boundary by boundary.  Before the first
  pallas_call the host lines leave the three Chebyshev terms of the input features, layer 0's weight blocks and bias
  row in the buffers that call stages; the call leaves the dense stage of those in its output and moves nothing else;
  the next host lines apply the leaky rectifier and form layer 1's terms from it with the same edge lists and degree
  column; and so on through the third call, after which the output layer's lines give the result.  At every boundary
  the buffers that matter hold stage functions of the arguments as launched, so the result is the network function.
-/
import proofs.«118433_j81398220194150_1_alg».proof.Proof.Gen.KernelIdeal.Frame
import proofs.«118433_j81398220194150_1_alg».proof.Proof.KRead0
import proofs.«118433_j81398220194150_1_alg».proof.Proof.KRead1
import proofs.«118433_j81398220194150_1_alg».proof.Proof.KRead2
import proofs.«118433_j81398220194150_1_alg».proof.Proof.Region0
import proofs.«118433_j81398220194150_1_alg».proof.Proof.Region1
import proofs.«118433_j81398220194150_1_alg».proof.Proof.Region2
import proofs.«118433_j81398220194150_1_alg».proof.Proof.Net

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen Cert.KernelIdeal.KRead Cert.KernelIdeal.RegionValue Cert.Stages Cert.Net Cert.Dense

variable (m : (ℓ : Loc nD τ sig) → Buf (Elt Ideal) ℓ) (ρ : Dev nD → PrngReg) (c : Dev nD)

/-! ## The arguments as launched, and the stages they determine -/

/-- The launch contents of core `c`. -/
abbrev L : Valuation τ sig (Elt Ideal) := W0 m ρ c

/-- The edge sources with the self loops. -/
abbrev I1 : T Ideal S650000 .i32 := withLoops (L m ρ c (Proc.devRef .tc main_arg1))
/-- The edge destinations with the self loops. -/
abbrev I2 : T Ideal S650000 .i32 := withLoops (L m ρ c (Proc.devRef .tc main_arg2))
/-- The inverse square-root degree column. -/
abbrev Dg : T Ideal S50000x1 .f32 := invSqrtDeg (degree (I2 m ρ c))
/-- Layer 0's output. -/
abbrev H1 : T Ideal S50000x128 .f32 :=
  layer (feat (L m ρ c (Proc.devRef .tc main_arg0)) (L m ρ c (Proc.devRef .tc main_arg3)) (L m ρ c (Proc.devRef .tc main_arg4))) (I1 m ρ c) (I2 m ρ c) (Dg m ρ c)
    (wSel0 (L m ρ c (Proc.devRef .tc main_arg5))) (bSel0 (L m ρ c (Proc.devRef .tc main_arg6)))
/-- Layer 1's output. -/
abbrev H2 : T Ideal S50000x128 .f32 :=
  layer (leaky (H1 m ρ c)) (I1 m ρ c) (I2 m ρ c) (Dg m ρ c) (wSel1 (L m ρ c (Proc.devRef .tc main_arg5))) (bSel1 (L m ρ c (Proc.devRef .tc main_arg6)))
/-- Layer 2's output. -/
abbrev H3 : T Ideal S50000x128 .f32 :=
  layer (leaky (H2 m ρ c)) (I1 m ρ c) (I2 m ρ c) (Dg m ρ c) (wSel2 (L m ρ c (Proc.devRef .tc main_arg5))) (bSel2 (L m ρ c (Proc.devRef .tc main_arg6)))

/-! ## After the first pallas_call -/

theorem e3 (b : Ref sig .tc) : V3 m ρ c b = entry0 (L m ρ c) (Proc.devRef .tc b) := rfl

theorem s4_out : W4 m ρ c (Proc.devRef .tc main_v63) = H1 m ρ c := by
  refine (W4_arr m ρ c 7).trans ((arr0 (V3 m ρ) c).trans ?_)
  rw [e3, e3, e3, e3, e3, e3, e3, entry0_v15, entry0_v38, entry0_v58, entry0_w0, entry0_w1, entry0_w2, entry0_b]
  rfl

theorem s4_i1 : W4 m ρ c (Proc.devRef .tc main_v1) = I1 m ρ c := (W4_of_ne m ρ c main_v1 (by decide)).trans (entry0_v1 _)
theorem s4_i2 : W4 m ρ c (Proc.devRef .tc main_v2) = I2 m ρ c := (W4_of_ne m ρ c main_v2 (by decide)).trans (entry0_v2 _)
theorem s4_d : W4 m ρ c (Proc.devRef .tc main_v10) = Dg m ρ c := (W4_of_ne m ρ c main_v10 (by decide)).trans (entry0_v10 _)
theorem s4_a5 : W4 m ρ c (Proc.devRef .tc main_arg5) = L m ρ c (Proc.devRef .tc main_arg5) := (W4_of_ne m ρ c main_arg5 (by decide)).trans (entry0_keep_arg5 _)
theorem s4_a6 : W4 m ρ c (Proc.devRef .tc main_arg6) = L m ρ c (Proc.devRef .tc main_arg6) := (W4_of_ne m ρ c main_arg6 (by decide)).trans (entry0_keep_arg6 _)
theorem s4_a7 : W4 m ρ c (Proc.devRef .tc main_arg7) = L m ρ c (Proc.devRef .tc main_arg7) := (W4_of_ne m ρ c main_arg7 (by decide)).trans (entry0_keep_arg7 _)
theorem s4_a8 : W4 m ρ c (Proc.devRef .tc main_arg8) = L m ρ c (Proc.devRef .tc main_arg8) := (W4_of_ne m ρ c main_arg8 (by decide)).trans (entry0_keep_arg8 _)

/-! ## After the second pallas_call -/

theorem e7 (b : Ref sig .tc) : V7 m ρ c b = entry1 (W4 m ρ c) (Proc.devRef .tc b) := rfl

theorem s8_out : W8 m ρ c (Proc.devRef .tc main_v112) = H2 m ρ c := by
  refine (W8_arr m ρ c 7).trans ((arr1 (V7 m ρ) c).trans ?_)
  rw [e7, e7, e7, e7, e7, e7, e7, entry1_x, entry1_x1, entry1_x2, entry1_w0, entry1_w1, entry1_w2, entry1_b,
    s4_out, s4_i1, s4_i2, s4_d, s4_a5, s4_a6]
  rfl

theorem s8_i1 : W8 m ρ c (Proc.devRef .tc main_v1) = I1 m ρ c :=
  (W8_of_ne m ρ c main_v1 (by decide)).trans ((entry1_keep_v1 _).trans (s4_i1 m ρ c))
theorem s8_i2 : W8 m ρ c (Proc.devRef .tc main_v2) = I2 m ρ c :=
  (W8_of_ne m ρ c main_v2 (by decide)).trans ((entry1_keep_v2 _).trans (s4_i2 m ρ c))
theorem s8_d : W8 m ρ c (Proc.devRef .tc main_v10) = Dg m ρ c :=
  (W8_of_ne m ρ c main_v10 (by decide)).trans ((entry1_keep_v10 _).trans (s4_d m ρ c))
theorem s8_a5 : W8 m ρ c (Proc.devRef .tc main_arg5) = L m ρ c (Proc.devRef .tc main_arg5) :=
  (W8_of_ne m ρ c main_arg5 (by decide)).trans ((entry1_keep_arg5 _).trans (s4_a5 m ρ c))
theorem s8_a6 : W8 m ρ c (Proc.devRef .tc main_arg6) = L m ρ c (Proc.devRef .tc main_arg6) :=
  (W8_of_ne m ρ c main_arg6 (by decide)).trans ((entry1_keep_arg6 _).trans (s4_a6 m ρ c))
theorem s8_a7 : W8 m ρ c (Proc.devRef .tc main_arg7) = L m ρ c (Proc.devRef .tc main_arg7) :=
  (W8_of_ne m ρ c main_arg7 (by decide)).trans ((entry1_keep_arg7 _).trans (s4_a7 m ρ c))
theorem s8_a8 : W8 m ρ c (Proc.devRef .tc main_arg8) = L m ρ c (Proc.devRef .tc main_arg8) :=
  (W8_of_ne m ρ c main_arg8 (by decide)).trans ((entry1_keep_arg8 _).trans (s4_a8 m ρ c))

/-! ## After the third pallas_call -/

theorem e11 (b : Ref sig .tc) : V11 m ρ c b = entry2 (W8 m ρ c) (Proc.devRef .tc b) := rfl

theorem s12_out : W12 m ρ c (Proc.devRef .tc main_v161) = H3 m ρ c := by
  refine (W12_arr m ρ c 7).trans ((arr2 (V11 m ρ) c).trans ?_)
  rw [e11, e11, e11, e11, e11, e11, e11, entry2_x, entry2_x1, entry2_x2, entry2_w0, entry2_w1, entry2_w2, entry2_b,
    s8_out, s8_i1, s8_i2, s8_d, s8_a5, s8_a6]
  rfl

theorem s12_a7 : W12 m ρ c (Proc.devRef .tc main_arg7) = L m ρ c (Proc.devRef .tc main_arg7) :=
  (W12_of_ne m ρ c main_arg7 (by decide)).trans ((entry2_keep_arg7 _).trans (s8_a7 m ρ c))
theorem s12_a8 : W12 m ρ c (Proc.devRef .tc main_arg8) = L m ρ c (Proc.devRef .tc main_arg8) :=
  (W12_of_ne m ρ c main_arg8 (by decide)).trans ((entry2_keep_arg8 _).trans (s8_a8 m ρ c))

/-! ## The result -/

/-- The fold's contents at the result buffer are the network function of the arguments as launched. -/
theorem result_eq : W13 m ρ c (Proc.devRef .tc main_v165)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (tail_v165 (W12 m ρ c)).trans ?_
  rw [s12_out, s12_a7, s12_a8]
  rfl

end Cert.KernelIdeal.KValue

end
-- ==== Proof.KSide.lean ====
/-
  The kernel program's run, with its result named as the network function of the arguments.

  Every weakly fair execution terminates with each unscoped buffer at the segments' fold of the launch contents; at
  the result buffer that fold is the network function of the arguments as launched, and at each argument it is the
  argument as launched.
-/
import proofs.«118433_j81398220194150_1_alg».proof.Proof.KRun
import proofs.«118433_j81398220194150_1_alg».proof.Proof.KValue

set_option maxRecDepth 16384

noncomputable section

namespace Cert.KernelIdeal.KSide

open Idealize.ShloMosaic Idealize.ShloMosaic.TcCoe Idealize.SL.Sem Cert.KernelIdeal Cert.KernelIdeal.Gen Cert.Net

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v165) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c main_v165 (by decide)).trans (Cert.KernelIdeal.KValue.result_eq m ρ c),
     (h c main_arg0 (by decide)).trans (W13_main_arg0 m ρ c),
     (h c main_arg1 (by decide)).trans (W13_main_arg1 m ρ c),
     (h c main_arg2 (by decide)).trans (W13_main_arg2 m ρ c),
     (h c main_arg3 (by decide)).trans (W13_main_arg3 m ρ c),
     (h c main_arg4 (by decide)).trans (W13_main_arg4 m ρ c),
     (h c main_arg5 (by decide)).trans (W13_main_arg5 m ρ c),
     (h c main_arg6 (by decide)).trans (W13_main_arg6 m ρ c),
     (h c main_arg7 (by decide)).trans (W13_main_arg7 m ρ c),
     (h c main_arg8 (by decide)).trans (W13_main_arg8 m ρ c)⟩)
    (Cert.KernelIdeal.KRun.run_all m ρ)

end Cert.KernelIdeal.KSide

end
-- ==== Proof.RefOps.lean ====
/-
  The reference program's @main as a straight line of host operations, cut into thirteen consecutive chunks, and
  its run: every weakly fair execution terminates, and each buffer ends at the fold of the operations' results,
  in order, over the launch contents. A called function's operations stand at its call, over that call's buffers.
-/
import proofs.«118433_j81398220194150_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The ten operations before the first clamp: the node index list, both edge lists extended by the self-loops, the degree as a scatter-add of ones. -/
abbrev opsA0 : List (HloOp τ sig (Elt F)) :=
  [ StableHlo.nullary main_v0 (iotaInDim S50000 32 0),
    StableHlo.binary main_arg1 main_v0 main_v1 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.binary main_arg2 main_v0 main_v2 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst (constant S_ .f32 0x3F800000#32),
    StableHlo.unary main_cst main_v3 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v4 (broadcastInDim S50000 ![] bcast_S_S50000 : (⟨S_, .f32⟩ : BufTy).Contents (Elt F) → (⟨S50000, .f32⟩ : BufTy).Contents (Elt F)),
    StableHlo.unary main_v2 main_v5 (broadcastInDim S650000x1 ![0] bcast_S650000_S650000x1_0 : (⟨S650000, .i32⟩ : BufTy).Contents (Elt F) → (⟨S650000x1, .i32⟩ : BufTy).Contents (Elt F)),
    StableHlo.ternary main_v4 main_v5 main_v3 main_v6 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x3F800000#32) ]

/-- The clamp of the degree from below by one: the bound converted, broadcast, the maximum. -/
abbrev opsA0c : List (HloOp τ sig (Elt F)) :=
  [ StableHlo.TRef.unary (.of main_cst_1) main_call0.v0 id,
    StableHlo.TRef.unary main_call0.v0 main_call0.v1 (broadcastInDim S50000 ![] bcast_S_S50000),
    StableHlo.TRef.binary main_call0.v1 (.of main_v6) main_call0.v2 maximumf ]

/-- From the inverse square root of the clamped degree to the third Chebyshev term of layer one: the input lift, the first layer's weight and bias slices, two normalized propagations (gather, scatter-add, scaling) and the recurrence. -/
abbrev opsA0b : List (HloOp τ sig (Elt F)) :=
  [ StableHlo.nullary main_cst_2 (constant S_ .f32 0xBF000000#32),
    StableHlo.unary main_cst_2 main_v8 (broadcastInDim S50000 ![] bcast_S_S50000 : (⟨S_, .f32⟩ : BufTy).Contents (Elt F) → (⟨S50000, .f32⟩ : BufTy).Contents (Elt F)),
    StableHlo.binary main_v7 main_v8 main_v9 (Host.powf : (⟨S50000, .f32⟩ : BufTy).Contents (Elt F) → (⟨S50000, .f32⟩ : BufTy).Contents (Elt F) → (⟨S50000, .f32⟩ : BufTy).Contents (Elt F)),
    StableHlo.unary main_v9 main_v10 (broadcastInDim S50000x1 ![0] bcast_S50000_S50000x1_0 : (⟨S50000, .f32⟩ : BufTy).Contents (Elt F) → (⟨S50000x1, .f32⟩ : BufTy).Contents (Elt F)),
    StableHlo.unary main_arg0 main_v11 (broadcastInDim S50000x1 ![0] bcast_S50000_S50000x1_0 : (⟨S50000, .f32⟩ : BufTy).Contents (Elt F) → (⟨S50000x1, .f32⟩ : BufTy).Contents (Elt F)),
    StableHlo.binary main_v11 main_arg3 main_v12 ((fun l r => Host.dotGeneral dot_S50000x1_S1x128_S50000x128_1_0_0_1_n_n none l r) : (⟨S50000x1, .f32⟩ : BufTy).Contents (Elt F) → (⟨S1x128, .f32⟩ : BufTy).Contents (Elt F) → (⟨S50000x128, .f32⟩ : BufTy).Contents (Elt F)),
    StableHlo.unary main_arg4 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (addf : (⟨S50000x128, .f32⟩ : BufTy).Contents (Elt F) → (⟨S50000x128, .f32⟩ : BufTy).Contents (Elt F) → (⟨S50000x128, .f32⟩ : BufTy).Contents (Elt F)),
    StableHlo.unary main_arg5 main_v16 ((extractStridedSlice S1x384x128 ![0, 0, 0] · slices_S3x384x128_S1x384x128_0_0_0) : (⟨S3x384x128, .f32⟩ : BufTy).Contents (Elt F) → (⟨S1x384x128, .f32⟩ : BufTy).Contents (Elt F)),
    StableHlo.reshape main_v16 main_v17 rfl shapeCasts_S1x384x128_S384x128,
    StableHlo.unary main_arg6 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v10 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v15 main_v20 main_v21 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v22 (broadcastInDim S650000 ![] bcast_S_S650000 : (⟨S_, .i32⟩ : BufTy).Contents (Elt F) → (⟨S650000, .i32⟩ : BufTy).Contents (Elt F)),
    StableHlo.binary main_v1 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v24 (broadcastInDim S650000 ![] bcast_S_S650000 : (⟨S_, .i32⟩ : BufTy).Contents (Elt F) → (⟨S650000, .i32⟩ : BufTy).Contents (Elt F)),
    StableHlo.binary main_v1 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v1 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v21 main_v27 main_v28 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.nullary main_cst_4 (constant S_ .f32 0x00000000#32),
    StableHlo.unary main_cst_4 main_v29 (broadcastInDim S50000x128 ![] bcast_S_S50000x128 : (⟨S_, .f32⟩ : BufTy).Contents (Elt F) → (⟨S50000x128, .f32⟩ : BufTy).Contents (Elt F)),
    StableHlo.unary main_v2 main_v30 (broadcastInDim S650000x1 ![0] bcast_S650000_S650000x1_0 : (⟨S650000, .i32⟩ : BufTy).Contents (Elt F) → (⟨S650000x1, .i32⟩ : BufTy).Contents (Elt F)),
    StableHlo.ternary main_v29 main_v30 main_v28 main_v31 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v10 main_v32 (broadcastInDim S50000x128 ![0, 1] bcast_S50000x1_S50000x128_0_1 : (⟨S50000x1, .f32⟩ : BufTy).Contents (Elt F) → (⟨S50000x128, .f32⟩ : BufTy).Contents (Elt F)),
    StableHlo.binary main_v31 main_v32 main_v33 (mulf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0xBF800000#32),
    StableHlo.unary main_cst_5 main_v34 (broadcastInDim S50000x128 ![] bcast_S_S50000x128 : (⟨S_, .f32⟩ : BufTy).Contents (Elt F) → (⟨S50000x128, .f32⟩ : BufTy).Contents (Elt F)),
    StableHlo.binary main_v34 main_v33 main_v35 (mulf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.unary main_cst_6 main_v36 (broadcastInDim S50000x128 ![] bcast_S_S50000x128 : (⟨S_, .f32⟩ : BufTy).Contents (Elt F) → (⟨S50000x128, .f32⟩ : BufTy).Contents (Elt F)),
    StableHlo.binary main_v15 main_v36 main_v37 (mulf : (⟨S50000x128, .f32⟩ : BufTy).Contents (Elt F) → (⟨S50000x128, .f32⟩ : BufTy).Contents (Elt F) → (⟨S50000x128, .f32⟩ : BufTy).Contents (Elt F)),
    StableHlo.binary main_v35 main_v37 main_v38 (addf : (⟨S50000x128, .f32⟩ : BufTy).Contents (Elt F) → (⟨S50000x128, .f32⟩ : BufTy).Contents (Elt F) → (⟨S50000x128, .f32⟩ : BufTy).Contents (Elt F)),
    StableHlo.unary main_v10 main_v39 (broadcastInDim S50000x128 ![0, 1] bcast_S50000x1_S50000x128_0_1 : (⟨S50000x1, .f32⟩ : BufTy).Contents (Elt F) → (⟨S50000x128, .f32⟩ : BufTy).Contents (Elt F)),
    StableHlo.binary main_v38 main_v39 main_v40 (mulf : (⟨S50000x128, .f32⟩ : BufTy).Contents (Elt F) → (⟨S50000x128, .f32⟩ : BufTy).Contents (Elt F) → (⟨S50000x128, .f32⟩ : BufTy).Contents (Elt F)),
    StableHlo.nullary main_c_7 (constantI S_ 32 0#32),
    StableHlo.unary main_c_7 main_v41 (broadcastInDim S650000 ![] bcast_S_S650000 : (⟨S_, .i32⟩ : BufTy).Contents (Elt F) → (⟨S650000, .i32⟩ : BufTy).Contents (Elt F)),
    StableHlo.binary main_v1 main_v41 main_v42 (cmpi .slt : (⟨S650000, .i32⟩ : BufTy).Contents (Elt F) → (⟨S650000, .i32⟩ : BufTy).Contents (Elt F) → (⟨S650000, .i1⟩ : BufTy).Contents (Elt F)),
    StableHlo.nullary main_c_8 (constantI S_ 32 50000#32),
    StableHlo.unary main_c_8 main_v43 (broadcastInDim S650000 ![] bcast_S_S650000 : (⟨S_, .i32⟩ : BufTy).Contents (Elt F) → (⟨S650000, .i32⟩ : BufTy).Contents (Elt F)),
    StableHlo.binary main_v1 main_v43 main_v44 (addi : (⟨S650000, .i32⟩ : BufTy).Contents (Elt F) → (⟨S650000, .i32⟩ : BufTy).Contents (Elt F) → (⟨S650000, .i32⟩ : BufTy).Contents (Elt F)),
    StableHlo.ternary main_v42 main_v44 main_v1 main_v45 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v45 main_v46 (broadcastInDim S650000x1 ![0] bcast_S650000_S650000x1_0 : (⟨S650000, .i32⟩ : BufTy).Contents (Elt F) → (⟨S650000x1, .i32⟩ : BufTy).Contents (Elt F)),
    StableHlo.binary main_v40 main_v46 main_v47 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.nullary main_cst_9 (constant S_ .f32 0x00000000#32),
    StableHlo.unary main_cst_9 main_v48 (broadcastInDim S50000x128 ![] bcast_S_S50000x128 : (⟨S_, .f32⟩ : BufTy).Contents (Elt F) → (⟨S50000x128, .f32⟩ : BufTy).Contents (Elt F)),
    StableHlo.unary main_v2 main_v49 (broadcastInDim S650000x1 ![0] bcast_S650000_S650000x1_0 : (⟨S650000, .i32⟩ : BufTy).Contents (Elt F) → (⟨S650000x1, .i32⟩ : BufTy).Contents (Elt F)),
    StableHlo.ternary main_v48 main_v49 main_v47 main_v50 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v10 main_v51 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v51 main_v52 (mulf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0xC0000000#32),
    StableHlo.unary main_cst_10 main_v53 (broadcastInDim S50000x128 ![] bcast_S_S50000x128 : (⟨S_, .f32⟩ : BufTy).Contents (Elt F) → (⟨S50000x128, .f32⟩ : BufTy).Contents (Elt F)),
    StableHlo.binary main_v53 main_v52 main_v54 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.unary main_cst_11 main_v55 (broadcastInDim S50000x128 ![] bcast_S_S50000x128 : (⟨S_, .f32⟩ : BufTy).Contents (Elt F) → (⟨S50000x128, .f32⟩ : BufTy).Contents (Elt F)),
    StableHlo.binary main_v38 main_v55 main_v56 (mulf : (⟨S50000x128, .f32⟩ : BufTy).Contents (Elt F) → (⟨S50000x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)),
    StableHlo.binary main_v57 main_v15 main_v58 (subf : (⟨S50000x128, .f32⟩ : BufTy).Contents (Elt F) → (⟨S50000x128, .f32⟩ : BufTy).Contents (Elt F) → (⟨S50000x128, .f32⟩ : BufTy).Contents (Elt F)) ]

/-- Layer one's dense stage: the three terms concatenated along the columns, the product with the weight, the bias row added, then the maximum with zero. -/
abbrev opsD0 : List (HloOp τ sig (Elt F)) :=
  [ StableHlo.nary ![main_v15, main_v38, main_v58] main_v59 (fun u => concatenate S50000x384 1 [⟨S50000x128, u 0⟩, ⟨S50000x128, u 1⟩, ⟨S50000x128, u 2⟩] concatenates_S50000x128_S50000x128_S50000x128_S50000x384_d1),
    StableHlo.binary main_v59 main_v17 main_v60 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_v19 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v63) main_call1.v0 main_call1.v1 maximumf ]

/-- The slope of the second layer's leaky rectifier. -/
abbrev opsA1 : List (HloOp τ sig (Elt F)) :=
  [ StableHlo.nullary main_cst_12 (constant S_ .f32 0x3C23D70A#32) ]

/-- The leaky rectifier on layer one's output: the comparison with zero, the slope converted and broadcast, the scaled copy, the selection. -/
abbrev opsA1c : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v64) main_call2.v0 main_call2.v1 (cmpf .oge),
    StableHlo.TRef.unary (.of main_cst_12) main_call2.v2 id,
    StableHlo.TRef.unary main_call2.v2 main_call2.v3 (broadcastInDim S50000x128 ![] bcast_S_S50000x128),
    StableHlo.TRef.binary main_call2.v3 (.of main_v64) main_call2.v4 mulf,
    StableHlo.TRef.ternary main_call2.v1 (.of main_v64) main_call2.v4 main_call2.call0.v0 select ]

/-- From layer two's weight and bias slices to its third Chebyshev term. -/
abbrev opsA1b : List (HloOp τ sig (Elt F)) :=
  [ StableHlo.unary main_arg5 main_v66 ((extractStridedSlice S1x384x128 ![1, 0, 0] · slices_S3x384x128_S1x384x128_1_0_0) : (⟨S3x384x128, .f32⟩ : BufTy).Contents (Elt F) → (⟨S1x384x128, .f32⟩ : BufTy).Contents (Elt F)),
    StableHlo.reshape main_v66 main_v67 rfl shapeCasts_S1x384x128_S384x128,
    StableHlo.unary main_arg6 main_v68 ((extractStridedSlice S1x128 ![1, 0] · slices_S3x128_S1x128_1_0) : (⟨S3x128, .f32⟩ : BufTy).Contents (Elt F) → (⟨S1x128, .f32⟩ : BufTy).Contents (Elt F)),
    StableHlo.reshape main_v68 main_v69 rfl shapeCasts_S1x128_S128,
    StableHlo.unary main_v10 main_v70 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.nullary main_c_13 (constantI S_ 32 0#32),
    StableHlo.unary main_c_13 main_v72 (broadcastInDim S650000 ![] bcast_S_S650000 : (⟨S_, .i32⟩ : BufTy).Contents (Elt F) → (⟨S650000, .i32⟩ : BufTy).Contents (Elt F)),
    StableHlo.binary main_v1 main_v72 main_v73 (cmpi .slt : (⟨S650000, .i32⟩ : BufTy).Contents (Elt F) → (⟨S650000, .i32⟩ : BufTy).Contents (Elt F) → (⟨S650000, .i1⟩ : BufTy).Contents (Elt F)),
    StableHlo.nullary main_c_14 (constantI S_ 32 50000#32),
    StableHlo.unary main_c_14 main_v74 (broadcastInDim S650000 ![] bcast_S_S650000 : (⟨S_, .i32⟩ : BufTy).Contents (Elt F) → (⟨S650000, .i32⟩ : BufTy).Contents (Elt F)),
    StableHlo.binary main_v1 main_v74 main_v75 (addi : (⟨S650000, .i32⟩ : BufTy).Contents (Elt F) → (⟨S650000, .i32⟩ : BufTy).Contents (Elt F) → (⟨S650000, .i32⟩ : BufTy).Contents (Elt F)),
    StableHlo.ternary main_v73 main_v75 main_v1 main_v76 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v76 main_v77 (broadcastInDim S650000x1 ![0] bcast_S650000_S650000x1_0 : (⟨S650000, .i32⟩ : BufTy).Contents (Elt F) → (⟨S650000x1, .i32⟩ : BufTy).Contents (Elt F)),
    StableHlo.binary main_v71 main_v77 main_v78 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.nullary main_cst_15 (constant S_ .f32 0x00000000#32),
    StableHlo.unary main_cst_15 main_v79 (broadcastInDim S50000x128 ![] bcast_S_S50000x128 : (⟨S_, .f32⟩ : BufTy).Contents (Elt F) → (⟨S50000x128, .f32⟩ : BufTy).Contents (Elt F)),
    StableHlo.unary main_v2 main_v80 (broadcastInDim S650000x1 ![0] bcast_S650000_S650000x1_0 : (⟨S650000, .i32⟩ : BufTy).Contents (Elt F) → (⟨S650000x1, .i32⟩ : BufTy).Contents (Elt F)),
    StableHlo.ternary main_v79 main_v80 main_v78 main_v81 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v10 main_v82 (broadcastInDim S50000x128 ![0, 1] bcast_S50000x1_S50000x128_0_1 : (⟨S50000x1, .f32⟩ : BufTy).Contents (Elt F) → (⟨S50000x128, .f32⟩ : BufTy).Contents (Elt F)),
    StableHlo.binary main_v81 main_v82 main_v83 (mulf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0xBF800000#32),
    StableHlo.unary main_cst_16 main_v84 (broadcastInDim S50000x128 ![] bcast_S_S50000x128 : (⟨S_, .f32⟩ : BufTy).Contents (Elt F) → (⟨S50000x128, .f32⟩ : BufTy).Contents (Elt F)),
    StableHlo.binary main_v84 main_v83 main_v85 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x00000000#32),
    StableHlo.unary main_cst_17 main_v86 (broadcastInDim S50000x128 ![] bcast_S_S50000x128 : (⟨S_, .f32⟩ : BufTy).Contents (Elt F) → (⟨S50000x128, .f32⟩ : BufTy).Contents (Elt F)),
    StableHlo.binary main_v65 main_v86 main_v87 (mulf : (⟨S50000x128, .f32⟩ : BufTy).Contents (Elt F) → (⟨S50000x128, .f32⟩ : BufTy).Contents (Elt F) → (⟨S50000x128, .f32⟩ : BufTy).Contents (Elt F)),
    StableHlo.binary main_v85 main_v87 main_v88 (addf : (⟨S50000x128, .f32⟩ : BufTy).Contents (Elt F) → (⟨S50000x128, .f32⟩ : BufTy).Contents (Elt F) → (⟨S50000x128, .f32⟩ : BufTy).Contents (Elt F)),
    StableHlo.unary main_v10 main_v89 (broadcastInDim S50000x128 ![0, 1] bcast_S50000x1_S50000x128_0_1 : (⟨S50000x1, .f32⟩ : BufTy).Contents (Elt F) → (⟨S50000x128, .f32⟩ : BufTy).Contents (Elt F)),
    StableHlo.binary main_v88 main_v89 main_v90 (mulf : (⟨S50000x128, .f32⟩ : BufTy).Contents (Elt F) → (⟨S50000x128, .f32⟩ : BufTy).Contents (Elt F) → (⟨S50000x128, .f32⟩ : BufTy).Contents (Elt F)),
    StableHlo.nullary main_c_18 (constantI S_ 32 0#32),
    StableHlo.unary main_c_18 main_v91 (broadcastInDim S650000 ![] bcast_S_S650000 : (⟨S_, .i32⟩ : BufTy).Contents (Elt F) → (⟨S650000, .i32⟩ : BufTy).Contents (Elt F)),
    StableHlo.binary main_v1 main_v91 main_v92 (cmpi .slt : (⟨S650000, .i32⟩ : BufTy).Contents (Elt F) → (⟨S650000, .i32⟩ : BufTy).Contents (Elt F) → (⟨S650000, .i1⟩ : BufTy).Contents (Elt F)),
    StableHlo.nullary main_c_19 (constantI S_ 32 50000#32),
    StableHlo.unary main_c_19 main_v93 (broadcastInDim S650000 ![] bcast_S_S650000 : (⟨S_, .i32⟩ : BufTy).Contents (Elt F) → (⟨S650000, .i32⟩ : BufTy).Contents (Elt F)),
    StableHlo.binary main_v1 main_v93 main_v94 (addi : (⟨S650000, .i32⟩ : BufTy).Contents (Elt F) → (⟨S650000, .i32⟩ : BufTy).Contents (Elt F) → (⟨S650000, .i32⟩ : BufTy).Contents (Elt F)),
    StableHlo.ternary main_v92 main_v94 main_v1 main_v95 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v95 main_v96 (broadcastInDim S650000x1 ![0] bcast_S650000_S650000x1_0 : (⟨S650000, .i32⟩ : BufTy).Contents (Elt F) → (⟨S650000x1, .i32⟩ : BufTy).Contents (Elt F)),
    StableHlo.binary main_v90 main_v96 main_v97 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.nullary main_cst_20 (constant S_ .f32 0x00000000#32),
    StableHlo.unary main_cst_20 main_v98 (broadcastInDim S50000x128 ![] bcast_S_S50000x128 : (⟨S_, .f32⟩ : BufTy).Contents (Elt F) → (⟨S50000x128, .f32⟩ : BufTy).Contents (Elt F)),
    StableHlo.unary main_v2 main_v99 (broadcastInDim S650000x1 ![0] bcast_S650000_S650000x1_0 : (⟨S650000, .i32⟩ : BufTy).Contents (Elt F) → (⟨S650000x1, .i32⟩ : BufTy).Contents (Elt F)),
    StableHlo.ternary main_v98 main_v99 main_v97 main_v100 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v10 main_v101 (broadcastInDim S50000x128 ![0, 1] bcast_S50000x1_S50000x128_0_1 : (⟨S50000x1, .f32⟩ : BufTy).Contents (Elt F) → (⟨S50000x128, .f32⟩ : BufTy).Contents (Elt F)),
    StableHlo.binary main_v100 main_v101 main_v102 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0xC0000000#32),
    StableHlo.unary main_cst_21 main_v103 (broadcastInDim S50000x128 ![] bcast_S_S50000x128 : (⟨S_, .f32⟩ : BufTy).Contents (Elt F) → (⟨S50000x128, .f32⟩ : BufTy).Contents (Elt F)),
    StableHlo.binary main_v103 main_v102 main_v104 (mulf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.unary main_cst_22 main_v105 (broadcastInDim S50000x128 ![] bcast_S_S50000x128 : (⟨S_, .f32⟩ : BufTy).Contents (Elt F) → (⟨S50000x128, .f32⟩ : BufTy).Contents (Elt F)),
    StableHlo.binary main_v88 main_v105 main_v106 (mulf : (⟨S50000x128, .f32⟩ : BufTy).Contents (Elt F) → (⟨S50000x128, .f32⟩ : BufTy).Contents (Elt F) → (⟨S50000x128, .f32⟩ : BufTy).Contents (Elt F)),
    StableHlo.binary main_v104 main_v106 main_v107 (addf : (⟨S50000x128, .f32⟩ : BufTy).Contents (Elt F) → (⟨S50000x128, .f32⟩ : BufTy).Contents (Elt F) → (⟨S50000x128, .f32⟩ : BufTy).Contents (Elt F)),
    StableHlo.binary main_v107 main_v65 main_v108 (subf : (⟨S50000x128, .f32⟩ : BufTy).Contents (Elt F) → (⟨S50000x128, .f32⟩ : BufTy).Contents (Elt F) → (⟨S50000x128, .f32⟩ : BufTy).Contents (Elt F)) ]

/-- Layer two's dense stage: concatenation, product with the weight, bias row, maximum with zero. -/
abbrev opsD1 : List (HloOp τ sig (Elt F)) :=
  [ StableHlo.nary ![main_v65, main_v88, main_v108] main_v109 (fun u => concatenate S50000x384 1 [⟨S50000x128, u 0⟩, ⟨S50000x128, u 1⟩, ⟨S50000x128, u 2⟩] concatenates_S50000x128_S50000x128_S50000x128_S50000x384_d1),
    StableHlo.binary main_v109 main_v67 main_v110 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_v69 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v112 main_v113 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v113) main_call3.v0 main_call3.v1 maximumf ]

/-- The slope of the third layer's leaky rectifier. -/
abbrev opsA2 : List (HloOp τ sig (Elt F)) :=
  [ StableHlo.nullary main_cst_23 (constant S_ .f32 0x3C23D70A#32) ]

/-- The leaky rectifier on layer two's output. -/
abbrev opsA2c : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary (.of main_v114) main_call4.v0 main_call4.v1 (cmpf .oge),
    StableHlo.TRef.unary (.of main_cst_23) main_call4.v2 id,
    StableHlo.TRef.unary main_call4.v2 main_call4.v3 (broadcastInDim S50000x128 ![] bcast_S_S50000x128),
    StableHlo.TRef.binary main_call4.v3 (.of main_v114) main_call4.v4 mulf,
    StableHlo.TRef.ternary main_call4.v1 (.of main_v114) main_call4.v4 main_call4.call0.v0 select ]

/-- From layer three's weight and bias slices to its third Chebyshev term. -/
abbrev opsA2b : List (HloOp τ sig (Elt F)) :=
  [ StableHlo.unary main_arg5 main_v116 ((extractStridedSlice S1x384x128 ![2, 0, 0] · slices_S3x384x128_S1x384x128_2_0_0) : (⟨S3x384x128, .f32⟩ : BufTy).Contents (Elt F) → (⟨S1x384x128, .f32⟩ : BufTy).Contents (Elt F)),
    StableHlo.reshape main_v116 main_v117 rfl shapeCasts_S1x384x128_S384x128,
    StableHlo.unary main_arg6 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_v10 main_v120 (broadcastInDim S50000x128 ![0, 1] bcast_S50000x1_S50000x128_0_1 : (⟨S50000x1, .f32⟩ : BufTy).Contents (Elt F) → (⟨S50000x128, .f32⟩ : BufTy).Contents (Elt F)),
    StableHlo.binary main_v115 main_v120 main_v121 (mulf : (⟨S50000x128, .f32⟩ : BufTy).Contents (Elt F) → (⟨S50000x128, .f32⟩ : BufTy).Contents (Elt F) → (⟨S50000x128, .f32⟩ : BufTy).Contents (Elt F)),
    StableHlo.nullary main_c_24 (constantI S_ 32 0#32),
    StableHlo.unary main_c_24 main_v122 (broadcastInDim S650000 ![] bcast_S_S650000 : (⟨S_, .i32⟩ : BufTy).Contents (Elt F) → (⟨S650000, .i32⟩ : BufTy).Contents (Elt F)),
    StableHlo.binary main_v1 main_v122 main_v123 (cmpi .slt : (⟨S650000, .i32⟩ : BufTy).Contents (Elt F) → (⟨S650000, .i32⟩ : BufTy).Contents (Elt F) → (⟨S650000, .i1⟩ : BufTy).Contents (Elt F)),
    StableHlo.nullary main_c_25 (constantI S_ 32 50000#32),
    StableHlo.unary main_c_25 main_v124 (broadcastInDim S650000 ![] bcast_S_S650000 : (⟨S_, .i32⟩ : BufTy).Contents (Elt F) → (⟨S650000, .i32⟩ : BufTy).Contents (Elt F)),
    StableHlo.binary main_v1 main_v124 main_v125 (addi : (⟨S650000, .i32⟩ : BufTy).Contents (Elt F) → (⟨S650000, .i32⟩ : BufTy).Contents (Elt F) → (⟨S650000, .i32⟩ : BufTy).Contents (Elt F)),
    StableHlo.ternary main_v123 main_v125 main_v1 main_v126 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v126 main_v127 (broadcastInDim S650000x1 ![0] bcast_S650000_S650000x1_0 : (⟨S650000, .i32⟩ : BufTy).Contents (Elt F) → (⟨S650000x1, .i32⟩ : BufTy).Contents (Elt F)),
    StableHlo.binary main_v121 main_v127 main_v128 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.nullary main_cst_26 (constant S_ .f32 0x00000000#32),
    StableHlo.unary main_cst_26 main_v129 (broadcastInDim S50000x128 ![] bcast_S_S50000x128 : (⟨S_, .f32⟩ : BufTy).Contents (Elt F) → (⟨S50000x128, .f32⟩ : BufTy).Contents (Elt F)),
    StableHlo.unary main_v2 main_v130 (broadcastInDim S650000x1 ![0] bcast_S650000_S650000x1_0 : (⟨S650000, .i32⟩ : BufTy).Contents (Elt F) → (⟨S650000x1, .i32⟩ : BufTy).Contents (Elt F)),
    StableHlo.ternary main_v129 main_v130 main_v128 main_v131 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v10 main_v132 (broadcastInDim S50000x128 ![0, 1] bcast_S50000x1_S50000x128_0_1 : (⟨S50000x1, .f32⟩ : BufTy).Contents (Elt F) → (⟨S50000x128, .f32⟩ : BufTy).Contents (Elt F)),
    StableHlo.binary main_v131 main_v132 main_v133 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0xBF800000#32),
    StableHlo.unary main_cst_27 main_v134 (broadcastInDim S50000x128 ![] bcast_S_S50000x128 : (⟨S_, .f32⟩ : BufTy).Contents (Elt F) → (⟨S50000x128, .f32⟩ : BufTy).Contents (Elt F)),
    StableHlo.binary main_v134 main_v133 main_v135 (mulf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x00000000#32),
    StableHlo.unary main_cst_28 main_v136 (broadcastInDim S50000x128 ![] bcast_S_S50000x128 : (⟨S_, .f32⟩ : BufTy).Contents (Elt F) → (⟨S50000x128, .f32⟩ : BufTy).Contents (Elt F)),
    StableHlo.binary main_v115 main_v136 main_v137 (mulf : (⟨S50000x128, .f32⟩ : BufTy).Contents (Elt F) → (⟨S50000x128, .f32⟩ : BufTy).Contents (Elt F) → (⟨S50000x128, .f32⟩ : BufTy).Contents (Elt F)),
    StableHlo.binary main_v135 main_v137 main_v138 (addf : (⟨S50000x128, .f32⟩ : BufTy).Contents (Elt F) → (⟨S50000x128, .f32⟩ : BufTy).Contents (Elt F) → (⟨S50000x128, .f32⟩ : BufTy).Contents (Elt F)),
    StableHlo.unary main_v10 main_v139 (broadcastInDim S50000x128 ![0, 1] bcast_S50000x1_S50000x128_0_1 : (⟨S50000x1, .f32⟩ : BufTy).Contents (Elt F) → (⟨S50000x128, .f32⟩ : BufTy).Contents (Elt F)),
    StableHlo.binary main_v138 main_v139 main_v140 (mulf : (⟨S50000x128, .f32⟩ : BufTy).Contents (Elt F) → (⟨S50000x128, .f32⟩ : BufTy).Contents (Elt F) → (⟨S50000x128, .f32⟩ : BufTy).Contents (Elt F)),
    StableHlo.nullary main_c_29 (constantI S_ 32 0#32),
    StableHlo.unary main_c_29 main_v141 (broadcastInDim S650000 ![] bcast_S_S650000 : (⟨S_, .i32⟩ : BufTy).Contents (Elt F) → (⟨S650000, .i32⟩ : BufTy).Contents (Elt F)),
    StableHlo.binary main_v1 main_v141 main_v142 (cmpi .slt : (⟨S650000, .i32⟩ : BufTy).Contents (Elt F) → (⟨S650000, .i32⟩ : BufTy).Contents (Elt F) → (⟨S650000, .i1⟩ : BufTy).Contents (Elt F)),
    StableHlo.nullary main_c_30 (constantI S_ 32 50000#32),
    StableHlo.unary main_c_30 main_v143 (broadcastInDim S650000 ![] bcast_S_S650000 : (⟨S_, .i32⟩ : BufTy).Contents (Elt F) → (⟨S650000, .i32⟩ : BufTy).Contents (Elt F)),
    StableHlo.binary main_v1 main_v143 main_v144 (addi : (⟨S650000, .i32⟩ : BufTy).Contents (Elt F) → (⟨S650000, .i32⟩ : BufTy).Contents (Elt F) → (⟨S650000, .i32⟩ : BufTy).Contents (Elt F)),
    StableHlo.ternary main_v142 main_v144 main_v1 main_v145 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v145 main_v146 (broadcastInDim S650000x1 ![0] bcast_S650000_S650000x1_0 : (⟨S650000, .i32⟩ : BufTy).Contents (Elt F) → (⟨S650000x1, .i32⟩ : BufTy).Contents (Elt F)),
    StableHlo.binary main_v140 main_v146 main_v147 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.nullary main_cst_31 (constant S_ .f32 0x00000000#32),
    StableHlo.unary main_cst_31 main_v148 (broadcastInDim S50000x128 ![] bcast_S_S50000x128 : (⟨S_, .f32⟩ : BufTy).Contents (Elt F) → (⟨S50000x128, .f32⟩ : BufTy).Contents (Elt F)),
    StableHlo.unary main_v2 main_v149 (broadcastInDim S650000x1 ![0] bcast_S650000_S650000x1_0 : (⟨S650000, .i32⟩ : BufTy).Contents (Elt F) → (⟨S650000x1, .i32⟩ : BufTy).Contents (Elt F)),
    StableHlo.ternary main_v148 main_v149 main_v147 main_v150 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v10 main_v151 (broadcastInDim S50000x128 ![0, 1] bcast_S50000x1_S50000x128_0_1 : (⟨S50000x1, .f32⟩ : BufTy).Contents (Elt F) → (⟨S50000x128, .f32⟩ : BufTy).Contents (Elt F)),
    StableHlo.binary main_v150 main_v151 main_v152 (mulf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0xC0000000#32),
    StableHlo.unary main_cst_32 main_v153 (broadcastInDim S50000x128 ![] bcast_S_S50000x128 : (⟨S_, .f32⟩ : BufTy).Contents (Elt F) → (⟨S50000x128, .f32⟩ : BufTy).Contents (Elt F)),
    StableHlo.binary main_v153 main_v152 main_v154 (mulf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x00000000#32),
    StableHlo.unary main_cst_33 main_v155 (broadcastInDim S50000x128 ![] bcast_S_S50000x128 : (⟨S_, .f32⟩ : BufTy).Contents (Elt F) → (⟨S50000x128, .f32⟩ : BufTy).Contents (Elt F)),
    StableHlo.binary main_v138 main_v155 main_v156 (mulf : (⟨S50000x128, .f32⟩ : BufTy).Contents (Elt F) → (⟨S50000x128, .f32⟩ : BufTy).Contents (Elt F) → (⟨S50000x128, .f32⟩ : BufTy).Contents (Elt F)),
    StableHlo.binary main_v154 main_v156 main_v157 (addf : (⟨S50000x128, .f32⟩ : BufTy).Contents (Elt F) → (⟨S50000x128, .f32⟩ : BufTy).Contents (Elt F) → (⟨S50000x128, .f32⟩ : BufTy).Contents (Elt F)),
    StableHlo.binary main_v157 main_v115 main_v158 (subf : (⟨S50000x128, .f32⟩ : BufTy).Contents (Elt F) → (⟨S50000x128, .f32⟩ : BufTy).Contents (Elt F) → (⟨S50000x128, .f32⟩ : BufTy).Contents (Elt F)) ]

/-- Layer three's dense stage: concatenation, product with the weight, bias row, maximum with zero. -/
abbrev opsD2 : List (HloOp τ sig (Elt F)) :=
  [ StableHlo.nary ![main_v115, main_v138, main_v158] main_v159 (fun u => concatenate S50000x384 1 [⟨S50000x128, u 0⟩, ⟨S50000x128, u 1⟩, ⟨S50000x128, u 2⟩] concatenates_S50000x128_S50000x128_S50000x128_S50000x384_d1),
    StableHlo.binary main_v159 main_v117 main_v160 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_v119 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v162 main_v163 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v163) main_call5.v0 main_call5.v1 maximumf ]

/-- The read-out: the product with the output column, the scalar bias broadcast over the rows, their sum. -/
abbrev opsT : List (HloOp τ sig (Elt F)) :=
  [ StableHlo.binary main_v164 main_arg7 main_v165 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg8 main_v166 (broadcastInDim S1x1 ![1] bcast_S1_S1x1_1 : (⟨S1, .f32⟩ : BufTy).Contents (Elt F) → (⟨S1x1, .f32⟩ : BufTy).Contents (Elt F)),
    StableHlo.unary main_v166 main_v167 (broadcastInDim S50000x1 ![0, 1] bcast_S1x1_S50000x1_0_1 : (⟨S1x1, .f32⟩ : BufTy).Contents (Elt F) → (⟨S50000x1, .f32⟩ : BufTy).Contents (Elt F)),
    StableHlo.binary main_v165 main_v167 main_v168 (addf : (⟨S50000x1, .f32⟩ : BufTy).Contents (Elt F) → (⟨S50000x1, .f32⟩ : BufTy).Contents (Elt F) → (⟨S50000x1, .f32⟩ : BufTy).Contents (Elt F)) ]

/-- @main's operations in order: the thirteen chunks one after the other. -/
abbrev ops : List (HloOp τ sig (Elt F)) :=
  opsA0 ++ opsA0c ++ opsA0b ++ opsD0 ++ opsA1 ++ opsA1c ++ opsA1b ++ opsD1 ++ opsA2 ++ opsA2c ++ opsA2b ++ opsD2 ++ opsT

/-- The fold over the whole line is the chunks' folds, each from what the one before left. -/
theorem after_ops (V : Valuation τ sig (Elt F)) :
    StableHlo.after ops V = StableHlo.after opsT (StableHlo.after opsD2 (StableHlo.after opsA2b (StableHlo.after opsA2c (StableHlo.after opsA2 (StableHlo.after opsD1 (StableHlo.after opsA1b (StableHlo.after opsA1c (StableHlo.after opsA1 (StableHlo.after opsD0 (StableHlo.after opsA0b (StableHlo.after opsA0c (StableHlo.after opsA0 V)))))))))))) := by
  simp only [ops, StableHlo.after_append]

set_option maxRecDepth 16384 in
set_option maxHeartbeats 4000000 in
/-- @main is that straight line: the windows and the called functions unfolded at their places, both sides are
    one chain of operation steps once sequencing is reassociated. -/
theorem main_eq (c : Dev nD) : main (F := F) c = StableHlo.seq ops := by
  simp only [main, main_part0, main_part1, main_part2, main_part3, fn_clip.body, fn_relu.body, fn_leaky_relu.body,
    fn_where.body, ops, opsA0, opsA0c, opsA0b, opsD0, opsA1, opsA1c, opsA1b, opsD1, opsA2, opsA2c, opsA2b, opsD2, opsT, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA0_sub : (opsA0 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub ..⟩
theorem opsA0c_sub : (opsA0c : List (HloOp τ sig (Elt F))).Forall fun op => op.bufs ⊆ tcRefs τ sig :=
  ⟨unary_bufs_sub .., unary_bufs_sub .., binary_bufs_sub ..⟩
theorem opsA0b_sub : (opsA0b : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩
theorem opsD0_sub : (opsD0 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem opsA1_sub : (opsA1 : List (HloOp τ sig (Elt F))).Forall fun op => op.bufs ⊆ tcRefs τ sig :=
  nullary_bufs_sub ..
theorem opsA1c_sub : (opsA1c : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem opsA1b_sub : (opsA1b : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩
theorem opsD1_sub : (opsD1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem opsA2_sub : (opsA2 : List (HloOp τ sig (Elt F))).Forall fun op => op.bufs ⊆ tcRefs τ sig :=
  nullary_bufs_sub ..
theorem opsA2c_sub : (opsA2c : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem opsA2b_sub : (opsA2b : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩
theorem opsD2_sub : (opsD2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem opsT_sub : (opsT : List (HloOp τ sig (Elt F))).Forall fun op => op.bufs ⊆ tcRefs τ sig :=
  ⟨binary_bufs_sub .., unary_bufs_sub .., unary_bufs_sub .., binary_bufs_sub ..⟩

/-- Every operation of the line touches TensorCore buffers only. -/
theorem ops_sub : (ops : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨opsA0_sub, opsA0c_sub⟩), opsA0b_sub⟩), opsD0_sub⟩), opsA1_sub⟩), opsA1c_sub⟩), opsA1b_sub⟩), opsD1_sub⟩), opsA2_sub⟩), opsA2c_sub⟩), opsA2b_sub⟩), opsD2_sub⟩), opsT_sub⟩)

theorem opsA0_fresh : (opsA0 : List (HloOp τ sig (Elt F))).Forall fun op => op.fresh = ∅ :=
  ⟨rfl, rfl, rfl, rfl, rfl, rfl, rfl, rfl, rfl, rfl⟩
theorem opsA0c_fresh : (opsA0c : List (HloOp τ sig (Elt F))).Forall fun op => op.fresh = ∅ :=
  ⟨rfl, rfl, rfl⟩
theorem opsA0b_fresh : (opsA0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsD0_fresh : (opsD0 : List (HloOp τ sig (Elt F))).Forall fun op => op.fresh = ∅ :=
  ⟨rfl, rfl, rfl, rfl, rfl, rfl, rfl, rfl⟩
theorem opsA1_fresh : (opsA1 : List (HloOp τ sig (Elt F))).Forall fun op => op.fresh = ∅ :=
  rfl
theorem opsA1c_fresh : (opsA1c : List (HloOp τ sig (Elt F))).Forall fun op => op.fresh = ∅ :=
  ⟨rfl, rfl, rfl, rfl, rfl, rfl, rfl⟩
theorem opsA1b_fresh : (opsA1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsD1_fresh : (opsD1 : List (HloOp τ sig (Elt F))).Forall fun op => op.fresh = ∅ :=
  ⟨rfl, rfl, rfl, rfl, rfl, rfl, rfl, rfl⟩
theorem opsA2_fresh : (opsA2 : List (HloOp τ sig (Elt F))).Forall fun op => op.fresh = ∅ :=
  rfl
theorem opsA2c_fresh : (opsA2c : List (HloOp τ sig (Elt F))).Forall fun op => op.fresh = ∅ :=
  ⟨rfl, rfl, rfl, rfl, rfl, rfl, rfl⟩
theorem opsA2b_fresh : (opsA2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsD2_fresh : (opsD2 : List (HloOp τ sig (Elt F))).Forall fun op => op.fresh = ∅ :=
  ⟨rfl, rfl, rfl, rfl, rfl, rfl, rfl, rfl⟩
theorem opsT_fresh : (opsT : List (HloOp τ sig (Elt F))).Forall fun op => op.fresh = ∅ :=
  ⟨rfl, rfl, rfl, rfl⟩

/-- Every operation of the line determines its results. -/
theorem ops_fresh : (ops : List (HloOp τ sig (Elt F))).Forall fun op => op.fresh = ∅ :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨opsA0_fresh, opsA0c_fresh⟩), opsA0b_fresh⟩), opsD0_fresh⟩), opsA1_fresh⟩), opsA1c_fresh⟩), opsA1b_fresh⟩), opsD1_fresh⟩), opsA2_fresh⟩), opsA2c_fresh⟩), opsA2b_fresh⟩), opsD2_fresh⟩), opsT_fresh⟩)

/-- On every device, for any float values, from any memory with zero counters: every weakly fair execution of
    @main terminates, and every final state has each TensorCore buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RKeep.lean ====
/-
  No operation of the reference program's line writes an argument's buffer: each chunk's operations write exactly
  the listed buffers, a buffer outside every list keeps its launch contents through the whole line.
-/
import proofs.«118433_j81398220194150_1_alg».proof.Proof.RefOps

set_option maxRecDepth 16384

noncomputable section

namespace Cert.ReferenceIdeal.RefKeep

open Idealize.ShloMosaic Idealize.ShloMosaic.TcCoe Idealize.ShloMosaic.StableHlo Cert.ReferenceIdeal Cert.ReferenceIdeal.RefRun

variable {F : FTy → Type} [FloatOps F]

/-- One operation's written set is the singleton of its result, a member of the list. -/
local macro "w1" : term =>
  `(by simp only [nullary_writes, unary_writes, binary_writes, ternary_writes, quaternary_writes, reshape_writes, nary_writes, Finset.singleton_subset_iff, List.mem_toFinset]; exact List.mem_map_of_mem (by decide))

/-- The buffers the chunk's operations write, in order. -/
abbrev wA0 : List (Ref sig .tc) := [main_v0, main_v1, main_v2, main_cst, main_v3, main_cst_0, main_v4, main_v5, main_v6, main_cst_1]
theorem opsA0_writes : (opsA0 : List (HloOp τ sig (Elt F))).Forall fun op => op.writes ⊆ (wA0.map (Proc.devRef (τ := τ) .tc)).toFinset := by
  simp only [List.Forall]; exact ⟨w1, w1, w1, w1, w1, w1, w1, w1, w1, w1⟩

/-- The buffers the chunk's operations write, in order. -/
abbrev wA0c : List (Ref sig .tc) := [main_call0_v0, main_call0_v1, main_v7]
theorem opsA0c_writes : (opsA0c : List (HloOp τ sig (Elt F))).Forall fun op => op.writes ⊆ (wA0c.map (Proc.devRef (τ := τ) .tc)).toFinset := by
  simp only [List.Forall]; exact ⟨w1, w1, w1⟩

/-- The buffers the chunk's operations write, in order. -/
abbrev wA0b : List (Ref sig .tc) := [main_cst_2, main_v8, main_v9, main_v10, main_v11, main_v12, main_v13, main_v14, main_v15, main_v16, main_v17, main_v18, main_v19, main_v20, main_v21, main_c, main_v22, main_v23, main_c_3, main_v24, main_v25, main_v26, main_v27, main_v28, main_cst_4, main_v29, main_v30, main_v31, main_v32, main_v33, main_cst_5, main_v34, main_v35, main_cst_6, main_v36, main_v37, main_v38, main_v39, main_v40, main_c_7, main_v41, main_v42, main_c_8, main_v43, main_v44, main_v45, main_v46, main_v47, main_cst_9, main_v48, main_v49, main_v50, main_v51, main_v52, main_cst_10, main_v53, main_v54, main_cst_11, main_v55, main_v56, main_v57, main_v58]
theorem opsA0b_writes : (opsA0b : List (HloOp τ sig (Elt F))).Forall fun op => op.writes ⊆ (wA0b.map (Proc.devRef (τ := τ) .tc)).toFinset := by
  simp only [List.Forall]; exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- The buffers the chunk's operations write, in order. -/
abbrev wD0 : List (Ref sig .tc) := [main_v59, main_v60, main_v61, main_v62, main_v63, main_call1_cst, main_call1_v0, main_v64]
theorem opsD0_writes : (opsD0 : List (HloOp τ sig (Elt F))).Forall fun op => op.writes ⊆ (wD0.map (Proc.devRef (τ := τ) .tc)).toFinset := by
  simp only [List.Forall]; exact ⟨w1, w1, w1, w1, w1, w1, w1, w1⟩

/-- The buffers the chunk's operations write, in order. -/
abbrev wA1 : List (Ref sig .tc) := [main_cst_12]
theorem opsA1_writes : (opsA1 : List (HloOp τ sig (Elt F))).Forall fun op => op.writes ⊆ (wA1.map (Proc.devRef (τ := τ) .tc)).toFinset := by
  simp only [List.Forall]; exact (w1)

/-- The buffers the chunk's operations write, in order. -/
abbrev wA1c : List (Ref sig .tc) := [main_call2_cst, main_call2_v0, main_call2_v1, main_call2_v2, main_call2_v3, main_call2_v4, main_v65]
theorem opsA1c_writes : (opsA1c : List (HloOp τ sig (Elt F))).Forall fun op => op.writes ⊆ (wA1c.map (Proc.devRef (τ := τ) .tc)).toFinset := by
  simp only [List.Forall]; exact ⟨w1, w1, w1, w1, w1, w1, w1⟩

/-- The buffers the chunk's operations write, in order. -/
abbrev wA1b : List (Ref sig .tc) := [main_v66, main_v67, main_v68, main_v69, main_v70, main_v71, main_c_13, main_v72, main_v73, main_c_14, main_v74, main_v75, main_v76, main_v77, main_v78, main_cst_15, main_v79, main_v80, main_v81, main_v82, main_v83, main_cst_16, main_v84, main_v85, main_cst_17, main_v86, main_v87, main_v88, main_v89, main_v90, main_c_18, main_v91, main_v92, main_c_19, main_v93, main_v94, main_v95, main_v96, main_v97, main_cst_20, main_v98, main_v99, main_v100, main_v101, main_v102, main_cst_21, main_v103, main_v104, main_cst_22, main_v105, main_v106, main_v107, main_v108]
theorem opsA1b_writes : (opsA1b : List (HloOp τ sig (Elt F))).Forall fun op => op.writes ⊆ (wA1b.map (Proc.devRef (τ := τ) .tc)).toFinset := by
  simp only [List.Forall]; exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- The buffers the chunk's operations write, in order. -/
abbrev wD1 : List (Ref sig .tc) := [main_v109, main_v110, main_v111, main_v112, main_v113, main_call3_cst, main_call3_v0, main_v114]
theorem opsD1_writes : (opsD1 : List (HloOp τ sig (Elt F))).Forall fun op => op.writes ⊆ (wD1.map (Proc.devRef (τ := τ) .tc)).toFinset := by
  simp only [List.Forall]; exact ⟨w1, w1, w1, w1, w1, w1, w1, w1⟩

/-- The buffers the chunk's operations write, in order. -/
abbrev wA2 : List (Ref sig .tc) := [main_cst_23]
theorem opsA2_writes : (opsA2 : List (HloOp τ sig (Elt F))).Forall fun op => op.writes ⊆ (wA2.map (Proc.devRef (τ := τ) .tc)).toFinset := by
  simp only [List.Forall]; exact (w1)

/-- The buffers the chunk's operations write, in order. -/
abbrev wA2c : List (Ref sig .tc) := [main_call4_cst, main_call4_v0, main_call4_v1, main_call4_v2, main_call4_v3, main_call4_v4, main_v115]
theorem opsA2c_writes : (opsA2c : List (HloOp τ sig (Elt F))).Forall fun op => op.writes ⊆ (wA2c.map (Proc.devRef (τ := τ) .tc)).toFinset := by
  simp only [List.Forall]; exact ⟨w1, w1, w1, w1, w1, w1, w1⟩

/-- The buffers the chunk's operations write, in order. -/
abbrev wA2b : List (Ref sig .tc) := [main_v116, main_v117, main_v118, main_v119, main_v120, main_v121, main_c_24, main_v122, main_v123, main_c_25, main_v124, main_v125, main_v126, main_v127, main_v128, main_cst_26, main_v129, main_v130, main_v131, main_v132, main_v133, main_cst_27, main_v134, main_v135, main_cst_28, main_v136, main_v137, main_v138, main_v139, main_v140, main_c_29, main_v141, main_v142, main_c_30, main_v143, main_v144, main_v145, main_v146, main_v147, main_cst_31, main_v148, main_v149, main_v150, main_v151, main_v152, main_cst_32, main_v153, main_v154, main_cst_33, main_v155, main_v156, main_v157, main_v158]
theorem opsA2b_writes : (opsA2b : List (HloOp τ sig (Elt F))).Forall fun op => op.writes ⊆ (wA2b.map (Proc.devRef (τ := τ) .tc)).toFinset := by
  simp only [List.Forall]; exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- The buffers the chunk's operations write, in order. -/
abbrev wD2 : List (Ref sig .tc) := [main_v159, main_v160, main_v161, main_v162, main_v163, main_call5_cst, main_call5_v0, main_v164]
theorem opsD2_writes : (opsD2 : List (HloOp τ sig (Elt F))).Forall fun op => op.writes ⊆ (wD2.map (Proc.devRef (τ := τ) .tc)).toFinset := by
  simp only [List.Forall]; exact ⟨w1, w1, w1, w1, w1, w1, w1, w1⟩

/-- The buffers the chunk's operations write, in order. -/
abbrev wT : List (Ref sig .tc) := [main_v165, main_v166, main_v167, main_v168]
theorem opsT_writes : (opsT : List (HloOp τ sig (Elt F))).Forall fun op => op.writes ⊆ (wT.map (Proc.devRef (τ := τ) .tc)).toFinset := by
  simp only [List.Forall]; exact ⟨w1, w1, w1, w1⟩

/-- A buffer no chunk writes holds, after the whole line, what it held at launch. -/
theorem keep_of_not_written (r : Ref sig .tc)
    (h0 : r ∉ wA0)
    (h1 : r ∉ wA0c)
    (h2 : r ∉ wA0b)
    (h3 : r ∉ wD0)
    (h4 : r ∉ wA1)
    (h5 : r ∉ wA1c)
    (h6 : r ∉ wA1b)
    (h7 : r ∉ wD1)
    (h8 : r ∉ wA2)
    (h9 : r ∉ wA2c)
    (h10 : r ∉ wA2b)
    (h11 : r ∉ wD2)
    (h12 : r ∉ wT)
    (V : Valuation τ sig (Elt F)) :
    after ops V (Proc.devRef .tc r) = V (Proc.devRef .tc r) := by
  rw [after_ops]
  exact ((after_of_writes_sub opsT _ opsT_writes h12).trans ((after_of_writes_sub opsD2 _ opsD2_writes h11).trans ((after_of_writes_sub opsA2b _ opsA2b_writes h10).trans ((after_of_writes_sub opsA2c _ opsA2c_writes h9).trans ((after_of_writes_sub opsA2 _ opsA2_writes h8).trans ((after_of_writes_sub opsD1 _ opsD1_writes h7).trans ((after_of_writes_sub opsA1b _ opsA1b_writes h6).trans ((after_of_writes_sub opsA1c _ opsA1c_writes h5).trans ((after_of_writes_sub opsA1 _ opsA1_writes h4).trans ((after_of_writes_sub opsD0 _ opsD0_writes h3).trans ((after_of_writes_sub opsA0b _ opsA0b_writes h2).trans ((after_of_writes_sub opsA0c _ opsA0c_writes h1).trans (after_of_writes_sub opsA0 _ opsA0_writes h0)))))))))))))

end Cert.ReferenceIdeal.RefKeep

end
-- ==== Proof.LibHostStages.lean ====
/-
  The host's spellings of the dense stages of a graph convolution network, on the extended reals, as whole arrays.

  The host writes a bias as a vector broadcast to one row and then down the rows, a clamp as a maximum with a broadcast
  scalar, and a per-row scale as a vector broadcast to one column and then across the columns.  Each is the
  corresponding stage of `Cert.Gcn` (`biasRelu`, `addRow`, `rowQuot`) of the vector as a one-row or one-column array.
-/
import proofs.«118433_j81398220194150_1_alg».proof.Proof.LibVectorStages

noncomputable section

namespace Cert.Gcn

open Idealize.ShloMosaic Idealize.ShloMosaic.ValueIdx Cert.LayerLaws

variable {a b : ℕ}

/-- A vector as a one-column array. -/
def colVec (v : (⟨1, ![a]⟩ : Shape).Idx → EReal) : Mat a 1 := fun i => v (ix1 (⟨(i 0).val, idx2_lt0 i⟩ : Fin a))

theorem colVec_apply (v : (⟨1, ![a]⟩ : Shape).Idx → EReal) (p : Fin a) (u : Fin 1) : colVec v (ix2 p u) = v (ix1 p) := rfl

/-- A vector broadcast along a new trailing unit axis is that column. -/
theorem bcast_colVec (v : (⟨1, ![a]⟩ : Shape).Idx → EReal) (h : (⟨1, ![a]⟩ : Shape).BroadcastsInDim ⟨2, ![a, 1]⟩ ![0]) :
    broadcastInDim ⟨2, ![a, 1]⟩ ![0] h v = colVec v := by
  funext i
  obtain ⟨p, u, rfl⟩ : ∃ (p : Fin a) (u : Fin 1), i = ix2 p u := ⟨i 0, i 1, eq_ix2 i⟩
  refine broadcastInDim_apply ![0] h v (ix2 p u) (ix1 p) fun ax => ?_
  match ax with
  | ⟨0, _⟩ =>
    show p.val = if a = 1 then 0 else p.val
    split
    · have := p.isLt; omega
    · rfl

/-- A vector recast as `[a, 1]` is that column too. -/
theorem shapeCast_colVec (v : (⟨1, ![a]⟩ : Shape).Idx → EReal) (h : (⟨1, ![a]⟩ : Shape).ShapeCasts ⟨2, ![a, 1]⟩) :
    shapeCast ⟨2, ![a, 1]⟩ v h = colVec v := by
  funext i
  obtain ⟨p, u, rfl⟩ : ∃ (p : Fin a) (u : Fin 1), i = ix2 p u := ⟨i 0, i 1, eq_ix2 i⟩
  refine shapeCast_apply v h (ix2 p u) (ix1 p) ?_
  have hu : u.val = 0 := by have := u.isLt; omega
  simp only [Shape.rowMajor_val_two, Shape.rowMajor_val_one]
  show p.val = p.val * 1 + u.val
  omega

/-- A one-column array broadcast across `b` columns, read at `(p, q)`. -/
theorem bcast_cols_read (c : Mat a 1) (h : (⟨2, ![a, 1]⟩ : Shape).BroadcastsInDim ⟨2, ![a, b]⟩ ![0, 1]) (p : Fin a) (q : Fin b) :
    broadcastInDim ⟨2, ![a, b]⟩ ![0, 1] h c (ix2 p q) = c (ix2 p (0 : Fin 1)) := by
  refine broadcastInDim_apply ![0, 1] h c (ix2 p q) (ix2 p (0 : Fin 1)) fun ax => ?_
  match ax with
  | ⟨0, _⟩ =>
    show p.val = if a = 1 then 0 else p.val
    split
    · have := p.isLt; omega
    · rfl
  | ⟨1, _⟩ => rfl

/-- "add the vector broadcast to a row and down the rows, then the maximum with the broadcast zero word" is `biasRelu`. -/
theorem host_biasRelu (x : Mat a b) (v : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1])
    (h0 : (⟨0, ![]⟩ : Shape).BroadcastsInDim ⟨2, ![a, b]⟩ ![]) :
    maximumf (F := Ideal) (φ := .f32) (addf x (broadcastInDim ⟨2, ![a, b]⟩ ![0, 1] h2 (broadcastInDim ⟨2, ![1, b]⟩ ![1] h1 v)))
      (broadcastInDim ⟨2, ![a, b]⟩ ![] h0 (constant (F := Ideal) ⟨0, ![]⟩ .f32 0x00000000#32)) = biasRelu x (rowVec v) := by
  funext i
  obtain ⟨p, q, rfl⟩ : ∃ (p : Fin a) (q : Fin b), i = ix2 p q := ⟨i 0, i 1, eq_ix2 i⟩
  rw [maximumf_apply, addf_apply, bcast_rows_apply, bcast_rowVec, bcast_scalar_apply, constant_apply, biasRelu_apply,
    Ideal.ofBits_zero_f32]

/-- "add the vector broadcast to a row and down the rows" is `addRow`. -/
theorem host_addRow (x : Mat a b) (v : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1]) :
    addf (F := Ideal) (φ := .f32) x (broadcastInDim ⟨2, ![a, b]⟩ ![0, 1] h2 (broadcastInDim ⟨2, ![1, b]⟩ ![1] h1 v))
      = addRow x (rowVec v) := by
  funext i
  obtain ⟨p, q, rfl⟩ : ∃ (p : Fin a) (q : Fin b), i = ix2 p q := ⟨i 0, i 1, eq_ix2 i⟩
  rw [addf_apply, bcast_rows_apply, bcast_rowVec, addRow_apply]

/-- "divide by the vector's maximum with a broadcast word, broadcast to a column and across the columns" is `rowQuot`. -/
theorem host_rowQuot (w : BitVec 32) (s : Mat a b) (n : (⟨1, ![a]⟩ : Shape).Idx → EReal)
    (h0 : (⟨0, ![]⟩ : Shape).BroadcastsInDim ⟨1, ![a]⟩ ![]) (h1 : (⟨1, ![a]⟩ : Shape).BroadcastsInDim ⟨2, ![a, 1]⟩ ![0])
    (h2 : (⟨2, ![a, 1]⟩ : Shape).BroadcastsInDim ⟨2, ![a, b]⟩ ![0, 1]) :
    Host.divf (F := Ideal) (φ := .f32) s (broadcastInDim ⟨2, ![a, b]⟩ ![0, 1] h2 (broadcastInDim ⟨2, ![a, 1]⟩ ![0] h1
        (maximumf (F := Ideal) (φ := .f32) n (broadcastInDim ⟨1, ![a]⟩ ![] h0 (constant (F := Ideal) ⟨0, ![]⟩ .f32 w)))))
      = rowQuot (Ideal.ofBits .f32 w) s (colVec n) := by
  funext i
  obtain ⟨p, q, rfl⟩ : ∃ (p : Fin a) (q : Fin b), i = ix2 p q := ⟨i 0, i 1, eq_ix2 i⟩
  show Ideal.div (s (ix2 p q)) _ = _
  rw [bcast_cols_read, bcast_colVec, colVec_apply, maximumf_apply, bcast_scalar_apply, constant_apply, rowQuot_apply, colVec_apply]

end Cert.Gcn

end
-- ==== Proof.LibHalves.lean ====
/-
  Two arrays laid side by side, and a block-diagonal matrix product, entry by entry.

  * A sum over `Fin N` with `N = n + n'` is the sum over the first `n` indices plus the sum over the last `n'`.
    If the second factor of every product vanishes on one of the two ranges, only the other range is left: on the
    extended reals `x · 0 = 0` for EVERY `x`, the infinities included, so nothing has to be finite.  This is what
    makes a product with a block-diagonal matrix the pair of the two small products.
  * A two-piece concatenation of `[a, b₁]` and `[a, b₂]` along the columns (or of `[a₁, b]` and `[a₂, b]` along the
    rows, or of two vectors) read at an index written by coordinates, and a slice of columns read the same way.
-/
import Idealize.ShloMosaic.Lib.ValueIdx
import Idealize.ShloMosaic.Lib.Pipeline.Value
import Idealize.ShloMosaic.PureOps.Ideal.Laws

noncomputable section

open scoped BigOperators

namespace Cert.Halves

open Idealize.ShloMosaic Idealize.ShloMosaic.ValueIdx

/-! ## Sums over two ranges -/

/-- A sum over `Fin N`, `N = n + n'`, split at `n`. -/
theorem sum_split {M : Type*} [AddCommMonoid M] {n n' N : ℕ} (h : n + n' = N) (f : Fin N → M) :
    ∑ k, f k = (∑ k : Fin n, f ⟨k.val, by omega⟩) + ∑ k : Fin n', f ⟨n + k.val, by omega⟩ := by
  subst h
  rw [Fin.sum_univ_add]
  rfl

/-- Products whose second factor vanishes past `n`: only the first `n` are left. -/
theorem sum_mul_low {n n' N : ℕ} (h : n + n' = N) (x w : Fin N → EReal) (hw : ∀ k : Fin N, n ≤ k.val → w k = 0) :
    ∑ k, x k * w k = ∑ k : Fin n, x ⟨k.val, by omega⟩ * w ⟨k.val, by omega⟩ := by
  rw [sum_split h]
  have : (∑ k : Fin n', x ⟨n + k.val, by omega⟩ * w ⟨n + k.val, by omega⟩) = 0 :=
    Finset.sum_eq_zero fun k _ => by rw [hw ⟨n + k.val, by omega⟩ (Nat.le_add_right _ _), mul_zero]
  rw [this, add_zero]

/-- Products whose second factor vanishes below `n`: only the last `n'` are left. -/
theorem sum_mul_high {n n' N : ℕ} (h : n + n' = N) (x w : Fin N → EReal) (hw : ∀ k : Fin N, k.val < n → w k = 0) :
    ∑ k, x k * w k = ∑ k : Fin n', x ⟨n + k.val, by omega⟩ * w ⟨n + k.val, by omega⟩ := by
  rw [sum_split h]
  have : (∑ k : Fin n, x ⟨k.val, by omega⟩ * w ⟨k.val, by omega⟩) = 0 :=
    Finset.sum_eq_zero fun k _ => by rw [hw ⟨k.val, by omega⟩ k.isLt, mul_zero]
  rw [this, zero_add]

/-! ## Two arrays side by side -/

variable {α : Type} {a a₁ a₂ b b₁ b₂ : ℕ}

/-- Columns: an entry in the first `b₁` columns is the first array's. -/
theorem concat_cols_left (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin 2)) (p : Fin a) (q : Fin b) (q₁ : Fin b₁)
    (hq : q₁.val = q.val) :
    concatenate ⟨2, ![a, b]⟩ (1 : Fin 2) [⟨⟨2, ![a, b₁]⟩, x₁⟩, ⟨⟨2, ![a, b₂]⟩, x₂⟩] h (ix2 p q) = x₁ (ix2 p q₁) :=
  concatenate_pair_apply_left (1 : Fin 2) x₁ x₂ h (ix2 p q) rfl (ix2 p q₁) (fun ax => by
    match ax with
    | ⟨0, _⟩ => rfl
    | ⟨1, _⟩ => exact hq)

/-- Columns: an entry past the first `b₁` columns is the second array's, `b₁` columns to the left. -/
theorem concat_cols_right (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin 2)) (p : Fin a) (q : Fin b) (q₂ : Fin b₂)
    (hq : q₂.val + b₁ = q.val) :
    concatenate ⟨2, ![a, b]⟩ (1 : Fin 2) [⟨⟨2, ![a, b₁]⟩, x₁⟩, ⟨⟨2, ![a, b₂]⟩, x₂⟩] h (ix2 p q) = x₂ (ix2 p q₂) :=
  concatenate_pair_apply_right (1 : Fin 2) x₁ x₂ h (ix2 p q) rfl rfl (ix2 p q₂) (fun ax hne => by
    match ax with
    | ⟨0, _⟩ => rfl
    | ⟨1, _⟩ => exact absurd rfl hne) (by exact hq)

/-- Rows: an entry in the first `a₁` rows is the first array's. -/
theorem concat_rows_left (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ (0 : Fin 2)) (p : Fin a) (q : Fin b) (p₁ : Fin a₁)
    (hp : p₁.val = p.val) :
    concatenate ⟨2, ![a, b]⟩ (0 : Fin 2) [⟨⟨2, ![a₁, b]⟩, x₁⟩, ⟨⟨2, ![a₂, b]⟩, x₂⟩] h (ix2 p q) = x₁ (ix2 p₁ q) :=
  concatenate_pair_apply_left (0 : Fin 2) x₁ x₂ h (ix2 p q) rfl (ix2 p₁ q) (fun ax => by
    match ax with
    | ⟨0, _⟩ => exact hp
    | ⟨1, _⟩ => rfl)

/-- Rows: an entry past the first `a₁` rows is the second array's, `a₁` rows up. -/
theorem concat_rows_right (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ (0 : Fin 2)) (p : Fin a) (q : Fin b) (p₂ : Fin a₂)
    (hp : p₂.val + a₁ = p.val) :
    concatenate ⟨2, ![a, b]⟩ (0 : Fin 2) [⟨⟨2, ![a₁, b]⟩, x₁⟩, ⟨⟨2, ![a₂, b]⟩, x₂⟩] h (ix2 p q) = x₂ (ix2 p₂ q) :=
  concatenate_pair_apply_right (0 : Fin 2) x₁ x₂ h (ix2 p q) rfl rfl (ix2 p₂ q) (fun ax hne => by
    match ax with
    | ⟨0, _⟩ => exact absurd rfl hne
    | ⟨1, _⟩ => rfl) (by exact hp)

/-- Two vectors end to end: an entry among the first `b₁` is the first vector's. -/
theorem concat_vec_left (x₁ : (⟨1, ![b₁]⟩ : Shape).Idx → α) (x₂ : (⟨1, ![b₂]⟩ : Shape).Idx → α)
    (h : Shape.Concatenates [⟨1, ![b₁]⟩, ⟨1, ![b₂]⟩] ⟨1, ![b]⟩ (0 : Fin 1)) (q : Fin b) (q₁ : Fin b₁) (hq : q₁.val = q.val) :
    concatenate ⟨1, ![b]⟩ (0 : Fin 1) [⟨⟨1, ![b₁]⟩, x₁⟩, ⟨⟨1, ![b₂]⟩, x₂⟩] h (ix1 q) = x₁ (ix1 q₁) :=
  concatenate_pair_apply_left (0 : Fin 1) x₁ x₂ h (ix1 q) rfl (ix1 q₁) (fun ax => by
    match ax with
    | ⟨0, _⟩ => exact hq)

/-- Two vectors end to end: an entry past the first `b₁` is the second vector's. -/
theorem concat_vec_right (x₁ : (⟨1, ![b₁]⟩ : Shape).Idx → α) (x₂ : (⟨1, ![b₂]⟩ : Shape).Idx → α)
    (h : Shape.Concatenates [⟨1, ![b₁]⟩, ⟨1, ![b₂]⟩] ⟨1, ![b]⟩ (0 : Fin 1)) (q : Fin b) (q₂ : Fin b₂) (hq : q₂.val + b₁ = q.val) :
    concatenate ⟨1, ![b]⟩ (0 : Fin 1) [⟨⟨1, ![b₁]⟩, x₁⟩, ⟨⟨1, ![b₂]⟩, x₂⟩] h (ix1 q) = x₂ (ix1 q₂) :=
  concatenate_pair_apply_right (0 : Fin 1) x₁ x₂ h (ix1 q) rfl rfl (ix1 q₂) (fun ax hne => by
    match ax with
    | ⟨0, _⟩ => exact absurd rfl hne) (by exact hq)

/-- A slice of columns `o … o + c − 1` of an `[a, b]` array read at `(p, q)`: the array at `(p, o + q)`. -/
theorem slice_cols_apply (o : ℕ) {c : ℕ} (x : (⟨2, ![a, b]⟩ : Shape).Idx → α)
    (h : (⟨2, ![a, b]⟩ : Shape).Slices ![0, o] ⟨2, ![a, c]⟩) (p : Fin a) (q : Fin c) (k : Fin b) (hk : k.val = o + q.val) :
    extractStridedSlice ⟨2, ![a, c]⟩ ![0, o] x h (ix2 p q) = x (ix2 p k) :=
  extractStridedSlice_apply _ _ _ _ _ (fun ax => by
    match ax with
    | ⟨0, _⟩ => exact (Nat.zero_add _).symm
    | ⟨1, _⟩ => exact hk)

/-- A one-row array broadcast over `a` rows (the accelerator's `vector.broadcast`), read at `(p, q)`. -/
theorem bcastTo_rows_apply (r : (⟨2, ![1, b]⟩ : Shape).Idx → α) (h : (⟨2, ![1, b]⟩ : Shape).Broadcasts ⟨2, ![a, b]⟩)
    (p : Fin a) (q : Fin b) : broadcastTo ⟨2, ![a, b]⟩ r h (ix2 p q) = r (ix2 (0 : Fin 1) q) :=
  broadcastTo_apply r h (ix2 p q) (ix2 (0 : Fin 1) q) (fun ax => by
    match ax with
    | ⟨0, _⟩ => rfl
    | ⟨1, _⟩ =>
      show q.val = if b = 1 then 0 else q.val
      split
      · have := q.isLt; omega
      · rfl)

end Cert.Halves

end
-- ==== Proof.LibThreeBlocks.lean ====
/-
  The two spellings of the dense stage are one function.

  One program multiplies the three Chebyshev terms `x0, x1, x2 : [n, 128]`, set side by side as `[n, 384]`, with the
  whole weight `w : [384, 128]`; the other multiplies each term with its own 128-row block of `w` and adds the three
  products.  Entry `(p, q)` of the first is `∑_{k < 384} cat(p,k) · w(k,q)`; cutting the range of `k` at 128 and 256
  turns it into the three sums `∑_{j < 128} x_t(p,j) · w(128 t + j, q)`, `t = 0, 1, 2`, which is entry `(p, q)` of the
  second.  Only that a sum over a range is the sum over its two parts, and that addition is associative, is used: both
  hold for all extended reals, so no entry has to be finite.  The bias (a vector broadcast to a row and down the rows
  on one side, recast as a one-row array and broadcast on the other) and the clamp at zero are the same on both sides.
-/
import proofs.«118433_j81398220194150_1_alg».proof.Proof.LibHostStages
import proofs.«118433_j81398220194150_1_alg».proof.Proof.LibHalves
import proofs.«118433_j81398220194150_1_alg».proof.Proof.LibDense3

noncomputable section

open scoped BigOperators

namespace Cert.Dense

open Idealize.ShloMosaic Idealize.ShloMosaic.ValueIdx Cert.LayerLaws Cert.Gcn Cert.Halves

variable {n : ℕ}

/-! ## Three arrays side by side, read at a column -/

section Concat
variable {α : Type} (x0 x1 x2 : (⟨2, ![n, 128]⟩ : Shape).Idx → α)
  (h : Shape.Concatenates [⟨2, ![n, 128]⟩, ⟨2, ![n, 128]⟩, ⟨2, ![n, 128]⟩] ⟨2, ![n, 384]⟩ (1 : Fin 2))

/-- Columns `0 … 127` are the first array's. -/
theorem cat3_left (p : Fin n) (j : Fin 128) (q : Fin 384) (hq : q.val = j.val) :
    concatenate ⟨2, ![n, 384]⟩ (1 : Fin 2) [⟨⟨2, ![n, 128]⟩, x0⟩, ⟨⟨2, ![n, 128]⟩, x1⟩, ⟨⟨2, ![n, 128]⟩, x2⟩] h (ix2 p q)
      = x0 (ix2 p j) :=
  concatenate_apply_piece (t := ⟨2, ![n, 384]⟩) (1 : Fin 2) [⟨⟨2, ![n, 128]⟩, x0⟩, ⟨⟨2, ![n, 128]⟩, x1⟩, ⟨⟨2, ![n, 128]⟩, x2⟩]
    (by simp only [List.map_cons, List.map_nil]; exact h) (ix2 p q) 0 (Nat.zero_lt_succ _) ⟨2, ![n, 128]⟩ x0 rfl rfl 0 rfl (ix2 p j)
    (fun b hb => by
      match b with
      | ⟨0, _⟩ => rfl
      | ⟨1, _⟩ => exact absurd rfl hb)
    (by show 0 + j.val = q.val; omega)

/-- Columns `128 … 255` are the second array's. -/
theorem cat3_mid (p : Fin n) (j : Fin 128) (q : Fin 384) (hq : q.val = 128 + j.val) :
    concatenate ⟨2, ![n, 384]⟩ (1 : Fin 2) [⟨⟨2, ![n, 128]⟩, x0⟩, ⟨⟨2, ![n, 128]⟩, x1⟩, ⟨⟨2, ![n, 128]⟩, x2⟩] h (ix2 p q)
      = x1 (ix2 p j) :=
  concatenate_apply_piece (t := ⟨2, ![n, 384]⟩) (1 : Fin 2) [⟨⟨2, ![n, 128]⟩, x0⟩, ⟨⟨2, ![n, 128]⟩, x1⟩, ⟨⟨2, ![n, 128]⟩, x2⟩]
    (by simp only [List.map_cons, List.map_nil]; exact h) (ix2 p q) 1 (Nat.succ_lt_succ (Nat.zero_lt_succ _)) ⟨2, ![n, 128]⟩ x1 rfl rfl 128 rfl (ix2 p j)
    (fun b hb => by
      match b with
      | ⟨0, _⟩ => rfl
      | ⟨1, _⟩ => exact absurd rfl hb)
    (by show 128 + j.val = q.val; omega)

/-- Columns `256 … 383` are the third array's. -/
theorem cat3_right (p : Fin n) (j : Fin 128) (q : Fin 384) (hq : q.val = 256 + j.val) :
    concatenate ⟨2, ![n, 384]⟩ (1 : Fin 2) [⟨⟨2, ![n, 128]⟩, x0⟩, ⟨⟨2, ![n, 128]⟩, x1⟩, ⟨⟨2, ![n, 128]⟩, x2⟩] h (ix2 p q)
      = x2 (ix2 p j) :=
  concatenate_apply_piece (t := ⟨2, ![n, 384]⟩) (1 : Fin 2) [⟨⟨2, ![n, 128]⟩, x0⟩, ⟨⟨2, ![n, 128]⟩, x1⟩, ⟨⟨2, ![n, 128]⟩, x2⟩]
    (by simp only [List.map_cons, List.map_nil]; exact h) (ix2 p q) 2 (Nat.succ_lt_succ (Nat.succ_lt_succ (Nat.zero_lt_succ _))) ⟨2, ![n, 128]⟩ x2 rfl rfl 256 rfl (ix2 p j)
    (fun b hb => by
      match b with
      | ⟨0, _⟩ => rfl
      | ⟨1, _⟩ => exact absurd rfl hb)
    (by show 256 + j.val = q.val; omega)

end Concat

/-! ## A block of 128 rows of the weight -/

/-- Rows `o … o + 127` of a `[384, 128]` array, read at `(j, q)`: the array at `(o + j, q)`. -/
theorem rows_block_apply (o : ℕ) (w : Mat 384 128) (hs : (⟨2, ![384, 128]⟩ : Shape).Slices ![o, 0] ⟨2, ![128, 128]⟩)
    (j q : Fin 128) (k : Fin 384) (hk : k.val = o + j.val) :
    extractStridedSlice ⟨2, ![128, 128]⟩ ![o, 0] w hs (ix2 j q) = w (ix2 k q) :=
  extractStridedSlice_apply _ _ _ _ _ (fun ax => by
    match ax with
    | ⟨0, _⟩ => exact hk
    | ⟨1, _⟩ => exact (Nat.zero_add _).symm)

/-! ## The sum over 384 columns is the three sums over 128 -/

/-- A sum over `Fin 384` cut at 128 and 256. -/
theorem sum_thirds {M : Type*} [AddCommMonoid M] (f : Fin 384 → M) :
    ∑ k, f k = ((∑ j : Fin 128, f ⟨j.val, by omega⟩) + ∑ j : Fin 128, f ⟨128 + j.val, by omega⟩)
      + ∑ j : Fin 128, f ⟨256 + j.val, by omega⟩ := by
  rw [sum_split (show 128 + 256 = 384 from rfl) f,
    sum_split (show 128 + 128 = 256 from rfl) (fun k : Fin 256 => f ⟨128 + k.val, by omega⟩), ← add_assoc]
  refine congrArg₂ (· + ·) rfl (Finset.sum_congr rfl fun j _ => congrArg f (Fin.ext ?_))
  show 128 + (128 + j.val) = 256 + j.val
  omega

/-- The product of the side-by-side array with the whole weight is the sum of the three products with its blocks. -/
theorem mm_cat3 (x0 x1 x2 : Mat n 128) (w : Mat 384 128)
    (h : Shape.Concatenates [⟨2, ![n, 128]⟩, ⟨2, ![n, 128]⟩, ⟨2, ![n, 128]⟩] ⟨2, ![n, 384]⟩ (1 : Fin 2))
    (hs0 : (⟨2, ![384, 128]⟩ : Shape).Slices ![0, 0] ⟨2, ![128, 128]⟩)
    (hs1 : (⟨2, ![384, 128]⟩ : Shape).Slices ![128, 0] ⟨2, ![128, 128]⟩)
    (hs2 : (⟨2, ![384, 128]⟩ : Shape).Slices ![256, 0] ⟨2, ![128, 128]⟩) :
    mm (concatenate ⟨2, ![n, 384]⟩ (1 : Fin 2) [⟨⟨2, ![n, 128]⟩, x0⟩, ⟨⟨2, ![n, 128]⟩, x1⟩, ⟨⟨2, ![n, 128]⟩, x2⟩] h) w
      = sum3 x0 x1 x2 (extractStridedSlice ⟨2, ![128, 128]⟩ ![0, 0] w hs0) (extractStridedSlice ⟨2, ![128, 128]⟩ ![128, 0] w hs1)
          (extractStridedSlice ⟨2, ![128, 128]⟩ ![256, 0] w hs2) := by
  funext i
  obtain ⟨p, q, rfl⟩ : ∃ (p : Fin n) (q : Fin 128), i = ix2 p q := ⟨i 0, i 1, eq_ix2 i⟩
  show mm _ w (ix2 p q) = (mm x0 _ (ix2 p q) + mm x1 _ (ix2 p q)) + mm x2 _ (ix2 p q)
  rw [mm_apply, mm_apply, mm_apply, mm_apply, sum_thirds]
  refine congrArg₂ (· + ·) (congrArg₂ (· + ·) ?_ ?_) ?_
  · exact Finset.sum_congr rfl fun j _ => by
      rw [cat3_left x0 x1 x2 h p j ⟨j.val, by omega⟩ rfl, rows_block_apply 0 w hs0 j q ⟨j.val, by omega⟩ (Nat.zero_add _).symm]
  · exact Finset.sum_congr rfl fun j _ => by
      rw [cat3_mid x0 x1 x2 h p j ⟨128 + j.val, by omega⟩ rfl, rows_block_apply 128 w hs1 j q ⟨128 + j.val, by omega⟩ rfl]
  · exact Finset.sum_congr rfl fun j _ => by
      rw [cat3_right x0 x1 x2 h p j ⟨256 + j.val, by omega⟩ rfl, rows_block_apply 256 w hs2 j q ⟨256 + j.val, by omega⟩ rfl]

/-! ## The dense stage, spelt with one product of the concatenation -/

/-- "concatenate, multiply with the whole weight, add the bias vector broadcast to a row and down the rows, take the
    maximum with the broadcast zero word" is the three-product dense stage over the weight's blocks and the bias row. -/
theorem dense_cat_eq (x0 x1 x2 : Mat n 128) (w : Mat 384 128) (bv : (⟨1, ![128]⟩ : Shape).Idx → EReal)
    (h : Shape.Concatenates [⟨2, ![n, 128]⟩, ⟨2, ![n, 128]⟩, ⟨2, ![n, 128]⟩] ⟨2, ![n, 384]⟩ (1 : Fin 2))
    {D : DotDims ⟨2, ![n, 384]⟩ ⟨2, ![384, 128]⟩ ⟨2, ![n, 128]⟩} (hD : Inner D)
    (h1 : (⟨1, ![128]⟩ : Shape).BroadcastsInDim ⟨2, ![1, 128]⟩ ![1])
    (h2 : (⟨2, ![1, 128]⟩ : Shape).BroadcastsInDim ⟨2, ![n, 128]⟩ ![0, 1])
    (h0 : (⟨0, ![]⟩ : Shape).BroadcastsInDim ⟨2, ![n, 128]⟩ ![])
    (hs0 : (⟨2, ![384, 128]⟩ : Shape).Slices ![0, 0] ⟨2, ![128, 128]⟩)
    (hs1 : (⟨2, ![384, 128]⟩ : Shape).Slices ![128, 0] ⟨2, ![128, 128]⟩)
    (hs2 : (⟨2, ![384, 128]⟩ : Shape).Slices ![256, 0] ⟨2, ![128, 128]⟩)
    (hc : (⟨1, ![128]⟩ : Shape).ShapeCasts ⟨2, ![1, 128]⟩) :
    maximumf (F := Ideal) (φ := .f32)
        (addf (Host.dotGeneral (F := Ideal) (φ₁ := .f32) (φ₂ := .f32) D none
            (concatenate ⟨2, ![n, 384]⟩ (1 : Fin 2) [⟨⟨2, ![n, 128]⟩, x0⟩, ⟨⟨2, ![n, 128]⟩, x1⟩, ⟨⟨2, ![n, 128]⟩, x2⟩] h) w)
          (broadcastInDim ⟨2, ![n, 128]⟩ ![0, 1] h2 (broadcastInDim ⟨2, ![1, 128]⟩ ![1] h1 bv)))
        (broadcastInDim ⟨2, ![n, 128]⟩ ![] h0 (constant (F := Ideal) ⟨0, ![]⟩ .f32 0x00000000#32))
      = dense3 x0 x1 x2 (extractStridedSlice ⟨2, ![128, 128]⟩ ![0, 0] w hs0) (extractStridedSlice ⟨2, ![128, 128]⟩ ![128, 0] w hs1)
          (extractStridedSlice ⟨2, ![128, 128]⟩ ![256, 0] w hs2) (shapeCast ⟨2, ![1, 128]⟩ bv hc) := by
  rw [host_biasRelu, show Host.dotGeneral (F := Ideal) (φ₁ := .f32) (φ₂ := .f32) D none _ w = mm _ w from dotGeneral_eq_mm hD .single _ w,
    mm_cat3 x0 x1 x2 w h hs0 hs1 hs2, shapeCast_rowVec]
  rfl

end Cert.Dense

end
-- ==== Proof.RefStages.lean ====
/-
  The reference program's dense stage, and that it is the three-product dense stage.

  The reference sets the three Chebyshev terms side by side, multiplies with the layer's whole weight, adds the bias
  vector (broadcast to a row and down the rows) and takes the maximum with zero.  By the splitting of the sum over the
  384 columns (the module on the three blocks of the weight) this is the dense stage over the weight's three 128-row blocks and the bias as a row.
-/
import proofs.«118433_j81398220194150_1_alg».proof.ReferenceIdeal
import proofs.«118433_j81398220194150_1_alg».proof.Proof.Gen.ReferenceIdeal
import proofs.«118433_j81398220194150_1_alg».proof.Proof.Gen.KernelIdeal
import proofs.«118433_j81398220194150_1_alg».proof.Proof.Stages
import proofs.«118433_j81398220194150_1_alg».proof.Proof.LibThreeBlocks

noncomputable section

namespace Cert.RefStages

open Idealize.ShloMosaic Idealize.ShloMosaic.ValueIdx Cert.ReferenceIdeal Cert.ReferenceIdeal.Facts₀ Cert.ReferenceIdeal.Facts
open Cert.Stages Cert.Dense Cert.Gcn

variable {F : FTy → Type} [FloatOps F]

/-- Concatenate the three terms by columns, multiply with the weight, add the bias to every row, clamp at zero. -/
def denseCat (x x1 x2 : T F S50000x128 .f32) (w : T F S384x128 .f32) (b : T F S128 .f32) : T F S50000x128 .f32 :=
  maximumf
    (addf
      (Host.dotGeneral dot_S50000x384_S384x128_S50000x128_1_0_0_1_n_n none
        (concatenate S50000x384 1 [⟨S50000x128, x⟩, ⟨S50000x128, x1⟩, ⟨S50000x128, x2⟩]
          concatenates_S50000x128_S50000x128_S50000x128_S50000x384_d1) w)
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-- The record of the reference's 384-wide product contracts the inner axis. -/
theorem inner384 : Inner dot_S50000x384_S384x128_S50000x128_1_0_0_1_n_n where
  rank := rfl
  size := rfl
  l0 := fun i q => by simp [DotDims.lhsIdx, dot_S50000x384_S384x128_S50000x128_1_0_0_1_n_n]; rfl
  l1 := fun i q => by simp [DotDims.lhsIdx, dot_S50000x384_S384x128_S50000x128_1_0_0_1_n_n]; rfl
  r0 := fun i q => by simp [DotDims.rhsIdx, dot_S50000x384_S384x128_S50000x128_1_0_0_1_n_n]; rfl
  r1 := fun i q => by simp [DotDims.rhsIdx, dot_S50000x384_S384x128_S50000x128_1_0_0_1_n_n]; rfl

/-- On the extended reals the reference's dense stage is the three-product dense stage over the weight's blocks. -/
theorem denseCat_eq (x x1 x2 : T Ideal S50000x128 .f32) (w : T Ideal S384x128 .f32) (b : T Ideal S128 .f32) :
    denseCat (F := Ideal) x x1 x2 w b = dense3 (n := 50000) x x1 x2 (wBlk0 w) (wBlk1 w) (wBlk2 w) (bRow b) :=
  dense_cat_eq (n := 50000) x x1 x2 w b concatenates_S50000x128_S50000x128_S50000x128_S50000x384_d1 inner384
    bcast_S128_S1x128_1 bcast_S1x128_S50000x128_0_1 bcast_S_S50000x128 _ _ _ _

end Cert.RefStages

end
-- ==== Proof.LibNary3.lean ====
import Idealize.ShloMosaic.Lib.StableHlo.Run

/-!
# A three-operand host operation's result, operand by operand

A host operation over a literal family of three references (a concatenate of three arrays) reads, in its result,
each operand's contents through the family: under that binder the reference is no literal. Stated with each
operand's contents at its own reference, and the family evaluated at its three positions, the reading of the
operands' contents can go on.
-/

noncomputable section

namespace Idealize.ShloMosaic.StableHlo

/-- The dependent triple (p, q, r) as a function of the position. -/
def vec3 {α : Fin 3 → Type} (p : α 0) (q : α 1) (r : α 2) : (k : Fin 3) → α k :=
  Fin.cons p (Fin.cons q (Fin.cons r (fun i => i.elim0)))

theorem vec3_zero {α : Fin 3 → Type} (p : α 0) (q : α 1) (r : α 2) : vec3 p q r 0 = p := rfl
theorem vec3_one {α : Fin 3 → Type} (p : α 0) (q : α 1) (r : α 2) : vec3 p q r 1 = q := rfl
theorem vec3_two {α : Fin 3 → Type} (p : α 0) (q : α 1) (r : α 2) : vec3 p q r 2 = r := rfl

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (vec3 (α := fun k => ((![x, a, b] : Fin 3 → Ref sig .tc) k).ty.Contents Val) (F (Proc.devRef .tc x)) (F (Proc.devRef .tc a)) (F (Proc.devRef .tc b))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (vec3 (α := fun k => ((![x, a, b] : Fin 3 → Ref sig .tc) k).ty.Contents Val) (F (Proc.devRef .tc x)) (F (Proc.devRef .tc a)) (F (Proc.devRef .tc b))) :=
  nary3_result f hxs hy F

/-- The one-pass reading of a straight line of host operations, with the three-operand form added. -/
macro "after_results_simp3" : tactic =>
  `(tactic| (simp (disch := decide) only [after_cons, after_nil,
      nullary_result', unary_result', binary_result', ternary_result', quaternary_result', reshape_result', nary3_result', nary4_result',
      vec3_zero, vec3_one, vec3_two,
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RRead0.lean ====
/-
  The reference program's host lines up to layer 0's dense stage, read at the buffers that stage reads.

  From launch contents `V` the lines compute both edge lists with the self loops appended, the degree column, the
  input features, the three Chebyshev terms of layer 0, and layer 0's weight and bias.  They are the same operations
  the kernel program runs there, so each buffer holds the stage function of that name; the arguments are not written.
-/
import proofs.«118433_j81398220194150_1_alg».proof.Proof.RefOps
import proofs.«118433_j81398220194150_1_alg».proof.Proof.RefStages
import proofs.«118433_j81398220194150_1_alg».proof.Proof.LibNary3

set_option maxRecDepth 16384

noncomputable section

namespace Cert.ReferenceIdeal.RefRead

open Idealize.ShloMosaic Idealize.ShloMosaic.TcCoe Idealize.ShloMosaic.StableHlo Cert.ReferenceIdeal Cert.ReferenceIdeal.RefRun Cert.Stages Cert.RefStages

variable {F : FTy → Type} [FloatOps F]

/-- The contents before layer 0's dense stage, from contents `V` at launch. -/
abbrev pre0 (V : Valuation τ sig (Elt F)) : Valuation τ sig (Elt F) := after opsA0b (after opsA0c (after opsA0 V))

/-- The inverse square-root degree column, from the destination list as launched. -/
abbrev dcol (V : Valuation τ sig (Elt F)) : T F S50000x1 .f32 := invSqrtDeg (degree (withLoops (V (Proc.devRef .tc main_arg2))))

theorem pre0_v1 (V : Valuation τ sig (Elt F)) : pre0 V (Proc.devRef .tc main_v1) = withLoops (V (Proc.devRef .tc main_arg1)) := by
  dsimp only [pre0, opsA0, opsA0c, opsA0b]; after_results_simp3; rfl

theorem pre0_v2 (V : Valuation τ sig (Elt F)) : pre0 V (Proc.devRef .tc main_v2) = withLoops (V (Proc.devRef .tc main_arg2)) := by
  dsimp only [pre0, opsA0, opsA0c, opsA0b]; after_results_simp3; rfl

theorem pre0_v10 (V : Valuation τ sig (Elt F)) : pre0 V (Proc.devRef .tc main_v10) = dcol V := by
  dsimp only [pre0, opsA0, opsA0c, opsA0b]; after_results_simp3; rfl

theorem pre0_v15 (V : Valuation τ sig (Elt F)) :
    pre0 V (Proc.devRef .tc main_v15) = feat (V (Proc.devRef .tc main_arg0)) (V (Proc.devRef .tc main_arg3)) (V (Proc.devRef .tc main_arg4)) := by
  dsimp only [pre0, opsA0, opsA0c, opsA0b]; after_results_simp3; rfl

theorem pre0_v38 (V : Valuation τ sig (Elt F)) :
    pre0 V (Proc.devRef .tc main_v38) = cheb1 (feat (V (Proc.devRef .tc main_arg0)) (V (Proc.devRef .tc main_arg3)) (V (Proc.devRef .tc main_arg4)))
      (withLoops (V (Proc.devRef .tc main_arg1))) (withLoops (V (Proc.devRef .tc main_arg2))) (dcol V) := by
  dsimp only [pre0, opsA0, opsA0c, opsA0b]; after_results_simp3; rfl

theorem pre0_v58 (V : Valuation τ sig (Elt F)) :
    pre0 V (Proc.devRef .tc main_v58) = cheb2 (feat (V (Proc.devRef .tc main_arg0)) (V (Proc.devRef .tc main_arg3)) (V (Proc.devRef .tc main_arg4)))
      (cheb1 (feat (V (Proc.devRef .tc main_arg0)) (V (Proc.devRef .tc main_arg3)) (V (Proc.devRef .tc main_arg4)))
        (withLoops (V (Proc.devRef .tc main_arg1))) (withLoops (V (Proc.devRef .tc main_arg2))) (dcol V))
      (withLoops (V (Proc.devRef .tc main_arg1))) (withLoops (V (Proc.devRef .tc main_arg2))) (dcol V) := by
  dsimp only [pre0, opsA0, opsA0c, opsA0b]; after_results_simp3; rfl

theorem pre0_w (V : Valuation τ sig (Elt F)) : pre0 V (Proc.devRef .tc main_v17) = wSel0 (V (Proc.devRef .tc main_arg5)) := by
  dsimp only [pre0, opsA0, opsA0c, opsA0b]; after_results_simp3; rfl

theorem pre0_b (V : Valuation τ sig (Elt F)) : pre0 V (Proc.devRef .tc main_v19) = bSel0 (V (Proc.devRef .tc main_arg6)) := by
  dsimp only [pre0, opsA0, opsA0c, opsA0b]; after_results_simp3; rfl

theorem pre0_keep_arg5 (V : Valuation τ sig (Elt F)) : pre0 V (Proc.devRef .tc main_arg5) = V (Proc.devRef .tc main_arg5) := by
  dsimp only [pre0, opsA0, opsA0c, opsA0b]; after_results_simp3

theorem pre0_keep_arg6 (V : Valuation τ sig (Elt F)) : pre0 V (Proc.devRef .tc main_arg6) = V (Proc.devRef .tc main_arg6) := by
  dsimp only [pre0, opsA0, opsA0c, opsA0b]; after_results_simp3

theorem pre0_keep_arg7 (V : Valuation τ sig (Elt F)) : pre0 V (Proc.devRef .tc main_arg7) = V (Proc.devRef .tc main_arg7) := by
  dsimp only [pre0, opsA0, opsA0c, opsA0b]; after_results_simp3

theorem pre0_keep_arg8 (V : Valuation τ sig (Elt F)) : pre0 V (Proc.devRef .tc main_arg8) = V (Proc.devRef .tc main_arg8) := by
  dsimp only [pre0, opsA0, opsA0c, opsA0b]; after_results_simp3

/-- The output layer's lines, read at the result. -/
theorem tail_v168 (V : Valuation τ sig (Elt F)) :
    after opsT V (Proc.devRef .tc main_v168) = outLayer (V (Proc.devRef .tc main_v164)) (V (Proc.devRef .tc main_arg7)) (V (Proc.devRef .tc main_arg8)) := by
  dsimp only [opsT]; after_results_simp3; rfl

end Cert.ReferenceIdeal.RefRead

end
-- ==== Proof.RRead1.lean ====
/-
  The reference program's host lines between the dense stages of layers 0 and 1, read at the buffers the next dense
  stage reads: the leaky rectifier of the previous stage's output, the three Chebyshev terms of layer 1 from it, and
  layer 1's weight and bias.  The edge lists, the degree column and the arguments are not written.
-/
import proofs.«118433_j81398220194150_1_alg».proof.Proof.RefOps
import proofs.«118433_j81398220194150_1_alg».proof.Proof.RefStages
import proofs.«118433_j81398220194150_1_alg».proof.Proof.LibNary3

set_option maxRecDepth 16384

noncomputable section

namespace Cert.ReferenceIdeal.RefRead

open Idealize.ShloMosaic Idealize.ShloMosaic.TcCoe Idealize.ShloMosaic.StableHlo Cert.ReferenceIdeal Cert.ReferenceIdeal.RefRun Cert.Stages Cert.RefStages

variable {F : FTy → Type} [FloatOps F]

/-- The contents before layer 1's dense stage, from contents `V` after the previous one. -/
abbrev pre1 (V : Valuation τ sig (Elt F)) : Valuation τ sig (Elt F) := after opsA1b (after opsA1c (after opsA1 V))

theorem pre1_x (V : Valuation τ sig (Elt F)) : pre1 V (Proc.devRef .tc main_v65) = leaky (V (Proc.devRef .tc main_v64)) := by
  dsimp only [pre1, opsA1, opsA1c, opsA1b]; after_results_simp3; rfl

theorem pre1_x1 (V : Valuation τ sig (Elt F)) :
    pre1 V (Proc.devRef .tc main_v88) = cheb1 (leaky (V (Proc.devRef .tc main_v64))) (V (Proc.devRef .tc main_v1)) (V (Proc.devRef .tc main_v2)) (V (Proc.devRef .tc main_v10)) := by
  dsimp only [pre1, opsA1, opsA1c, opsA1b]; after_results_simp3; rfl

theorem pre1_x2 (V : Valuation τ sig (Elt F)) :
    pre1 V (Proc.devRef .tc main_v108) = cheb2 (leaky (V (Proc.devRef .tc main_v64)))
      (cheb1 (leaky (V (Proc.devRef .tc main_v64))) (V (Proc.devRef .tc main_v1)) (V (Proc.devRef .tc main_v2)) (V (Proc.devRef .tc main_v10)))
      (V (Proc.devRef .tc main_v1)) (V (Proc.devRef .tc main_v2)) (V (Proc.devRef .tc main_v10)) := by
  dsimp only [pre1, opsA1, opsA1c, opsA1b]; after_results_simp3; rfl

theorem pre1_w (V : Valuation τ sig (Elt F)) : pre1 V (Proc.devRef .tc main_v67) = wSel1 (V (Proc.devRef .tc main_arg5)) := by
  dsimp only [pre1, opsA1, opsA1c, opsA1b]; after_results_simp3; rfl

theorem pre1_b (V : Valuation τ sig (Elt F)) : pre1 V (Proc.devRef .tc main_v69) = bSel1 (V (Proc.devRef .tc main_arg6)) := by
  dsimp only [pre1, opsA1, opsA1c, opsA1b]; after_results_simp3; rfl

theorem pre1_keep_v1 (V : Valuation τ sig (Elt F)) : pre1 V (Proc.devRef .tc main_v1) = V (Proc.devRef .tc main_v1) := by
  dsimp only [pre1, opsA1, opsA1c, opsA1b]; after_results_simp3

theorem pre1_keep_v2 (V : Valuation τ sig (Elt F)) : pre1 V (Proc.devRef .tc main_v2) = V (Proc.devRef .tc main_v2) := by
  dsimp only [pre1, opsA1, opsA1c, opsA1b]; after_results_simp3

theorem pre1_keep_v10 (V : Valuation τ sig (Elt F)) : pre1 V (Proc.devRef .tc main_v10) = V (Proc.devRef .tc main_v10) := by
  dsimp only [pre1, opsA1, opsA1c, opsA1b]; after_results_simp3

theorem pre1_keep_arg5 (V : Valuation τ sig (Elt F)) : pre1 V (Proc.devRef .tc main_arg5) = V (Proc.devRef .tc main_arg5) := by
  dsimp only [pre1, opsA1, opsA1c, opsA1b]; after_results_simp3

theorem pre1_keep_arg6 (V : Valuation τ sig (Elt F)) : pre1 V (Proc.devRef .tc main_arg6) = V (Proc.devRef .tc main_arg6) := by
  dsimp only [pre1, opsA1, opsA1c, opsA1b]; after_results_simp3

theorem pre1_keep_arg7 (V : Valuation τ sig (Elt F)) : pre1 V (Proc.devRef .tc main_arg7) = V (Proc.devRef .tc main_arg7) := by
  dsimp only [pre1, opsA1, opsA1c, opsA1b]; after_results_simp3

theorem pre1_keep_arg8 (V : Valuation τ sig (Elt F)) : pre1 V (Proc.devRef .tc main_arg8) = V (Proc.devRef .tc main_arg8) := by
  dsimp only [pre1, opsA1, opsA1c, opsA1b]; after_results_simp3

end Cert.ReferenceIdeal.RefRead

end
-- ==== Proof.RRead2.lean ====
/-
  The reference program's host lines between the dense stages of layers 1 and 2, read at the buffers the next dense
  stage reads: the leaky rectifier of the previous stage's output, the three Chebyshev terms of layer 2 from it, and
  layer 2's weight and bias.  The edge lists, the degree column and the arguments are not written.
-/
import proofs.«118433_j81398220194150_1_alg».proof.Proof.RefOps
import proofs.«118433_j81398220194150_1_alg».proof.Proof.RefStages
import proofs.«118433_j81398220194150_1_alg».proof.Proof.LibNary3

set_option maxRecDepth 16384

noncomputable section

namespace Cert.ReferenceIdeal.RefRead

open Idealize.ShloMosaic Idealize.ShloMosaic.TcCoe Idealize.ShloMosaic.StableHlo Cert.ReferenceIdeal Cert.ReferenceIdeal.RefRun Cert.Stages Cert.RefStages

variable {F : FTy → Type} [FloatOps F]

/-- The contents before layer 2's dense stage, from contents `V` after the previous one. -/
abbrev pre2 (V : Valuation τ sig (Elt F)) : Valuation τ sig (Elt F) := after opsA2b (after opsA2c (after opsA2 V))

theorem pre2_x (V : Valuation τ sig (Elt F)) : pre2 V (Proc.devRef .tc main_v115) = leaky (V (Proc.devRef .tc main_v114)) := by
  dsimp only [pre2, opsA2, opsA2c, opsA2b]; after_results_simp3; rfl

theorem pre2_x1 (V : Valuation τ sig (Elt F)) :
    pre2 V (Proc.devRef .tc main_v138) = cheb1 (leaky (V (Proc.devRef .tc main_v114))) (V (Proc.devRef .tc main_v1)) (V (Proc.devRef .tc main_v2)) (V (Proc.devRef .tc main_v10)) := by
  dsimp only [pre2, opsA2, opsA2c, opsA2b]; after_results_simp3; rfl

theorem pre2_x2 (V : Valuation τ sig (Elt F)) :
    pre2 V (Proc.devRef .tc main_v158) = cheb2 (leaky (V (Proc.devRef .tc main_v114)))
      (cheb1 (leaky (V (Proc.devRef .tc main_v114))) (V (Proc.devRef .tc main_v1)) (V (Proc.devRef .tc main_v2)) (V (Proc.devRef .tc main_v10)))
      (V (Proc.devRef .tc main_v1)) (V (Proc.devRef .tc main_v2)) (V (Proc.devRef .tc main_v10)) := by
  dsimp only [pre2, opsA2, opsA2c, opsA2b]; after_results_simp3; rfl

theorem pre2_w (V : Valuation τ sig (Elt F)) : pre2 V (Proc.devRef .tc main_v117) = wSel2 (V (Proc.devRef .tc main_arg5)) := by
  dsimp only [pre2, opsA2, opsA2c, opsA2b]; after_results_simp3; rfl

theorem pre2_b (V : Valuation τ sig (Elt F)) : pre2 V (Proc.devRef .tc main_v119) = bSel2 (V (Proc.devRef .tc main_arg6)) := by
  dsimp only [pre2, opsA2, opsA2c, opsA2b]; after_results_simp3; rfl

theorem pre2_keep_v1 (V : Valuation τ sig (Elt F)) : pre2 V (Proc.devRef .tc main_v1) = V (Proc.devRef .tc main_v1) := by
  dsimp only [pre2, opsA2, opsA2c, opsA2b]; after_results_simp3

theorem pre2_keep_v2 (V : Valuation τ sig (Elt F)) : pre2 V (Proc.devRef .tc main_v2) = V (Proc.devRef .tc main_v2) := by
  dsimp only [pre2, opsA2, opsA2c, opsA2b]; after_results_simp3

theorem pre2_keep_v10 (V : Valuation τ sig (Elt F)) : pre2 V (Proc.devRef .tc main_v10) = V (Proc.devRef .tc main_v10) := by
  dsimp only [pre2, opsA2, opsA2c, opsA2b]; after_results_simp3

theorem pre2_keep_arg5 (V : Valuation τ sig (Elt F)) : pre2 V (Proc.devRef .tc main_arg5) = V (Proc.devRef .tc main_arg5) := by
  dsimp only [pre2, opsA2, opsA2c, opsA2b]; after_results_simp3

theorem pre2_keep_arg6 (V : Valuation τ sig (Elt F)) : pre2 V (Proc.devRef .tc main_arg6) = V (Proc.devRef .tc main_arg6) := by
  dsimp only [pre2, opsA2, opsA2c, opsA2b]; after_results_simp3

theorem pre2_keep_arg7 (V : Valuation τ sig (Elt F)) : pre2 V (Proc.devRef .tc main_arg7) = V (Proc.devRef .tc main_arg7) := by
  dsimp only [pre2, opsA2, opsA2c, opsA2b]; after_results_simp3

theorem pre2_keep_arg8 (V : Valuation τ sig (Elt F)) : pre2 V (Proc.devRef .tc main_arg8) = V (Proc.devRef .tc main_arg8) := by
  dsimp only [pre2, opsA2, opsA2c, opsA2b]; after_results_simp3

end Cert.ReferenceIdeal.RefRead

end
-- ==== Proof.RReadD.lean ====
/-
  The reference program's three dense stages, each read at its output: the concatenation by columns, the product
  with the layer's weight, the bias added to every row and the clamp at zero are `denseCat` of the five buffers the
  stage reads; the edge lists, the degree column and the arguments are not written.
-/
import proofs.«118433_j81398220194150_1_alg».proof.Proof.RefOps
import proofs.«118433_j81398220194150_1_alg».proof.Proof.RefStages
import proofs.«118433_j81398220194150_1_alg».proof.Proof.LibNary3

set_option maxRecDepth 16384

noncomputable section

namespace Cert.ReferenceIdeal.RefRead

open Idealize.ShloMosaic Idealize.ShloMosaic.TcCoe Idealize.ShloMosaic.StableHlo Cert.ReferenceIdeal Cert.ReferenceIdeal.RefRun Cert.Stages Cert.RefStages

variable {F : FTy → Type} [FloatOps F]

theorem dense0_out (V : Valuation τ sig (Elt F)) :
    after opsD0 V (Proc.devRef .tc main_v64) = denseCat (V (Proc.devRef .tc main_v15)) (V (Proc.devRef .tc main_v38)) (V (Proc.devRef .tc main_v58)) (V (Proc.devRef .tc main_v17)) (V (Proc.devRef .tc main_v19)) := by
  dsimp only [opsD0]; after_results_simp3; rfl

theorem dense0_keep_v1 (V : Valuation τ sig (Elt F)) : after opsD0 V (Proc.devRef .tc main_v1) = V (Proc.devRef .tc main_v1) := by
  dsimp only [opsD0]; after_results_simp3

theorem dense0_keep_v2 (V : Valuation τ sig (Elt F)) : after opsD0 V (Proc.devRef .tc main_v2) = V (Proc.devRef .tc main_v2) := by
  dsimp only [opsD0]; after_results_simp3

theorem dense0_keep_v10 (V : Valuation τ sig (Elt F)) : after opsD0 V (Proc.devRef .tc main_v10) = V (Proc.devRef .tc main_v10) := by
  dsimp only [opsD0]; after_results_simp3

theorem dense0_keep_arg5 (V : Valuation τ sig (Elt F)) : after opsD0 V (Proc.devRef .tc main_arg5) = V (Proc.devRef .tc main_arg5) := by
  dsimp only [opsD0]; after_results_simp3

theorem dense0_keep_arg6 (V : Valuation τ sig (Elt F)) : after opsD0 V (Proc.devRef .tc main_arg6) = V (Proc.devRef .tc main_arg6) := by
  dsimp only [opsD0]; after_results_simp3

theorem dense0_keep_arg7 (V : Valuation τ sig (Elt F)) : after opsD0 V (Proc.devRef .tc main_arg7) = V (Proc.devRef .tc main_arg7) := by
  dsimp only [opsD0]; after_results_simp3

theorem dense0_keep_arg8 (V : Valuation τ sig (Elt F)) : after opsD0 V (Proc.devRef .tc main_arg8) = V (Proc.devRef .tc main_arg8) := by
  dsimp only [opsD0]; after_results_simp3

theorem dense1_out (V : Valuation τ sig (Elt F)) :
    after opsD1 V (Proc.devRef .tc main_v114) = denseCat (V (Proc.devRef .tc main_v65)) (V (Proc.devRef .tc main_v88)) (V (Proc.devRef .tc main_v108)) (V (Proc.devRef .tc main_v67)) (V (Proc.devRef .tc main_v69)) := by
  dsimp only [opsD1]; after_results_simp3; rfl

theorem dense1_keep_v1 (V : Valuation τ sig (Elt F)) : after opsD1 V (Proc.devRef .tc main_v1) = V (Proc.devRef .tc main_v1) := by
  dsimp only [opsD1]; after_results_simp3

theorem dense1_keep_v2 (V : Valuation τ sig (Elt F)) : after opsD1 V (Proc.devRef .tc main_v2) = V (Proc.devRef .tc main_v2) := by
  dsimp only [opsD1]; after_results_simp3

theorem dense1_keep_v10 (V : Valuation τ sig (Elt F)) : after opsD1 V (Proc.devRef .tc main_v10) = V (Proc.devRef .tc main_v10) := by
  dsimp only [opsD1]; after_results_simp3

theorem dense1_keep_arg5 (V : Valuation τ sig (Elt F)) : after opsD1 V (Proc.devRef .tc main_arg5) = V (Proc.devRef .tc main_arg5) := by
  dsimp only [opsD1]; after_results_simp3

theorem dense1_keep_arg6 (V : Valuation τ sig (Elt F)) : after opsD1 V (Proc.devRef .tc main_arg6) = V (Proc.devRef .tc main_arg6) := by
  dsimp only [opsD1]; after_results_simp3

theorem dense1_keep_arg7 (V : Valuation τ sig (Elt F)) : after opsD1 V (Proc.devRef .tc main_arg7) = V (Proc.devRef .tc main_arg7) := by
  dsimp only [opsD1]; after_results_simp3

theorem dense1_keep_arg8 (V : Valuation τ sig (Elt F)) : after opsD1 V (Proc.devRef .tc main_arg8) = V (Proc.devRef .tc main_arg8) := by
  dsimp only [opsD1]; after_results_simp3

theorem dense2_out (V : Valuation τ sig (Elt F)) :
    after opsD2 V (Proc.devRef .tc main_v164) = denseCat (V (Proc.devRef .tc main_v115)) (V (Proc.devRef .tc main_v138)) (V (Proc.devRef .tc main_v158)) (V (Proc.devRef .tc main_v117)) (V (Proc.devRef .tc main_v119)) := by
  dsimp only [opsD2]; after_results_simp3; rfl

theorem dense2_keep_v1 (V : Valuation τ sig (Elt F)) : after opsD2 V (Proc.devRef .tc main_v1) = V (Proc.devRef .tc main_v1) := by
  dsimp only [opsD2]; after_results_simp3

theorem dense2_keep_v2 (V : Valuation τ sig (Elt F)) : after opsD2 V (Proc.devRef .tc main_v2) = V (Proc.devRef .tc main_v2) := by
  dsimp only [opsD2]; after_results_simp3

theorem dense2_keep_v10 (V : Valuation τ sig (Elt F)) : after opsD2 V (Proc.devRef .tc main_v10) = V (Proc.devRef .tc main_v10) := by
  dsimp only [opsD2]; after_results_simp3

theorem dense2_keep_arg5 (V : Valuation τ sig (Elt F)) : after opsD2 V (Proc.devRef .tc main_arg5) = V (Proc.devRef .tc main_arg5) := by
  dsimp only [opsD2]; after_results_simp3

theorem dense2_keep_arg6 (V : Valuation τ sig (Elt F)) : after opsD2 V (Proc.devRef .tc main_arg6) = V (Proc.devRef .tc main_arg6) := by
  dsimp only [opsD2]; after_results_simp3

theorem dense2_keep_arg7 (V : Valuation τ sig (Elt F)) : after opsD2 V (Proc.devRef .tc main_arg7) = V (Proc.devRef .tc main_arg7) := by
  dsimp only [opsD2]; after_results_simp3

theorem dense2_keep_arg8 (V : Valuation τ sig (Elt F)) : after opsD2 V (Proc.devRef .tc main_arg8) = V (Proc.devRef .tc main_arg8) := by
  dsimp only [opsD2]; after_results_simp3

end Cert.ReferenceIdeal.RefRead

end
-- ==== Proof.RValue.lean ====
/-
  The reference program's result as the network function of the arguments.

  The fold of @main's line over the launch contents is followed boundary by boundary.  The lines before layer 0's
  dense stage leave the three Chebyshev terms of the input features, the layer's weight and bias, both edge lists with
  the self loops and the degree column; the dense stage, read as the concatenated product, is on the extended reals
  the three-product dense stage over the weight's blocks; the next lines apply the leaky rectifier and form layer 1's
  terms from it with the same edge lists and degree column; and so on through layer 2, after which the output
  layer's lines give the result.  At every boundary the buffers that matter hold stage functions of the arguments as
  launched, so the result is the network function.  No line writes an argument.
-/
import proofs.«118433_j81398220194150_1_alg».proof.Proof.RefOps
import proofs.«118433_j81398220194150_1_alg».proof.Proof.RKeep
import proofs.«118433_j81398220194150_1_alg».proof.Proof.RRead0
import proofs.«118433_j81398220194150_1_alg».proof.Proof.RRead1
import proofs.«118433_j81398220194150_1_alg».proof.Proof.RRead2
import proofs.«118433_j81398220194150_1_alg».proof.Proof.RReadD
import proofs.«118433_j81398220194150_1_alg».proof.Proof.RefStages
import proofs.«118433_j81398220194150_1_alg».proof.Proof.Net

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.RefRun Cert.ReferenceIdeal.RefRead Cert.ReferenceIdeal.RefKeep
open Cert.Stages Cert.RefStages Cert.Net Cert.Dense

variable (V : Valuation τ sig (Elt Ideal))

/-! ## The arguments as launched, and the stages they determine -/

/-- The edge sources with the self loops. -/
abbrev I1 : T Ideal S650000 .i32 := withLoops (V (Proc.devRef .tc main_arg1))
/-- The edge destinations with the self loops. -/
abbrev I2 : T Ideal S650000 .i32 := withLoops (V (Proc.devRef .tc main_arg2))
/-- The inverse square-root degree column. -/
abbrev Dg : T Ideal S50000x1 .f32 := invSqrtDeg (degree (I2 V))
/-- Layer 0's output. -/
abbrev H1 : T Ideal S50000x128 .f32 :=
  layer (feat (V (Proc.devRef .tc main_arg0)) (V (Proc.devRef .tc main_arg3)) (V (Proc.devRef .tc main_arg4))) (I1 V) (I2 V) (Dg V) (wSel0 (V (Proc.devRef .tc main_arg5))) (bSel0 (V (Proc.devRef .tc main_arg6)))
/-- Layer 1's output. -/
abbrev H2 : T Ideal S50000x128 .f32 :=
  layer (leaky (H1 V)) (I1 V) (I2 V) (Dg V) (wSel1 (V (Proc.devRef .tc main_arg5))) (bSel1 (V (Proc.devRef .tc main_arg6)))
/-- Layer 2's output. -/
abbrev H3 : T Ideal S50000x128 .f32 :=
  layer (leaky (H2 V)) (I1 V) (I2 V) (Dg V) (wSel2 (V (Proc.devRef .tc main_arg5))) (bSel2 (V (Proc.devRef .tc main_arg6)))

/-! ## The boundaries -/

/-- The contents after layer 0's dense stage. -/
abbrev C0 : Valuation τ sig (Elt Ideal) := after opsD0 (pre0 V)
/-- The contents after layer 1's dense stage. -/
abbrev C1 : Valuation τ sig (Elt Ideal) := after opsD1 (pre1 (C0 V))
/-- The contents after layer 2's dense stage. -/
abbrev C2 : Valuation τ sig (Elt Ideal) := after opsD2 (pre2 (C1 V))

/-- The whole fold is the output layer's lines from the contents after layer 2's dense stage. -/
theorem after_ops_eq : after ops V = after opsT (C2 V) := after_ops V

/-! ## After layer 0's dense stage -/

theorem c0_out : C0 V (Proc.devRef .tc main_v64) = H1 V := by
  refine (dense0_out (pre0 V)).trans ?_
  rw [pre0_v15, pre0_v38, pre0_v58, pre0_w, pre0_b, denseCat_eq]
  rfl

theorem c0_i1 : C0 V (Proc.devRef .tc main_v1) = I1 V := (dense0_keep_v1 _).trans (pre0_v1 V)
theorem c0_i2 : C0 V (Proc.devRef .tc main_v2) = I2 V := (dense0_keep_v2 _).trans (pre0_v2 V)
theorem c0_d : C0 V (Proc.devRef .tc main_v10) = Dg V := (dense0_keep_v10 _).trans (pre0_v10 V)
theorem c0_a5 : C0 V (Proc.devRef .tc main_arg5) = V (Proc.devRef .tc main_arg5) := (dense0_keep_arg5 _).trans (pre0_keep_arg5 V)
theorem c0_a6 : C0 V (Proc.devRef .tc main_arg6) = V (Proc.devRef .tc main_arg6) := (dense0_keep_arg6 _).trans (pre0_keep_arg6 V)
theorem c0_a7 : C0 V (Proc.devRef .tc main_arg7) = V (Proc.devRef .tc main_arg7) := (dense0_keep_arg7 _).trans (pre0_keep_arg7 V)
theorem c0_a8 : C0 V (Proc.devRef .tc main_arg8) = V (Proc.devRef .tc main_arg8) := (dense0_keep_arg8 _).trans (pre0_keep_arg8 V)

/-! ## After layer 1's dense stage -/

theorem c1_out : C1 V (Proc.devRef .tc main_v114) = H2 V := by
  refine (dense1_out (pre1 (C0 V))).trans ?_
  rw [pre1_x, pre1_x1, pre1_x2, pre1_w, pre1_b, c0_out, c0_i1, c0_i2, c0_d, c0_a5, c0_a6, denseCat_eq]
  rfl

theorem c1_i1 : C1 V (Proc.devRef .tc main_v1) = I1 V := (dense1_keep_v1 _).trans ((pre1_keep_v1 _).trans (c0_i1 V))
theorem c1_i2 : C1 V (Proc.devRef .tc main_v2) = I2 V := (dense1_keep_v2 _).trans ((pre1_keep_v2 _).trans (c0_i2 V))
theorem c1_d : C1 V (Proc.devRef .tc main_v10) = Dg V := (dense1_keep_v10 _).trans ((pre1_keep_v10 _).trans (c0_d V))
theorem c1_a5 : C1 V (Proc.devRef .tc main_arg5) = V (Proc.devRef .tc main_arg5) := (dense1_keep_arg5 _).trans ((pre1_keep_arg5 _).trans (c0_a5 V))
theorem c1_a6 : C1 V (Proc.devRef .tc main_arg6) = V (Proc.devRef .tc main_arg6) := (dense1_keep_arg6 _).trans ((pre1_keep_arg6 _).trans (c0_a6 V))
theorem c1_a7 : C1 V (Proc.devRef .tc main_arg7) = V (Proc.devRef .tc main_arg7) := (dense1_keep_arg7 _).trans ((pre1_keep_arg7 _).trans (c0_a7 V))
theorem c1_a8 : C1 V (Proc.devRef .tc main_arg8) = V (Proc.devRef .tc main_arg8) := (dense1_keep_arg8 _).trans ((pre1_keep_arg8 _).trans (c0_a8 V))

/-! ## After layer 2's dense stage -/

theorem c2_out : C2 V (Proc.devRef .tc main_v164) = H3 V := by
  refine (dense2_out (pre2 (C1 V))).trans ?_
  rw [pre2_x, pre2_x1, pre2_x2, pre2_w, pre2_b, c1_out, c1_i1, c1_i2, c1_d, c1_a5, c1_a6, denseCat_eq]
  rfl

theorem c2_a7 : C2 V (Proc.devRef .tc main_arg7) = V (Proc.devRef .tc main_arg7) := (dense2_keep_arg7 _).trans ((pre2_keep_arg7 _).trans (c1_a7 V))
theorem c2_a8 : C2 V (Proc.devRef .tc main_arg8) = V (Proc.devRef .tc main_arg8) := (dense2_keep_arg8 _).trans ((pre2_keep_arg8 _).trans (c1_a8 V))

/-! ## The result -/

/-- The fold's contents at the result buffer are the network function of the arguments as launched. -/
theorem result_eq : after ops V (Proc.devRef .tc main_v168)
    = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops_eq]
  refine (tail_v168 (C2 V)).trans ?_
  rw [c2_out, c2_a7, c2_a8]
  rfl

/-! ## The arguments -/

theorem keep_arg0 : after ops V (Proc.devRef .tc main_arg0) = V (Proc.devRef .tc main_arg0) :=
  keep_of_not_written main_arg0 (by decide) (by decide) (by decide) (by decide) (by decide) (by decide) (by decide) (by decide) (by decide) (by decide) (by decide) (by decide) (by decide) V
theorem keep_arg1 : after ops V (Proc.devRef .tc main_arg1) = V (Proc.devRef .tc main_arg1) :=
  keep_of_not_written main_arg1 (by decide) (by decide) (by decide) (by decide) (by decide) (by decide) (by decide) (by decide) (by decide) (by decide) (by decide) (by decide) (by decide) V
theorem keep_arg2 : after ops V (Proc.devRef .tc main_arg2) = V (Proc.devRef .tc main_arg2) :=
  keep_of_not_written main_arg2 (by decide) (by decide) (by decide) (by decide) (by decide) (by decide) (by decide) (by decide) (by decide) (by decide) (by decide) (by decide) (by decide) V
theorem keep_arg3 : after ops V (Proc.devRef .tc main_arg3) = V (Proc.devRef .tc main_arg3) :=
  keep_of_not_written main_arg3 (by decide) (by decide) (by decide) (by decide) (by decide) (by decide) (by decide) (by decide) (by decide) (by decide) (by decide) (by decide) (by decide) V
theorem keep_arg4 : after ops V (Proc.devRef .tc main_arg4) = V (Proc.devRef .tc main_arg4) :=
  keep_of_not_written main_arg4 (by decide) (by decide) (by decide) (by decide) (by decide) (by decide) (by decide) (by decide) (by decide) (by decide) (by decide) (by decide) (by decide) V
theorem keep_arg5 : after ops V (Proc.devRef .tc main_arg5) = V (Proc.devRef .tc main_arg5) :=
  keep_of_not_written main_arg5 (by decide) (by decide) (by decide) (by decide) (by decide) (by decide) (by decide) (by decide) (by decide) (by decide) (by decide) (by decide) (by decide) V
theorem keep_arg6 : after ops V (Proc.devRef .tc main_arg6) = V (Proc.devRef .tc main_arg6) :=
  keep_of_not_written main_arg6 (by decide) (by decide) (by decide) (by decide) (by decide) (by decide) (by decide) (by decide) (by decide) (by decide) (by decide) (by decide) (by decide) V
theorem keep_arg7 : after ops V (Proc.devRef .tc main_arg7) = V (Proc.devRef .tc main_arg7) :=
  keep_of_not_written main_arg7 (by decide) (by decide) (by decide) (by decide) (by decide) (by decide) (by decide) (by decide) (by decide) (by decide) (by decide) (by decide) (by decide) V
theorem keep_arg8 : after ops V (Proc.devRef .tc main_arg8) = V (Proc.devRef .tc main_arg8) :=
  keep_of_not_written main_arg8 (by decide) (by decide) (by decide) (by decide) (by decide) (by decide) (by decide) (by decide) (by decide) (by decide) (by decide) (by decide) (by decide) V

end Cert.ReferenceIdeal.RefValue

end
-- ==== Proof.RefSide.lean ====
/-
  The reference program's run, read at the result and the arguments: every weakly fair execution terminates with
  the result buffer at the network function of the arguments as launched, and every argument unchanged.
-/
import proofs.«118433_j81398220194150_1_alg».proof.Proof.RefOps
import proofs.«118433_j81398220194150_1_alg».proof.Proof.RValue

noncomputable section

namespace Cert.ReferenceIdeal.RefSide

open Idealize.ShloMosaic Idealize.ShloMosaic.TcCoe Idealize.ShloMosaic.StableHlo Idealize.SL.Sem
open Cert.ReferenceIdeal Cert.ReferenceIdeal.RefRun Cert.ReferenceIdeal.RefValue

/-- On every device, from any memory with zero counters: every weakly fair execution of @main terminates with the
    result at the network function of the arguments' launch contents and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v168).trans (result_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c))⟩)
    (run_all m ρ)

end Cert.ReferenceIdeal.RefSide

end
-- ==== Proof.lean ====
/-
  A three-layer Chebyshev graph convolution network: the row-tiled kernel program against its plain reference.

  Both programs build the same graph operators from the edge lists (self loops added, inverse square-root degrees),
  the same input features, and per layer the same three Chebyshev terms x0, x1, x2 of the node features.  They differ
  in the dense stage only.  The reference computes  relu( [x0 | x1 | x2] · W + b )  with the terms set side by side and
  the whole weight W : [384, 128]; the kernel computes, ten tiles of 5000 rows at a time,
  max( ((x0 · W₀ + x1 · W₁) + x2 · W₂) + b, 0 )  with W₀, W₁, W₂ the three 128-row blocks of W.  On the extended reals
  entry (p, q) of the first is a sum over 384 columns, which splits at 128 and 256 into the three sums of the second;
  only that a sum over a range is the sum over its parts and that addition is associative is used, and both hold at
  infinite entries too, so the precondition (finite inputs) is never opened.  Each program's run is read as the same
  network function of the arguments: the kernel's through the fold of its segments (host stretches and three
  pallas_calls, each call's output the dense stage of the arrays it found), the reference's through its operations in
  order.  The frames of the two kernel programs are the generated certificates; the reference's frame is its run with
  the result dropped; the idealization rewrote nothing, so it preserves the kernel trivially.
-/
import proofs.«118433_j81398220194150_1_alg».proof.Defs
import proofs.«118433_j81398220194150_1_alg».proof.Proof.Gen.Kernel
import proofs.«118433_j81398220194150_1_alg».proof.Proof.Gen.Kernel.Frame
import proofs.«118433_j81398220194150_1_alg».proof.Proof.Gen.KernelIdeal
import proofs.«118433_j81398220194150_1_alg».proof.Proof.Gen.KernelIdeal.Frame
import proofs.«118433_j81398220194150_1_alg».proof.Proof.Gen.ReferenceIdeal
import proofs.«118433_j81398220194150_1_alg».proof.Proof.Gen.Pre_finite_inputs
import proofs.«118433_j81398220194150_1_alg».proof.Proof.KSide
import proofs.«118433_j81398220194150_1_alg».proof.Proof.RefSide

noncomputable section

namespace Cert.Proof

open Idealize.ShloMosaic Idealize.SL.Sem

/-- The word-level kernel program runs and leaves its arguments as launched. -/
theorem frame_p : Cert.frame_Kernel := fun m ρ _ => Cert.Kernel.Gen.frame m ρ

/-- The idealized kernel program runs and leaves its arguments as launched. -/
theorem frame_pi : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefSide.run_value m ρ)

/-- From memories agreeing on the arguments both programs end with the network function of those arguments in their
    result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KSide.run_value m ρ, ?_⟩
  refine (θ_run Cert.ReferenceIdeal.defs _ _).mono (fun _ h c => ⟨(h c).1.trans ?_, (h c).2⟩)
    (Cert.ReferenceIdeal.RefSide.run_value m' ρ')
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
